-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S144x64 : Shape := ⟨2, ![144, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg16 : FVec F S64x64 .f32) (main_arg17 : FVec F S64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_v83 main_v84 main_cst_32

def fn_part3 {F : FTy → Type} [FloatOps F] (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_v48 : IVec S_ 1) (main_v49 : FVec F S144x64 .f32) (main_v50 : FVec F S144x64 .f32) : IVec S_ 1 :=
  let main_v51 : IVec S144x64 1 := cmpf .olt main_v49 main_v50
  let main_c_19 : IVec S_ 1 := constantI S_ 1 1#1
  let main_v52 : IVec S_ 1 := (fun x v => Host.reduce IntOp.andi x v reducesTo_S144x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_v63 main_v67

def fn_part2 {F : FTy → Type} [FloatOps F] (main_arg9 : FVec F S64 .f32) (main_arg10 : FVec F S144x64 .f32) (main_arg11 : FVec F S64 .f32) (main_arg12 : FVec F S144x64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S144x64 .f32 := Host.absf main_arg10
  let main_cst_14 : FVec F S_ .f32 := constant S_ .f32 0x7F800000#32
  let main_v40 : FVec F S144x64 .f32 := broadcastInDim S144x64 ![] bcast_S_S144x64 main_cst_14
  let main_v41 : IVec S144x64 1 := cmpf .olt main_v39 main_v40
  let main_c_15 : IVec S_ 1 := constantI S_ 1 1#1
  let main_v42 : IVec S_ 1 := (fun x v => Host.reduce IntOp.andi x v reducesTo_S144x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S144x64 .f32 := Host.absf main_arg12
  let main_cst_18 : FVec F S_ .f32 := constant S_ .f32 0x7F800000#32
  let main_v50 : FVec F S144x64 .f32 := broadcastInDim S144x64 ![] bcast_S_S144x64 main_cst_18
  fn_part3 (F := F) main_arg13 main_arg14 main_arg15 main_arg16 main_arg17 main_arg18 main_arg19 main_v48 main_v49 main_v50

def fn_part1 {F : FTy → Type} [FloatOps F] (main_arg6 : FVec F S144x64 .f32) (main_arg7 : FVec F S64 .f32) (main_arg8 : FVec F S64 .f32) (main_arg9 : FVec F S64 .f32) (main_arg10 : FVec F S144x64 .f32) (main_arg11 : FVec F S64 .f32) (main_arg12 : FVec F S144x64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S144x64 .f32 := Host.absf main_arg6
  let main_cst_6 : FVec F S_ .f32 := constant S_ .f32 0x7F800000#32
  let main_v20 : FVec F S144x64 .f32 := broadcastInDim S144x64 ![] bcast_S_S144x64 main_cst_6
  let main_v21 : IVec S144x64 1 := cmpf .olt main_v19 main_v20
  let main_c_7 : IVec S_ 1 := constantI S_ 1 1#1
  let main_v22 : IVec S_ 1 := (fun x v => Host.reduce IntOp.andi x v reducesTo_S144x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x64 .f32) (main_arg1 : IVec S2x800000 32) (main_arg2 : FVec F S800000x16 .f32) (main_arg3 : IVec S50000 32) (main_arg4 : FVec F S144x64 .f32) (main_arg5 : FVec F S64 .f32) (main_arg6 : FVec F S144x64 .f32) (main_arg7 : FVec F S64 .f32) (main_arg8 : FVec F S64 .f32) (main_arg9 : FVec F S64 .f32) (main_arg10 : FVec F S144x64 .f32) (main_arg11 : FVec F S64 .f32) (main_arg12 : FVec F S144x64 .f32) (main_arg13 : FVec F S64 .f32) (main_arg14 : FVec F S64 .f32) (main_arg15 : FVec F S64 .f32) (main_arg16 : FVec F S64x64 .f32) (main_arg17 : FVec F S64 .f32) (main_arg18 : FVec F S64x64 .f32) (main_arg19 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S144x64 .f32 := Host.absf main_arg4
  let main_cst_2 : FVec F S_ .f32 := constant S_ .f32 0x7F800000#32
  let main_v10 : FVec F S144x64 .f32 := broadcastInDim S144x64 ![] bcast_S_S144x64 main_cst_2
  let main_v11 : IVec S144x64 1 := cmpf .olt main_v9 main_v10
  let main_c_3 : IVec S_ 1 := constantI S_ 1 1#1
  let main_v12 : IVec S_ 1 := (fun x v => Host.reduce IntOp.andi x v reducesTo_S144x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S144x64 : Shape := ⟨2, ![144, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S4000x64 : Shape := ⟨2, ![4000, 64]⟩
abbrev S4000x16 : Shape := ⟨2, ![4000, 16]⟩
abbrev S16x64 : Shape := ⟨2, ![16, 64]⟩
abbrev S5000x64 : Shape := ⟨2, ![5000, 64]⟩
abbrev S50000x1 : Shape := ⟨2, ![50000, 1]⟩
abbrev S5000 : Shape := ⟨1, ![5000]⟩
abbrev S5000x1 : Shape := ⟨2, ![5000, 1]⟩

abbrev nBuf : Space → Nat
  | .hbm => 168
  | .vmem => 24
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S50000, .i32⟩
  | 4 => ⟨S144x64, .f32⟩
  | 5 => ⟨S64, .f32⟩
  | 6 => ⟨S144x64, .f32⟩
  | 7 => ⟨S64, .f32⟩
  | 8 => ⟨S64, .f32⟩
  | 9 => ⟨S64, .f32⟩
  | 10 => ⟨S144x64, .f32⟩
  | 11 => ⟨S64, .f32⟩
  | 12 => ⟨S144x64, .f32⟩
  | 13 => ⟨S64, .f32⟩
  | 14 => ⟨S64, .f32⟩
  | 15 => ⟨S64, .f32⟩
  | 16 => ⟨S64x64, .f32⟩
  | 17 => ⟨S64, .f32⟩
  | 18 => ⟨S64x64, .f32⟩
  | 19 => ⟨S64, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S1x64, .f32⟩
  | 43 => ⟨S1x64, .f32⟩
  | 44 => ⟨S800000x64, .f32⟩
  | 45 => ⟨S_, .f32⟩
  | 46 => ⟨S50000x64, .f32⟩
  | 47 => ⟨S800000x1, .i32⟩
  | 48 => ⟨S50000x64, .f32⟩
  | 49 => ⟨S50000x64, .f32⟩
  | 50 => ⟨S_, .f32⟩
  | 51 => ⟨S64, .f32⟩
  | 52 => ⟨S_, .f32⟩
  | 53 => ⟨S64, .f32⟩
  | 54 => ⟨S64, .f32⟩
  | 55 => ⟨S1x64, .f32⟩
  | 56 => ⟨S50000x64, .f32⟩
  | 57 => ⟨S50000x64, .f32⟩
  | 58 => ⟨S50000x64, .f32⟩
  | 59 => ⟨S_, .f32⟩
  | 60 => ⟨S64, .f32⟩
  | 61 => ⟨S_, .f32⟩
  | 62 => ⟨S64, .f32⟩
  | 63 => ⟨S64, .f32⟩
  | 64 => ⟨S1x64, .f32⟩
  | 65 => ⟨S50000x64, .f32⟩
  | 66 => ⟨S50000x64, .f32⟩
  | 67 => ⟨S_, .f32⟩
  | 68 => ⟨S64, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S1x64, .f32⟩
  | 99 => ⟨S1x64, .f32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S50000x64, .f32⟩
  | 106 => ⟨S_, .f32⟩
  | 107 => ⟨S64, .f32⟩
  | 108 => ⟨S_, .f32⟩
  | 109 => ⟨S64, .f32⟩
  | 110 => ⟨S64, .f32⟩
  | 111 => ⟨S1x64, .f32⟩
  | 112 => ⟨S50000x64, .f32⟩
  | 113 => ⟨S50000x64, .f32⟩
  | 114 => ⟨S50000x64, .f32⟩
  | 115 => ⟨S_, .f32⟩
  | 116 => ⟨S64, .f32⟩
  | 117 => ⟨S_, .f32⟩
  | 118 => ⟨S64, .f32⟩
  | 119 => ⟨S64, .f32⟩
  | 120 => ⟨S1x64, .f32⟩
  | 121 => ⟨S50000x64, .f32⟩
  | 122 => ⟨S50000x64, .f32⟩
  | 123 => ⟨S_, .f32⟩
  | 124 => ⟨S64, .f32⟩
  | 125 => ⟨S64, .f32⟩
  | 126 => ⟨S64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S1x64, .f32⟩
  | 6 => ⟨S50000x64, .f32⟩
  | 7 => ⟨S50000x64, .f32⟩
  | 8 => ⟨S_, .f32⟩
  | 9 => ⟨S5000x64, .f32⟩
  | 10 => ⟨S50000x1, .i32⟩
  | 11 => ⟨S5000x64, .f32⟩
  | 12 => ⟨S_, .f32⟩
  | 13 => ⟨S50000, .f32⟩
  | 14 => ⟨S_, .f32⟩
  | 15 => ⟨S5000, .f32⟩
  | 16 => ⟨S50000x1, .i32⟩
  | 17 => ⟨S5000, .f32⟩
  | 18 => ⟨S_, .f32⟩
  | 19 => ⟨S5000, .f32⟩
  | 20 => ⟨S5000, .f32⟩
  | 21 => ⟨S5000x1, .f32⟩
  | 22 => ⟨S5000x64, .f32⟩
  | 23 => ⟨S5000x64, .f32⟩
  | 24 => ⟨S5000x64, .f32⟩
  | 25 => ⟨S1x64, .f32⟩
  | 26 => ⟨S5000x64, .f32⟩
  | 27 => ⟨S5000x64, .f32⟩
  | 28 => ⟨S_, .f32⟩
  | 29 => ⟨S_, .f32⟩
  | 30 => ⟨S5000x64, .f32⟩
  | 31 => ⟨S5000x64, .i1⟩
  | 32 => ⟨S_, .f32⟩
  | 33 => ⟨S5000x64, .f32⟩
  | 34 => ⟨S5000x64, .f32⟩
  | 35 => ⟨S5000x64, .f32⟩
  | 36 => ⟨S5000x64, .f32⟩
  | 37 => ⟨S1x64, .f32⟩
  | 38 => ⟨S5000x64, .f32⟩
  | 39 => ⟨S5000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x16, .f32⟩
  | .local _ .vmem, ⟨5, _⟩ => ⟨S4000x16, .f32⟩
  | .local _ .vmem, ⟨6, _⟩ => ⟨S144x64, .f32⟩
  | .local _ .vmem, ⟨7, _⟩ => ⟨S1x64, .f32⟩
  | .local _ .vmem, ⟨8, _⟩ => ⟨S144x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x16, .f32⟩
  | .local _ .vmem, ⟨17, _⟩ => ⟨S4000x16, .f32⟩
  | .local _ .vmem, ⟨18, _⟩ => ⟨S144x64, .f32⟩
  | .local _ .vmem, ⟨19, _⟩ => ⟨S1x64, .f32⟩
  | .local _ .vmem, ⟨20, _⟩ => ⟨S144x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_8 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_18 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_19 : Ref sig .tc := ⟨.hbm, 140, rfl⟩
abbrev main_v99 : Ref sig .tc := ⟨.hbm, 141, rfl⟩
abbrev main_cst_20 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_22 : Ref sig .tc := ⟨.hbm, 156, rfl⟩
abbrev main_call0_cst : Ref sig .tc := ⟨.hbm, 157, rfl⟩
abbrev main_call0_v0 : Ref sig .tc := ⟨.hbm, 158, rfl⟩
abbrev main_call0_v1 : Ref sig .tc := ⟨.hbm, 159, rfl⟩
abbrev main_call0_v2 : Ref sig .tc := ⟨.hbm, 160, rfl⟩
abbrev main_call0_v3 : Ref sig .tc := ⟨.hbm, 161, rfl⟩
abbrev main_call0_v4 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S144x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S144x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S144x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S144x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S4000x16_S4000x16_0_0 : ∀ a, (![0, 0] : Fin 2 → Nat) a + S4000x16.size a ≤ S4000x16.size a
  h_S4000x16 : 0 < S4000x16.numel
  inb_S144x64_S144x64_0_0 : ∀ a, (![0, 0] : Fin 2 → Nat) a + S144x64.size a ≤ S144x64.size a
  h_S144x64 : 0 < S144x64.numel
  slices_S144x64_o0_0_S64x64 : S144x64.Slices ![0, 0] S64x64
  slices_S144x64_o64_0_S64x64 : S144x64.Slices ![64, 0] S64x64
  slices_S144x64_o128_0_S16x64 : S144x64.Slices ![128, 0] S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S5000x64 : S_.BroadcastsInDim S5000x64 (![] : Fin 0 → Fin S5000x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S1x64_S5000x64_0_1 : S1x64.BroadcastsInDim S5000x64 (![0, 1] : Fin 2 → Fin S5000x64.rank)
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  dot_S4000x16_S16x64_S4000x64_1_0_0_1_n_n_wf : DotDims.WF S4000x16 S16x64 S4000x64 [1] [0] [0] [1] [] []
  scatter_S50000x64_S800000x1_S800000x64_1_0_0_1_wf : ScatterDims.WF S50000x64 S800000x1 S800000x64 [1] [0] [0] 1
  scatter_S5000x64_S50000x1_S50000x64_1_0_0_1_wf : ScatterDims.WF S5000x64 S50000x1 S50000x64 [1] [0] [0] 1
  scatter_S5000_S50000x1_S50000_n_0_0_1_wf : ScatterDims.WF S5000 S50000x1 S50000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S800000x16.size a
  hwx0_2 : ∀ i : grid0.Coords, EltTy.bits .f32 = 32 ∨ (Rect.block (s := S800000x16) S4000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144x64.size a ≤ S144x64.size a
  hwx0_3 : ∀ i : grid0.Coords, EltTy.bits .f32 = 32 ∨ (Rect.block (s := S144x64) S144x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S144x64.size a ≤ S144x64.size a
  hwx0_5 : ∀ i : grid0.Coords, EltTy.bits .f32 = 32 ∨ (Rect.block (s := S144x64) S144x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S800000x64.size a
  hwx0_7 : ∀ i : grid0.Coords, EltTy.bits .f32 = 32 ∨ (Rect.block (s := S800000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S800000x64.size a
  hwx1_1 : ∀ i : grid1.Coords, EltTy.bits .f32 = 32 ∨ (Rect.block (s := S800000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S800000x16.size a
  hwx1_2 : ∀ i : grid1.Coords, EltTy.bits .f32 = 32 ∨ (Rect.block (s := S800000x16) S4000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S144x64.size a ≤ S144x64.size a
  hwx1_3 : ∀ i : grid1.Coords, EltTy.bits .f32 = 32 ∨ (Rect.block (s := S144x64) S144x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S144x64.size a ≤ S144x64.size a
  hwx1_5 : ∀ i : grid1.Coords, EltTy.bits .f32 = 32 ∨ (Rect.block (s := S144x64) S144x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S800000x64.size a
  hwx1_7 : ∀ i : grid1.Coords, EltTy.bits .f32 = 32 ∨ (Rect.block (s := S800000x64) S4000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S5000x64_S50000x1_S50000x64_1_0_0_1 : ScatterDims S5000x64 S50000x1 S50000x64 where
  updateWindowDims := [1]
  insertedWindowDims := [0]
  scatterDimsToOperandDims := [0]
  indexVectorDim := 1
  wf := scatter_S5000x64_S50000x1_S50000x64_1_0_0_1_wf
def scatter_S5000_S50000x1_S50000_n_0_0_1 : ScatterDims S5000 S50000x1 S50000 where
  updateWindowDims := []
  insertedWindowDims := [0]
  scatterDimsToOperandDims := [0]
  indexVectorDim := 1
  wf := scatter_S5000_S50000x1_S50000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S144x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S144x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v56) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S144x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S144x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v66) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S50000 : Shape := ⟨1, ![50000]⟩
abbrev S144x64 : Shape := ⟨2, ![144, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S1x64 : Shape := ⟨2, ![1, 64]⟩
abbrev S5000x64 : Shape := ⟨2, ![5000, 64]⟩
abbrev S50000x1 : Shape := ⟨2, ![50000, 1]⟩
abbrev S5000 : Shape := ⟨1, ![5000]⟩
abbrev S5000x1 : Shape := ⟨2, ![5000, 1]⟩

abbrev nBuf : Space → Nat
  | .hbm => 226
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S50000, .i32⟩
  | 4 => ⟨S144x64, .f32⟩
  | 5 => ⟨S64, .f32⟩
  | 6 => ⟨S144x64, .f32⟩
  | 7 => ⟨S64, .f32⟩
  | 8 => ⟨S64, .f32⟩
  | 9 => ⟨S64, .f32⟩
  | 10 => ⟨S144x64, .f32⟩
  | 11 => ⟨S64, .f32⟩
  | 12 => ⟨S144x64, .f32⟩
  | 13 => ⟨S64, .f32⟩
  | 14 => ⟨S64, .f32⟩
  | 15 => ⟨S64, .f32⟩
  | 16 => ⟨S64x64, .f32⟩
  | 17 => ⟨S64, .f32⟩
  | 18 => ⟨S64x64, .f32⟩
  | 19 => ⟨S64, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S800000x144, .f32⟩
  | 43 => ⟨S800000x64, .f32⟩
  | 44 => ⟨S1x64, .f32⟩
  | 45 => ⟨S800000x64, .f32⟩
  | 46 => ⟨S800000x64, .f32⟩
  | 47 => ⟨S800000x64, .f32⟩
  | 48 => ⟨S800000x64, .f32⟩
  | 49 => ⟨S_, .f32⟩
  | 50 => ⟨S800000x64, .f32⟩
  | 51 => ⟨S800000x64, .f32⟩
  | 52 => ⟨S_, .f32⟩
  | 53 => ⟨S800000x64, .f32⟩
  | 54 => ⟨S800000x64, .f32⟩
  | 55 => ⟨S800000x64, .f32⟩
  | 56 => ⟨S1x64, .f32⟩
  | 57 => ⟨S800000x64, .f32⟩
  | 58 => ⟨S800000x64, .f32⟩
  | 59 => ⟨S_, .f32⟩
  | 60 => ⟨S800000x64, .f32⟩
  | 61 => ⟨S800000x64, .f32⟩
  | 62 => ⟨S800000x64, .f32⟩
  | 63 => ⟨S800000x64, .f32⟩
  | 64 => ⟨S800000x64, .i1⟩
  | 65 => ⟨S800000x64, .f32⟩
  | 66 => ⟨S800000x64, .f32⟩
  | 67 => ⟨S800000x64, .f32⟩
  | 68 => ⟨S800000x64, .f32⟩
  | 69 => ⟨S800000x64, .f32⟩
  | 70 => ⟨S800000x64, .f32⟩
  | 71 => ⟨S800000x64, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S50000x64, .f32⟩
  | 79 => ⟨S_, .f32⟩
  | 80 => ⟨S64, .f32⟩
  | 81 => ⟨S_, .f32⟩
  | 82 => ⟨S64, .f32⟩
  | 83 => ⟨S64, .f32⟩
  | 84 => ⟨S1x64, .f32⟩
  | 85 => ⟨S50000x64, .f32⟩
  | 86 => ⟨S50000x64, .f32⟩
  | 87 => ⟨S50000x64, .f32⟩
  | 88 => ⟨S_, .f32⟩
  | 89 => ⟨S64, .f32⟩
  | 90 => ⟨S_, .f32⟩
  | 91 => ⟨S64, .f32⟩
  | 92 => ⟨S64, .f32⟩
  | 93 => ⟨S1x64, .f32⟩
  | 94 => ⟨S50000x64, .f32⟩
  | 95 => ⟨S50000x64, .f32⟩
  | 96 => ⟨S_, .f32⟩
  | 97 => ⟨S64, .f32⟩
  | 98 => ⟨S64, .f32⟩
  | 99 => ⟨S64, .f32⟩
  | 100 => ⟨S1x64, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x64, .f32⟩
  | 127 => ⟨S800000x144, .f32⟩
  | _ => ⟨S50000x64, .f32⟩

abbrev hbmTy0_1 (i : Nat) : BufTy := match i % 128 with
  | 0 => ⟨S800000x64, .f32⟩
  | 1 => ⟨S1x64, .f32⟩
  | 2 => ⟨S800000x64, .f32⟩
  | 3 => ⟨S800000x64, .f32⟩
  | 4 => ⟨S800000x64, .f32⟩
  | 5 => ⟨S800000x64, .f32⟩
  | 6 => ⟨S_, .f32⟩
  | 7 => ⟨S800000x64, .f32⟩
  | 8 => ⟨S800000x64, .f32⟩
  | 9 => ⟨S_, .f32⟩
  | 10 => ⟨S800000x64, .f32⟩
  | 11 => ⟨S800000x64, .f32⟩
  | 12 => ⟨S800000x64, .f32⟩
  | 13 => ⟨S1x64, .f32⟩
  | 14 => ⟨S800000x64, .f32⟩
  | 15 => ⟨S800000x64, .f32⟩
  | 16 => ⟨S_, .f32⟩
  | 17 => ⟨S800000x64, .f32⟩
  | 18 => ⟨S800000x64, .f32⟩
  | 19 => ⟨S800000x64, .f32⟩
  | 20 => ⟨S800000x64, .f32⟩
  | 21 => ⟨S800000x64, .i1⟩
  | 22 => ⟨S800000x64, .f32⟩
  | 23 => ⟨S800000x64, .f32⟩
  | 24 => ⟨S800000x64, .f32⟩
  | 25 => ⟨S800000x64, .f32⟩
  | 26 => ⟨S800000x64, .f32⟩
  | 27 => ⟨S800000x64, .f32⟩
  | 28 => ⟨S800000x64, .f32⟩
  | 29 => ⟨S800000x64, .f32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000x64, .f32⟩
  | 36 => ⟨S_, .f32⟩
  | 37 => ⟨S64, .f32⟩
  | 38 => ⟨S_, .f32⟩
  | 39 => ⟨S64, .f32⟩
  | 40 => ⟨S64, .f32⟩
  | 41 => ⟨S1x64, .f32⟩
  | 42 => ⟨S50000x64, .f32⟩
  | 43 => ⟨S50000x64, .f32⟩
  | 44 => ⟨S50000x64, .f32⟩
  | 45 => ⟨S_, .f32⟩
  | 46 => ⟨S64, .f32⟩
  | 47 => ⟨S_, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S_, .f32⟩
  | 54 => ⟨S64, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S5000x64, .f32⟩
  | 68 => ⟨S50000x1, .i32⟩
  | 69 => ⟨S5000x64, .f32⟩
  | 70 => ⟨S_, .f32⟩
  | 71 => ⟨S50000, .f32⟩
  | 72 => ⟨S_, .f32⟩
  | 73 => ⟨S5000, .f32⟩
  | 74 => ⟨S50000x1, .i32⟩
  | 75 => ⟨S5000, .f32⟩
  | 76 => ⟨S_, .f32⟩
  | 77 => ⟨S5000, .f32⟩
  | 78 => ⟨S5000, .f32⟩
  | 79 => ⟨S5000x1, .f32⟩
  | 80 => ⟨S5000x64, .f32⟩
  | 81 => ⟨S5000x64, .f32⟩
  | 82 => ⟨S5000x64, .f32⟩
  | 83 => ⟨S1x64, .f32⟩
  | 84 => ⟨S5000x64, .f32⟩
  | 85 => ⟨S5000x64, .f32⟩
  | 86 => ⟨S_, .f32⟩
  | 87 => ⟨S_, .f32⟩
  | 88 => ⟨S5000x64, .f32⟩
  | 89 => ⟨S5000x64, .i1⟩
  | 90 => ⟨S_, .f32⟩
  | 91 => ⟨S5000x64, .f32⟩
  | 92 => ⟨S5000x64, .f32⟩
  | 93 => ⟨S5000x64, .f32⟩
  | 94 => ⟨S5000x64, .f32⟩
  | 95 => ⟨S1x64, .f32⟩
  | 96 => ⟨S5000x64, .f32⟩
  | 97 => ⟨S5000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_v33 : Ref sig .tc := ⟨.hbm, 72, rfl⟩
abbrev main_v34 : Ref sig .tc := ⟨.hbm, 73, rfl⟩
abbrev main_cst_4 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_5 : Ref sig .tc := ⟨.hbm, 79, rfl⟩
abbrev main_v39 : Ref sig .tc := ⟨.hbm, 80, rfl⟩
abbrev main_cst_6 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_7 : Ref sig .tc := ⟨.hbm, 88, rfl⟩
abbrev main_v46 : Ref sig .tc := ⟨.hbm, 89, rfl⟩
abbrev main_cst_8 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_9 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_10 : Ref sig .tc := ⟨.hbm, 109, rfl⟩
abbrev main_v64 : Ref sig .tc := ⟨.hbm, 110, rfl⟩
abbrev main_v65 : Ref sig .tc := ⟨.hbm, 111, rfl⟩
abbrev main_c_11 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_c_12 : Ref sig .tc := ⟨.hbm, 118, rfl⟩
abbrev main_v71 : Ref sig .tc := ⟨.hbm, 119, rfl⟩
abbrev main_v72 : Ref sig .tc := ⟨.hbm, 120, rfl⟩
abbrev main_c_13 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_14 : Ref sig .tc := ⟨.hbm, 134, rfl⟩
abbrev main_v85 : Ref sig .tc := ⟨.hbm, 135, rfl⟩
abbrev main_v86 : Ref sig .tc := ⟨.hbm, 136, rfl⟩
abbrev main_cst_15 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_call1_cst : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_v5 : Ref sig .tc := ⟨.hbm, 150, rfl⟩
abbrev main_call1_v6 : Ref sig .tc := ⟨.hbm, 151, rfl⟩
abbrev main_call1_v7 : Ref sig .tc := ⟨.hbm, 152, rfl⟩
abbrev main_call1_v8 : Ref sig .tc := ⟨.hbm, 153, rfl⟩
abbrev main_call1_v9 : Ref sig .tc := ⟨.hbm, 154, rfl⟩
abbrev main_call1_v10 : Ref sig .tc := ⟨.hbm, 155, rfl⟩
abbrev main_call1_v11 : Ref sig .tc := ⟨.hbm, 156, rfl⟩
abbrev main_v93 : Ref sig .tc := ⟨.hbm, 157, rfl⟩
abbrev main_v94 : Ref sig .tc := ⟨.hbm, 158, rfl⟩
abbrev main_cst_16 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_17 : Ref sig .tc := ⟨.hbm, 164, rfl⟩
abbrev main_v99 : Ref sig .tc := ⟨.hbm, 165, rfl⟩
abbrev main_cst_18 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_19 : Ref sig .tc := ⟨.hbm, 173, rfl⟩
abbrev main_v106 : Ref sig .tc := ⟨.hbm, 174, rfl⟩
abbrev main_cst_20 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_cst_21 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_22 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_23 : Ref sig .tc := ⟨.hbm, 198, rfl⟩
abbrev main_v127 : Ref sig .tc := ⟨.hbm, 199, rfl⟩
abbrev main_cst_24 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_25 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_cst_26 : Ref sig .tc := ⟨.hbm, 214, rfl⟩
abbrev main_call2_cst : Ref sig .tc := ⟨.hbm, 215, rfl⟩
abbrev main_call2_v0 : Ref sig .tc := ⟨.hbm, 216, rfl⟩
abbrev main_call2_v1 : Ref sig .tc := ⟨.hbm, 217, rfl⟩
abbrev main_call2_v2 : Ref sig .tc := ⟨.hbm, 218, rfl⟩
abbrev main_call2_v3 : Ref sig .tc := ⟨.hbm, 219, rfl⟩
abbrev main_call2_v4 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S1x64_S50000x64_0_1 : S1x64.BroadcastsInDim S50000x64 (![0, 1] : Fin 2 → Fin S50000x64.rank)
  bcast_S_S5000x64 : S_.BroadcastsInDim S5000x64 (![] : Fin 0 → Fin S5000x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S1x64_S5000x64_0_1 : S1x64.BroadcastsInDim S5000x64 (![0, 1] : Fin 2 → Fin S5000x64.rank)
  gather_S50000x64_S800000x1_S800000x64_1_0_n_n_0_1_164_wf : GatherDims.WF S50000x64 S800000x1 S800000x64 [1] [0] [] [0] [] 1 ![1, 64]
  dot_S800000x144_S144x64_S800000x64_1_0_0_1_n_n_wf : DotDims.WF S800000x144 S144x64 S800000x64 [1] [0] [0] [1] [] []
  scatter_S50000x64_S800000x1_S800000x64_1_0_0_1_wf : ScatterDims.WF S50000x64 S800000x1 S800000x64 [1] [0] [0] 1
  scatter_S5000x64_S50000x1_S50000x64_1_0_0_1_wf : ScatterDims.WF S5000x64 S50000x1 S50000x64 [1] [0] [0] 1
  scatter_S5000_S50000x1_S50000_n_0_0_1_wf : ScatterDims.WF S5000 S50000x1 S50000 [] [0] [0] 1
  dot_S5000x64_S64x64_S5000x64_1_0_0_1_n_n_wf : DotDims.WF S5000x64 S64x64 S5000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S5000x64_S50000x1_S50000x64_1_0_0_1 : ScatterDims S5000x64 S50000x1 S50000x64 where
  updateWindowDims := [1]
  insertedWindowDims := [0]
  scatterDimsToOperandDims := [0]
  indexVectorDim := 1
  wf := scatter_S5000x64_S50000x1_S50000x64_1_0_0_1_wf
def scatter_S5000_S50000x1_S50000_n_0_0_1 : ScatterDims S5000 S50000x1 S50000 where
  updateWindowDims := []
  insertedWindowDims := [0]
  scatterDimsToOperandDims := [0]
  indexVectorDim := 1
  wf := scatter_S5000_S50000x1_S50000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

class Facts : Prop extends Facts₀ where

variable [Facts]
-- ==== Proof.RefOps.lean ====
/- The reference program's @main as five consecutive lists of host operations.

   Per edge r the reference gathers the destination and source node rows (the index rows of the edge table, an index
   below zero wrapped by the node count), concatenates them with the edge features into one row of 144 columns, and
   forms logistic(row · W_f + b_f) * softplus(row · W_s + b_s); the messages are summed into their destination nodes,
   added to the node features and normalised over the nodes. This happens twice (two layers), and a pooled read-out
   follows. The five lists cut the program at the two places where a message tensor is formed, so that what a message
   tensor holds can be read from a short list: the operations before the first concatenation, the first message, the
   operations up to the second concatenation, the second message, and the rest. An outlined function's operations
   (softplus, twice; the leaky rectifier and the select it calls) stand in place at their call, over that call's own
   buffers. -/
import proofs.«163275_j5145370821233_2_alg».proof.ReferenceIdeal
import proofs.«163275_j5145370821233_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements %0 … %17: the two index rows of the edge table, each wrapped (an index below zero has the node count
    50000 added), and the two gathers of node rows they select. The last entry writes `main_v17`. -/
abbrev opsPre : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v3 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v3 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Statements %18 … %34, the first layer's message: the concatenation [x_dst | x_src | e] (`main_v18`), the two
    affine maps, 1 / (1 + exp (-·)) of the first, softplus of the second (its fourteen operations in place, over the
    first call's buffers, the result in `main_v33`), and their product (`main_v34`). -/
abbrev opsMsg0 : List (HloOp τ sig (Elt F)) :=
  [ nary ![main_v10, main_v17, main_arg2] main_v18 (fun u => concatenate S800000x144 1 [⟨S800000x64, u 0⟩, ⟨S800000x64, u 1⟩, ⟨S800000x16, u 2⟩] concatenates_S800000x64_S800000x64_S800000x16_S800000x144_d1),
    binary main_v18 main_arg4 main_v19 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg5 main_v20 (broadcastInDim S1x64 ![1] bcast_S64_S1x64_1 : (⟨S64, .f32⟩ : BufTy).Contents (Elt F) → (⟨S1x64, .f32⟩ : BufTy).Contents (Elt F)),
    unary main_v20 main_v21 (broadcastInDim S800000x64 ![0, 1] bcast_S1x64_S800000x64_0_1 : (⟨S1x64, .f32⟩ : BufTy).Contents (Elt F) → (⟨S800000x64, .f32⟩ : BufTy).Contents (Elt F)),
    binary main_v19 main_v21 main_v22 (addf : (⟨S800000x64, .f32⟩ : BufTy).Contents (Elt F) → (⟨S800000x64, .f32⟩ : BufTy).Contents (Elt F) → (⟨S800000x64, .f32⟩ : BufTy).Contents (Elt F)),
    unary main_v22 main_v23 (Host.negf : (⟨S800000x64, .f32⟩ : BufTy).Contents (Elt F) → (⟨S800000x64, .f32⟩ : BufTy).Contents (Elt F)),
    unary main_v23 main_v24 (Host.exp : (⟨S800000x64, .f32⟩ : BufTy).Contents (Elt F) → (⟨S800000x64, .f32⟩ : BufTy).Contents (Elt F)),
    nullary main_cst (constant S_ .f32 0x3F800000#32),
    unary main_cst main_v25 (broadcastInDim S800000x64 ![] bcast_S_S800000x64 : (⟨S_, .f32⟩ : BufTy).Contents (Elt F) → (⟨S800000x64, .f32⟩ : BufTy).Contents (Elt F)),
    binary main_v25 main_v24 main_v26 (addf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x3F800000#32),
    unary main_cst_3 main_v27 (broadcastInDim S800000x64 ![] bcast_S_S800000x64 : (⟨S_, .f32⟩ : BufTy).Contents (Elt F) → (⟨S800000x64, .f32⟩ : BufTy).Contents (Elt F)),
    binary main_v27 main_v26 main_v28 (Host.divf : (⟨S800000x64, .f32⟩ : BufTy).Contents (Elt F) → (⟨S800000x64, .f32⟩ : BufTy).Contents (Elt F) → (⟨S800000x64, .f32⟩ : BufTy).Contents (Elt F)),
    binary main_v18 main_arg6 main_v29 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg7 main_v30 (broadcastInDim S1x64 ![1] bcast_S64_S1x64_1 : (⟨S64, .f32⟩ : BufTy).Contents (Elt F) → (⟨S1x64, .f32⟩ : BufTy).Contents (Elt F)),
    unary main_v30 main_v31 (broadcastInDim S800000x64 ![0, 1] bcast_S1x64_S800000x64_0_1 : (⟨S1x64, .f32⟩ : BufTy).Contents (Elt F) → (⟨S800000x64, .f32⟩ : BufTy).Contents (Elt F)),
    binary main_v29 main_v31 main_v32 (addf : (⟨S800000x64, .f32⟩ : BufTy).Contents (Elt F) → (⟨S800000x64, .f32⟩ : BufTy).Contents (Elt F) → (⟨S800000x64, .f32⟩ : BufTy).Contents (Elt F)),
    TRef.nullary main_call0.cst (constant S_ .f32 0x00000000#32),
    TRef.unary main_call0.cst main_call0.v0 (broadcastInDim S800000x64 ![] bcast_S_S800000x64),
    TRef.binary (.of main_v32) main_call0.v0 main_call0.v1 maximumf,
    TRef.unary main_call0.cst main_call0.v2 (broadcastInDim S800000x64 ![] bcast_S_S800000x64),
    TRef.binary (.of main_v32) main_call0.v2 main_call0.v3 subf,
    TRef.binary main_call0.v3 main_call0.v3 main_call0.v4 (cmpf .une),
    TRef.unary main_call0.cst main_call0.v5 (broadcastInDim S800000x64 ![] bcast_S_S800000x64),
    TRef.binary (.of main_v32) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    binary main_v28 main_v33 main_v34 (mulf : (⟨S800000x64, .f32⟩ : BufTy).Contents (Elt F) → (⟨S800000x64, .f32⟩ : BufTy).Contents (Elt F) → (⟨S800000x64, .f32⟩ : BufTy).Contents (Elt F)) ]

/-- Statements %cst_4 / %35 … %77: the messages summed into their destination nodes, the residual sum, the
    normalisation over the nodes (mean, variance, scale and shift), and the second layer's two gathers. The last
    entry writes `main_v77`. -/
abbrev opsMid : List (HloOp τ sig (Elt F)) :=
  [ nullary main_cst_4 (constant S_ .f32 0x00000000#32),
    unary main_cst_4 main_v35 (broadcastInDim S50000x64 ![] bcast_S_S50000x64 : (⟨S_, .f32⟩ : BufTy).Contents (Elt F) → (⟨S50000x64, .f32⟩ : BufTy).Contents (Elt F)),
    unary main_v3 main_v36 (broadcastInDim S800000x1 ![0] bcast_S800000_S800000x1_0 : (⟨S800000, .i32⟩ : BufTy).Contents (Elt F) → (⟨S800000x1, .i32⟩ : BufTy).Contents (Elt F)),
    ternary main_v35 main_v36 main_v34 main_v37 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_arg0 main_v37 main_v38 (addf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x00000000#32),
    binary main_v38 main_cst_5 main_v39 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_6 (constant S_ .f32 0x47435000#32),
    unary main_cst_6 main_v40 (broadcastInDim S64 ![] bcast_S_S64 : (⟨S_, .f32⟩ : BufTy).Contents (Elt F) → (⟨S64, .f32⟩ : BufTy).Contents (Elt F)),
    binary main_v39 main_v40 main_v41 (Host.divf : (⟨S64, .f32⟩ : BufTy).Contents (Elt F) → (⟨S64, .f32⟩ : BufTy).Contents (Elt F) → (⟨S64, .f32⟩ : BufTy).Contents (Elt F)),
    unary main_v41 main_v42 (broadcastInDim S1x64 ![1] bcast_S64_S1x64_1 : (⟨S64, .f32⟩ : BufTy).Contents (Elt F) → (⟨S1x64, .f32⟩ : BufTy).Contents (Elt F)),
    unary main_v42 main_v43 (broadcastInDim S50000x64 ![0, 1] bcast_S1x64_S50000x64_0_1 : (⟨S1x64, .f32⟩ : BufTy).Contents (Elt F) → (⟨S50000x64, .f32⟩ : BufTy).Contents (Elt F)),
    binary main_v38 main_v43 main_v44 (subf : (⟨S50000x64, .f32⟩ : BufTy).Contents (Elt F) → (⟨S50000x64, .f32⟩ : BufTy).Contents (Elt F) → (⟨S50000x64, .f32⟩ : BufTy).Contents (Elt F)),
    binary main_v44 main_v44 main_v45 (mulf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x00000000#32),
    binary main_v45 main_cst_7 main_v46 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_8 (constant S_ .f32 0x47435000#32),
    unary main_cst_8 main_v47 (broadcastInDim S64 ![] bcast_S_S64 : (⟨S_, .f32⟩ : BufTy).Contents (Elt F) → (⟨S64, .f32⟩ : BufTy).Contents (Elt F)),
    binary main_v46 main_v47 main_v48 (Host.divf : (⟨S64, .f32⟩ : BufTy).Contents (Elt F) → (⟨S64, .f32⟩ : BufTy).Contents (Elt F) → (⟨S64, .f32⟩ : BufTy).Contents (Elt F)),
    unary main_v41 main_v49 (broadcastInDim S1x64 ![1] bcast_S64_S1x64_1 : (⟨S64, .f32⟩ : BufTy).Contents (Elt F) → (⟨S1x64, .f32⟩ : BufTy).Contents (Elt F)),
    unary main_v49 main_v50 (broadcastInDim S50000x64 ![0, 1] bcast_S1x64_S50000x64_0_1 : (⟨S1x64, .f32⟩ : BufTy).Contents (Elt F) → (⟨S50000x64, .f32⟩ : BufTy).Contents (Elt F)),
    binary main_v38 main_v50 main_v51 (subf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x3727C5AC#32),
    unary main_cst_9 main_v52 (broadcastInDim S64 ![] bcast_S_S64 : (⟨S_, .f32⟩ : BufTy).Contents (Elt F) → (⟨S64, .f32⟩ : BufTy).Contents (Elt F)),
    binary main_v48 main_v52 main_v53 (addf : (⟨S64, .f32⟩ : BufTy).Contents (Elt F) → (⟨S64, .f32⟩ : BufTy).Contents (Elt F) → (⟨S64, .f32⟩ : BufTy).Contents (Elt F)),
    unary main_v53 main_v54 (Host.rsqrt : (⟨S64, .f32⟩ : BufTy).Contents (Elt F) → (⟨S64, .f32⟩ : BufTy).Contents (Elt F)),
    unary main_v54 main_v55 (broadcastInDim S1x64 ![1] bcast_S64_S1x64_1 : (⟨S64, .f32⟩ : BufTy).Contents (Elt F) → (⟨S1x64, .f32⟩ : BufTy).Contents (Elt F)),
    unary main_v55 main_v56 (broadcastInDim S50000x64 ![0, 1] bcast_S1x64_S50000x64_0_1 : (⟨S1x64, .f32⟩ : BufTy).Contents (Elt F) → (⟨S50000x64, .f32⟩ : BufTy).Contents (Elt F)),
    binary main_v51 main_v56 main_v57 (mulf : (⟨S50000x64, .f32⟩ : BufTy).Contents (Elt F) → (⟨S50000x64, .f32⟩ : BufTy).Contents (Elt F) → (⟨S50000x64, .f32⟩ : BufTy).Contents (Elt F)),
    unary main_arg8 main_v58 (broadcastInDim S1x64 ![1] bcast_S64_S1x64_1 : (⟨S64, .f32⟩ : BufTy).Contents (Elt F) → (⟨S1x64, .f32⟩ : BufTy).Contents (Elt F)),
    unary main_v58 main_v59 (broadcastInDim S50000x64 ![0, 1] bcast_S1x64_S50000x64_0_1 : (⟨S1x64, .f32⟩ : BufTy).Contents (Elt F) → (⟨S50000x64, .f32⟩ : BufTy).Contents (Elt F)),
    binary main_v57 main_v59 main_v60 (mulf : (⟨S50000x64, .f32⟩ : BufTy).Contents (Elt F) → (⟨S50000x64, .f32⟩ : BufTy).Contents (Elt F) → (⟨S50000x64, .f32⟩ : BufTy).Contents (Elt F)),
    unary main_arg9 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v60 main_v62 main_v63 (addf : (⟨S50000x64, .f32⟩ : BufTy).Contents (Elt F) → (⟨S50000x64, .f32⟩ : BufTy).Contents (Elt F) → (⟨S50000x64, .f32⟩ : BufTy).Contents (Elt F)),
    nullary main_c_10 (constantI S_ 32 0#32),
    unary main_c_10 main_v64 (broadcastInDim S800000 ![] bcast_S_S800000 : (⟨S_, .i32⟩ : BufTy).Contents (Elt F) → (⟨S800000, .i32⟩ : BufTy).Contents (Elt F)),
    binary main_v3 main_v64 main_v65 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v66 (broadcastInDim S800000 ![] bcast_S_S800000 : (⟨S_, .i32⟩ : BufTy).Contents (Elt F) → (⟨S800000, .i32⟩ : BufTy).Contents (Elt F)),
    binary main_v3 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_v3 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_v63 main_v69 main_v70 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_12 (constantI S_ 32 0#32),
    unary main_c_12 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v63 main_v76 main_v77 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Statements %78 … %94, the second layer's message, as the first: the concatenation (`main_v78`), the two affine
    maps, the logistic, softplus over the second call's buffers (result `main_v93`), the product (`main_v94`). -/
abbrev opsMsg1 : List (HloOp τ sig (Elt F)) :=
  [ nary ![main_v70, main_v77, main_arg2] main_v78 (fun u => concatenate S800000x144 1 [⟨S800000x64, u 0⟩, ⟨S800000x64, u 1⟩, ⟨S800000x16, u 2⟩] concatenates_S800000x64_S800000x64_S800000x16_S800000x144_d1),
    binary main_v78 main_arg10 main_v79 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg11 main_v80 (broadcastInDim S1x64 ![1] bcast_S64_S1x64_1 : (⟨S64, .f32⟩ : BufTy).Contents (Elt F) → (⟨S1x64, .f32⟩ : BufTy).Contents (Elt F)),
    unary main_v80 main_v81 (broadcastInDim S800000x64 ![0, 1] bcast_S1x64_S800000x64_0_1 : (⟨S1x64, .f32⟩ : BufTy).Contents (Elt F) → (⟨S800000x64, .f32⟩ : BufTy).Contents (Elt F)),
    binary main_v79 main_v81 main_v82 (addf : (⟨S800000x64, .f32⟩ : BufTy).Contents (Elt F) → (⟨S800000x64, .f32⟩ : BufTy).Contents (Elt F) → (⟨S800000x64, .f32⟩ : BufTy).Contents (Elt F)),
    unary main_v82 main_v83 (Host.negf : (⟨S800000x64, .f32⟩ : BufTy).Contents (Elt F) → (⟨S800000x64, .f32⟩ : BufTy).Contents (Elt F)),
    unary main_v83 main_v84 (Host.exp : (⟨S800000x64, .f32⟩ : BufTy).Contents (Elt F) → (⟨S800000x64, .f32⟩ : BufTy).Contents (Elt F)),
    nullary main_cst_14 (constant S_ .f32 0x3F800000#32),
    unary main_cst_14 main_v85 (broadcastInDim S800000x64 ![] bcast_S_S800000x64 : (⟨S_, .f32⟩ : BufTy).Contents (Elt F) → (⟨S800000x64, .f32⟩ : BufTy).Contents (Elt F)),
    binary main_v85 main_v84 main_v86 (addf : (⟨S800000x64, .f32⟩ : BufTy).Contents (Elt F) → (⟨S800000x64, .f32⟩ : BufTy).Contents (Elt F) → (⟨S800000x64, .f32⟩ : BufTy).Contents (Elt F)),
    nullary main_cst_15 (constant S_ .f32 0x3F800000#32),
    unary main_cst_15 main_v87 (broadcastInDim S800000x64 ![] bcast_S_S800000x64 : (⟨S_, .f32⟩ : BufTy).Contents (Elt F) → (⟨S800000x64, .f32⟩ : BufTy).Contents (Elt F)),
    binary main_v87 main_v86 main_v88 (Host.divf : (⟨S800000x64, .f32⟩ : BufTy).Contents (Elt F) → (⟨S800000x64, .f32⟩ : BufTy).Contents (Elt F) → (⟨S800000x64, .f32⟩ : BufTy).Contents (Elt F)),
    binary main_v78 main_arg12 main_v89 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg13 main_v90 (broadcastInDim S1x64 ![1] bcast_S64_S1x64_1 : (⟨S64, .f32⟩ : BufTy).Contents (Elt F) → (⟨S1x64, .f32⟩ : BufTy).Contents (Elt F)),
    unary main_v90 main_v91 (broadcastInDim S800000x64 ![0, 1] bcast_S1x64_S800000x64_0_1 : (⟨S1x64, .f32⟩ : BufTy).Contents (Elt F) → (⟨S800000x64, .f32⟩ : BufTy).Contents (Elt F)),
    binary main_v89 main_v91 main_v92 (addf : (⟨S800000x64, .f32⟩ : BufTy).Contents (Elt F) → (⟨S800000x64, .f32⟩ : BufTy).Contents (Elt F) → (⟨S800000x64, .f32⟩ : BufTy).Contents (Elt F)),
    TRef.nullary main_call1.cst (constant S_ .f32 0x00000000#32),
    TRef.unary main_call1.cst main_call1.v0 (broadcastInDim S800000x64 ![] bcast_S_S800000x64),
    TRef.binary (.of main_v92) main_call1.v0 main_call1.v1 maximumf,
    TRef.unary main_call1.cst main_call1.v2 (broadcastInDim S800000x64 ![] bcast_S_S800000x64),
    TRef.binary (.of main_v92) main_call1.v2 main_call1.v3 subf,
    TRef.binary main_call1.v3 main_call1.v3 main_call1.v4 (cmpf .une),
    TRef.unary main_call1.cst main_call1.v5 (broadcastInDim S800000x64 ![] bcast_S_S800000x64),
    TRef.binary (.of main_v92) main_call1.v5 main_call1.v6 addf,
    TRef.unary main_call1.v3 main_call1.v7 Host.absf,
    TRef.unary main_call1.v7 main_call1.v8 Host.negf,
    TRef.unary main_call1.v8 main_call1.v9 Host.exp,
    TRef.unary main_call1.v9 main_call1.v10 Host.log1p,
    TRef.binary main_call1.v1 main_call1.v10 main_call1.v11 addf,
    TRef.ternary main_call1.v4 main_call1.v6 main_call1.v11 main_call1.v12 select,
    binary main_v88 main_v93 main_v94 (mulf : (⟨S800000x64, .f32⟩ : BufTy).Contents (Elt F) → (⟨S800000x64, .f32⟩ : BufTy).Contents (Elt F) → (⟨S800000x64, .f32⟩ : BufTy).Contents (Elt F)) ]

/-- Statements %cst_16 / %95 … %144: the second layer's sum, residual and normalisation, the mean over each graph's
    nodes, and the two-layer read-out with the leaky rectifier (its six operations and the select it calls in place,
    over the third call's buffers, the result in `main_v140`). The last entry writes `main_v144`. -/
abbrev opsTail : List (HloOp τ sig (Elt F)) :=
  [ nullary main_cst_16 (constant S_ .f32 0x00000000#32),
    unary main_cst_16 main_v95 (broadcastInDim S50000x64 ![] bcast_S_S50000x64 : (⟨S_, .f32⟩ : BufTy).Contents (Elt F) → (⟨S50000x64, .f32⟩ : BufTy).Contents (Elt F)),
    unary main_v3 main_v96 (broadcastInDim S800000x1 ![0] bcast_S800000_S800000x1_0 : (⟨S800000, .i32⟩ : BufTy).Contents (Elt F) → (⟨S800000x1, .i32⟩ : BufTy).Contents (Elt F)),
    ternary main_v95 main_v96 main_v94 main_v97 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v63 main_v97 main_v98 (addf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v98 main_cst_17 main_v99 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_18 (constant S_ .f32 0x47435000#32),
    unary main_cst_18 main_v100 (broadcastInDim S64 ![] bcast_S_S64 : (⟨S_, .f32⟩ : BufTy).Contents (Elt F) → (⟨S64, .f32⟩ : BufTy).Contents (Elt F)),
    binary main_v99 main_v100 main_v101 (Host.divf : (⟨S64, .f32⟩ : BufTy).Contents (Elt F) → (⟨S64, .f32⟩ : BufTy).Contents (Elt F) → (⟨S64, .f32⟩ : BufTy).Contents (Elt F)),
    unary main_v101 main_v102 (broadcastInDim S1x64 ![1] bcast_S64_S1x64_1 : (⟨S64, .f32⟩ : BufTy).Contents (Elt F) → (⟨S1x64, .f32⟩ : BufTy).Contents (Elt F)),
    unary main_v102 main_v103 (broadcastInDim S50000x64 ![0, 1] bcast_S1x64_S50000x64_0_1 : (⟨S1x64, .f32⟩ : BufTy).Contents (Elt F) → (⟨S50000x64, .f32⟩ : BufTy).Contents (Elt F)),
    binary main_v98 main_v103 main_v104 (subf : (⟨S50000x64, .f32⟩ : BufTy).Contents (Elt F) → (⟨S50000x64, .f32⟩ : BufTy).Contents (Elt F) → (⟨S50000x64, .f32⟩ : BufTy).Contents (Elt F)),
    binary main_v104 main_v104 main_v105 (mulf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x00000000#32),
    binary main_v105 main_cst_19 main_v106 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_20 (constant S_ .f32 0x47435000#32),
    unary main_cst_20 main_v107 (broadcastInDim S64 ![] bcast_S_S64 : (⟨S_, .f32⟩ : BufTy).Contents (Elt F) → (⟨S64, .f32⟩ : BufTy).Contents (Elt F)),
    binary main_v106 main_v107 main_v108 (Host.divf : (⟨S64, .f32⟩ : BufTy).Contents (Elt F) → (⟨S64, .f32⟩ : BufTy).Contents (Elt F) → (⟨S64, .f32⟩ : BufTy).Contents (Elt F)),
    unary main_v101 main_v109 (broadcastInDim S1x64 ![1] bcast_S64_S1x64_1 : (⟨S64, .f32⟩ : BufTy).Contents (Elt F) → (⟨S1x64, .f32⟩ : BufTy).Contents (Elt F)),
    unary main_v109 main_v110 (broadcastInDim S50000x64 ![0, 1] bcast_S1x64_S50000x64_0_1 : (⟨S1x64, .f32⟩ : BufTy).Contents (Elt F) → (⟨S50000x64, .f32⟩ : BufTy).Contents (Elt F)),
    binary main_v98 main_v110 main_v111 (subf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x3727C5AC#32),
    unary main_cst_21 main_v112 (broadcastInDim S64 ![] bcast_S_S64 : (⟨S_, .f32⟩ : BufTy).Contents (Elt F) → (⟨S64, .f32⟩ : BufTy).Contents (Elt F)),
    binary main_v108 main_v112 main_v113 (addf : (⟨S64, .f32⟩ : BufTy).Contents (Elt F) → (⟨S64, .f32⟩ : BufTy).Contents (Elt F) → (⟨S64, .f32⟩ : BufTy).Contents (Elt F)),
    unary main_v113 main_v114 (Host.rsqrt : (⟨S64, .f32⟩ : BufTy).Contents (Elt F) → (⟨S64, .f32⟩ : BufTy).Contents (Elt F)),
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S50000x64 ![0, 1] bcast_S1x64_S50000x64_0_1 : (⟨S1x64, .f32⟩ : BufTy).Contents (Elt F) → (⟨S50000x64, .f32⟩ : BufTy).Contents (Elt F)),
    binary main_v111 main_v116 main_v117 (mulf : (⟨S50000x64, .f32⟩ : BufTy).Contents (Elt F) → (⟨S50000x64, .f32⟩ : BufTy).Contents (Elt F) → (⟨S50000x64, .f32⟩ : BufTy).Contents (Elt F)),
    unary main_arg14 main_v118 (broadcastInDim S1x64 ![1] bcast_S64_S1x64_1 : (⟨S64, .f32⟩ : BufTy).Contents (Elt F) → (⟨S1x64, .f32⟩ : BufTy).Contents (Elt F)),
    unary main_v118 main_v119 (broadcastInDim S50000x64 ![0, 1] bcast_S1x64_S50000x64_0_1 : (⟨S1x64, .f32⟩ : BufTy).Contents (Elt F) → (⟨S50000x64, .f32⟩ : BufTy).Contents (Elt F)),
    binary main_v117 main_v119 main_v120 (mulf : (⟨S50000x64, .f32⟩ : BufTy).Contents (Elt F) → (⟨S50000x64, .f32⟩ : BufTy).Contents (Elt F) → (⟨S50000x64, .f32⟩ : BufTy).Contents (Elt F)),
    unary main_arg15 main_v121 (broadcastInDim S1x64 ![1] bcast_S64_S1x64_1 : (⟨S64, .f32⟩ : BufTy).Contents (Elt F) → (⟨S1x64, .f32⟩ : BufTy).Contents (Elt F)),
    unary main_v121 main_v122 (broadcastInDim S50000x64 ![0, 1] bcast_S1x64_S50000x64_0_1 : (⟨S1x64, .f32⟩ : BufTy).Contents (Elt F) → (⟨S50000x64, .f32⟩ : BufTy).Contents (Elt F)),
    binary main_v120 main_v122 main_v123 (addf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x00000000#32),
    unary main_cst_22 main_v124 (broadcastInDim S5000x64 ![] bcast_S_S5000x64 : (⟨S_, .f32⟩ : BufTy).Contents (Elt F) → (⟨S5000x64, .f32⟩ : BufTy).Contents (Elt F)),
    unary main_arg3 main_v125 (broadcastInDim S50000x1 ![0] bcast_S50000_S50000x1_0 : (⟨S50000, .i32⟩ : BufTy).Contents (Elt F) → (⟨S50000x1, .i32⟩ : BufTy).Contents (Elt F)),
    ternary main_v124 main_v125 main_v123 main_v126 ((fun x i u => Host.scatterAdd scatter_S5000x64_S50000x1_S50000x64_1_0_0_1 x i u) : (⟨S5000x64, .f32⟩ : BufTy).Contents (Elt F) → (⟨S50000x1, .i32⟩ : BufTy).Contents (Elt F) → (⟨S50000x64, .f32⟩ : BufTy).Contents (Elt F) → (⟨S5000x64, .f32⟩ : BufTy).Contents (Elt F)),
    nullary main_cst_23 (constant S_ .f32 0x3F800000#32),
    unary main_cst_23 main_v127 (broadcastInDim S50000 ![] bcast_S_S50000 : (⟨S_, .f32⟩ : BufTy).Contents (Elt F) → (⟨S50000, .f32⟩ : BufTy).Contents (Elt F)),
    nullary main_cst_24 (constant S_ .f32 0x00000000#32),
    unary main_cst_24 main_v128 (broadcastInDim S5000 ![] bcast_S_S5000 : (⟨S_, .f32⟩ : BufTy).Contents (Elt F) → (⟨S5000, .f32⟩ : BufTy).Contents (Elt F)),
    unary main_arg3 main_v129 (broadcastInDim S50000x1 ![0] bcast_S50000_S50000x1_0 : (⟨S50000, .i32⟩ : BufTy).Contents (Elt F) → (⟨S50000x1, .i32⟩ : BufTy).Contents (Elt F)),
    ternary main_v128 main_v129 main_v127 main_v130 ((fun x i u => Host.scatterAdd scatter_S5000_S50000x1_S50000_n_0_0_1 x i u) : (⟨S5000, .f32⟩ : BufTy).Contents (Elt F) → (⟨S50000x1, .i32⟩ : BufTy).Contents (Elt F) → (⟨S50000, .f32⟩ : BufTy).Contents (Elt F) → (⟨S5000, .f32⟩ : BufTy).Contents (Elt F)),
    nullary main_cst_25 (constant S_ .f32 0x3F800000#32),
    unary main_cst_25 main_v131 (broadcastInDim S5000 ![] bcast_S_S5000 : (⟨S_, .f32⟩ : BufTy).Contents (Elt F) → (⟨S5000, .f32⟩ : BufTy).Contents (Elt F)),
    binary main_v130 main_v131 main_v132 (maximumf : (⟨S5000, .f32⟩ : BufTy).Contents (Elt F) → (⟨S5000, .f32⟩ : BufTy).Contents (Elt F) → (⟨S5000, .f32⟩ : BufTy).Contents (Elt F)),
    unary main_v132 main_v133 (broadcastInDim S5000x1 ![0] bcast_S5000_S5000x1_0 : (⟨S5000, .f32⟩ : BufTy).Contents (Elt F) → (⟨S5000x1, .f32⟩ : BufTy).Contents (Elt F)),
    unary main_v133 main_v134 (broadcastInDim S5000x64 ![0, 1] bcast_S5000x1_S5000x64_0_1 : (⟨S5000x1, .f32⟩ : BufTy).Contents (Elt F) → (⟨S5000x64, .f32⟩ : BufTy).Contents (Elt F)),
    binary main_v126 main_v134 main_v135 (Host.divf : (⟨S5000x64, .f32⟩ : BufTy).Contents (Elt F) → (⟨S5000x64, .f32⟩ : BufTy).Contents (Elt F) → (⟨S5000x64, .f32⟩ : BufTy).Contents (Elt F)),
    binary main_v135 main_arg16 main_v136 ((fun l r => Host.dotGeneral dot_S5000x64_S64x64_S5000x64_1_0_0_1_n_n none l r) : (⟨S5000x64, .f32⟩ : BufTy).Contents (Elt F) → (⟨S64x64, .f32⟩ : BufTy).Contents (Elt F) → (⟨S5000x64, .f32⟩ : BufTy).Contents (Elt F)),
    unary main_arg17 main_v137 (broadcastInDim S1x64 ![1] bcast_S64_S1x64_1 : (⟨S64, .f32⟩ : BufTy).Contents (Elt F) → (⟨S1x64, .f32⟩ : BufTy).Contents (Elt F)),
    unary main_v137 main_v138 (broadcastInDim S5000x64 ![0, 1] bcast_S1x64_S5000x64_0_1 : (⟨S1x64, .f32⟩ : BufTy).Contents (Elt F) → (⟨S5000x64, .f32⟩ : BufTy).Contents (Elt F)),
    binary main_v136 main_v138 main_v139 (addf : (⟨S5000x64, .f32⟩ : BufTy).Contents (Elt F) → (⟨S5000x64, .f32⟩ : BufTy).Contents (Elt F) → (⟨S5000x64, .f32⟩ : BufTy).Contents (Elt F)),
    nullary main_cst_26 (constant S_ .f32 0x3C23D70A#32),
    TRef.nullary main_call2.cst (constant S_ .f32 0x00000000#32),
    TRef.unary main_call2.cst main_call2.v0 (broadcastInDim S5000x64 ![] bcast_S_S5000x64),
    TRef.binary (.of main_v139) main_call2.v0 main_call2.v1 (cmpf .oge),
    TRef.unary (.of main_cst_26) main_call2.v2 id,
    TRef.unary main_call2.v2 main_call2.v3 (broadcastInDim S5000x64 ![] bcast_S_S5000x64),
    TRef.binary main_call2.v3 (.of main_v139) main_call2.v4 mulf,
    TRef.ternary main_call2.v1 (.of main_v139) main_call2.v4 main_call2.call0.v0 select,
    binary main_v140 main_arg18 main_v141 ((fun l r => Host.dotGeneral dot_S5000x64_S64x64_S5000x64_1_0_0_1_n_n none l r) : (⟨S5000x64, .f32⟩ : BufTy).Contents (Elt F) → (⟨S64x64, .f32⟩ : BufTy).Contents (Elt F) → (⟨S5000x64, .f32⟩ : BufTy).Contents (Elt F)),
    unary main_arg19 main_v142 (broadcastInDim S1x64 ![1] bcast_S64_S1x64_1 : (⟨S64, .f32⟩ : BufTy).Contents (Elt F) → (⟨S1x64, .f32⟩ : BufTy).Contents (Elt F)),
    unary main_v142 main_v143 (broadcastInDim S5000x64 ![0, 1] bcast_S1x64_S5000x64_0_1 : (⟨S1x64, .f32⟩ : BufTy).Contents (Elt F) → (⟨S5000x64, .f32⟩ : BufTy).Contents (Elt F)),
    binary main_v141 main_v143 main_v144 (addf : (⟨S5000x64, .f32⟩ : BufTy).Contents (Elt F) → (⟨S5000x64, .f32⟩ : BufTy).Contents (Elt F) → (⟨S5000x64, .f32⟩ : BufTy).Contents (Elt F)) ]

end Cert.ReferenceIdeal.RefRun

end
-- ==== Proof.RefRun.lean ====
/- The reference program's run.

   @main is the straight line of the five lists of Proof/RefOps.lean, one after the other (the outlined functions'
   operations in place at their calls): the two programs are the same chain of operation steps, by computation.
   Every operation touches buffers of the TensorCore only, the signature scopes nothing, and so from any memory with
   zero counters every weakly fair execution terminates with each buffer holding what the operations, folded in
   order over the launch contents, leave there — stated here with the fold cut at the five lists, so that a later
   list's effect can be read without opening an earlier one. -/
import proofs.«163275_j5145370821233_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main is the five lists in a row. Sequencing in the free monad grafts a continuation onto every leaf, so a call's
    body followed by the rest of @main, and the three windows of @main one after the other, compute to one chain of
    operation steps; the chain of the concatenated list is the same one. -/
theorem main_eq (c : Dev nD) : main (F := F) c = seq (opsPre ++ opsMsg0 ++ opsMid ++ opsMsg1 ++ opsTail) := rfl

theorem scopedRefs_eq : (Finset.univ.filter fun b : Ref sig .tc => b.isScoped) = ∅ := by decide
theorem scopedSems_eq : (Finset.univ.filter fun sm : SemLoc sig => sm.isScoped .tc) = ∅ := by decide

/-- A property of every entry of two lists holds of every entry of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-! Each operation touches TensorCore buffers only: list by list, one builder fact per entry, in order. -/

theorem opsPre_sub : (opsPre : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub ..⟩

theorem opsMsg0_sub : (opsMsg0 : List (HloOp τ sig (Elt F))).Forall fun op => op.bufs ⊆ tcRefs τ sig :=
  ⟨nary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., binary_bufs_sub ..⟩

theorem opsMid_sub : (opsMid : List (HloOp τ sig (Elt F))).Forall fun op => op.bufs ⊆ tcRefs τ sig :=
  ⟨nullary_bufs_sub .., unary_bufs_sub .., unary_bufs_sub .., ternary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..⟩

theorem opsMsg1_sub : (opsMsg1 : List (HloOp τ sig (Elt F))).Forall fun op => op.bufs ⊆ tcRefs τ sig :=
  ⟨nary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., binary_bufs_sub ..⟩

theorem opsTail_sub : (opsTail : List (HloOp τ sig (Elt F))).Forall fun op => op.bufs ⊆ tcRefs τ sig :=
  ⟨nullary_bufs_sub .., unary_bufs_sub .., unary_bufs_sub .., ternary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub ..⟩

theorem ops_sub : (opsPre ++ opsMsg0 ++ opsMid ++ opsMsg1 ++ opsTail : List (HloOp τ sig (Elt F))).Forall
    fun op => op.bufs ⊆ tcRefs τ sig :=
  forall_append (forall_append (forall_append (forall_append opsPre_sub opsMsg0_sub) opsMid_sub) opsMsg1_sub) opsTail_sub

/-- On every device, for any float values, from any memory with zero counters: every weakly fair execution of @main
    terminates, and each TensorCore buffer ends at the five lists' folds, in order, over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after opsTail (after opsMsg1 (after opsMid (after opsMsg0 (after opsPre (launchContents m d))))) (Proc.devRef .tc b) :=
  (θ_run defs _ _).mono
    (fun _ h d b => (h d b).trans (by rw [after_append, after_append, after_append, after_append]))
    (run_seq scopedRefs_eq scopedSems_eq defs main (fun _ => opsPre ++ opsMsg0 ++ opsMid ++ opsMsg1 ++ opsTail)
      main_eq (fun _ => ops_sub) m ρ)

end Cert.ReferenceIdeal.RefRun

end
-- ==== Proof.RefFrame.lean ====
/-
  The reference leaves its arguments alone: none of its host operations writes an argument array, so after
  the five stretches each argument buffer still holds its launch contents.
-/
import proofs.«163275_j5145370821233_2_alg».proof.Proof.RefOps
import Idealize.ShloMosaic.Lib.StableHlo.Run

set_option maxRecDepth 16384

noncomputable section

namespace Cert.ReferenceIdeal.RefFrame

open Cert.ReferenceIdeal Cert.ReferenceIdeal.RefRun Idealize.ShloMosaic Idealize.ShloMosaic.TcCoe Idealize.ShloMosaic.StableHlo Idealize.SL.Sem

variable {F : FTy → Type} [FloatOps F]
variable (m : (ℓ : Loc nD τ sig) → Buf (Elt F) ℓ) (c : Dev nD)

theorem arg0 : after (opsTail (F := F)) (after opsMsg1 (after opsMid (after opsMsg0 (after opsPre (launchContents m c))))) (Proc.devRef .tc main_arg0)
    = m ((c.tc : Thread nD τ).loc main_arg0) := by
  after_results_simp <;> rfl
theorem arg1 : after (opsTail (F := F)) (after opsMsg1 (after opsMid (after opsMsg0 (after opsPre (launchContents m c))))) (Proc.devRef .tc main_arg1)
    = m ((c.tc : Thread nD τ).loc main_arg1) := by
  after_results_simp <;> rfl
theorem arg2 : after (opsTail (F := F)) (after opsMsg1 (after opsMid (after opsMsg0 (after opsPre (launchContents m c))))) (Proc.devRef .tc main_arg2)
    = m ((c.tc : Thread nD τ).loc main_arg2) := by
  after_results_simp <;> rfl
theorem arg3 : after (opsTail (F := F)) (after opsMsg1 (after opsMid (after opsMsg0 (after opsPre (launchContents m c))))) (Proc.devRef .tc main_arg3)
    = m ((c.tc : Thread nD τ).loc main_arg3) := by
  after_results_simp <;> rfl
theorem arg4 : after (opsTail (F := F)) (after opsMsg1 (after opsMid (after opsMsg0 (after opsPre (launchContents m c))))) (Proc.devRef .tc main_arg4)
    = m ((c.tc : Thread nD τ).loc main_arg4) := by
  after_results_simp <;> rfl
theorem arg5 : after (opsTail (F := F)) (after opsMsg1 (after opsMid (after opsMsg0 (after opsPre (launchContents m c))))) (Proc.devRef .tc main_arg5)
    = m ((c.tc : Thread nD τ).loc main_arg5) := by
  after_results_simp <;> rfl
theorem arg6 : after (opsTail (F := F)) (after opsMsg1 (after opsMid (after opsMsg0 (after opsPre (launchContents m c))))) (Proc.devRef .tc main_arg6)
    = m ((c.tc : Thread nD τ).loc main_arg6) := by
  after_results_simp <;> rfl
theorem arg7 : after (opsTail (F := F)) (after opsMsg1 (after opsMid (after opsMsg0 (after opsPre (launchContents m c))))) (Proc.devRef .tc main_arg7)
    = m ((c.tc : Thread nD τ).loc main_arg7) := by
  after_results_simp <;> rfl
theorem arg8 : after (opsTail (F := F)) (after opsMsg1 (after opsMid (after opsMsg0 (after opsPre (launchContents m c))))) (Proc.devRef .tc main_arg8)
    = m ((c.tc : Thread nD τ).loc main_arg8) := by
  after_results_simp <;> rfl
theorem arg9 : after (opsTail (F := F)) (after opsMsg1 (after opsMid (after opsMsg0 (after opsPre (launchContents m c))))) (Proc.devRef .tc main_arg9)
    = m ((c.tc : Thread nD τ).loc main_arg9) := by
  after_results_simp <;> rfl
theorem arg10 : after (opsTail (F := F)) (after opsMsg1 (after opsMid (after opsMsg0 (after opsPre (launchContents m c))))) (Proc.devRef .tc main_arg10)
    = m ((c.tc : Thread nD τ).loc main_arg10) := by
  after_results_simp <;> rfl
theorem arg11 : after (opsTail (F := F)) (after opsMsg1 (after opsMid (after opsMsg0 (after opsPre (launchContents m c))))) (Proc.devRef .tc main_arg11)
    = m ((c.tc : Thread nD τ).loc main_arg11) := by
  after_results_simp <;> rfl
theorem arg12 : after (opsTail (F := F)) (after opsMsg1 (after opsMid (after opsMsg0 (after opsPre (launchContents m c))))) (Proc.devRef .tc main_arg12)
    = m ((c.tc : Thread nD τ).loc main_arg12) := by
  after_results_simp <;> rfl
theorem arg13 : after (opsTail (F := F)) (after opsMsg1 (after opsMid (after opsMsg0 (after opsPre (launchContents m c))))) (Proc.devRef .tc main_arg13)
    = m ((c.tc : Thread nD τ).loc main_arg13) := by
  after_results_simp <;> rfl
theorem arg14 : after (opsTail (F := F)) (after opsMsg1 (after opsMid (after opsMsg0 (after opsPre (launchContents m c))))) (Proc.devRef .tc main_arg14)
    = m ((c.tc : Thread nD τ).loc main_arg14) := by
  after_results_simp <;> rfl
theorem arg15 : after (opsTail (F := F)) (after opsMsg1 (after opsMid (after opsMsg0 (after opsPre (launchContents m c))))) (Proc.devRef .tc main_arg15)
    = m ((c.tc : Thread nD τ).loc main_arg15) := by
  after_results_simp <;> rfl
theorem arg16 : after (opsTail (F := F)) (after opsMsg1 (after opsMid (after opsMsg0 (after opsPre (launchContents m c))))) (Proc.devRef .tc main_arg16)
    = m ((c.tc : Thread nD τ).loc main_arg16) := by
  after_results_simp <;> rfl
theorem arg17 : after (opsTail (F := F)) (after opsMsg1 (after opsMid (after opsMsg0 (after opsPre (launchContents m c))))) (Proc.devRef .tc main_arg17)
    = m ((c.tc : Thread nD τ).loc main_arg17) := by
  after_results_simp <;> rfl
theorem arg18 : after (opsTail (F := F)) (after opsMsg1 (after opsMid (after opsMsg0 (after opsPre (launchContents m c))))) (Proc.devRef .tc main_arg18)
    = m ((c.tc : Thread nD τ).loc main_arg18) := by
  after_results_simp <;> rfl
theorem arg19 : after (opsTail (F := F)) (after opsMsg1 (after opsMid (after opsMsg0 (after opsPre (launchContents m c))))) (Proc.devRef .tc main_arg19)
    = m ((c.tc : Thread nD τ).loc main_arg19) := by
  after_results_simp <;> rfl

end Cert.ReferenceIdeal.RefFrame

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.Stages.lean ====
/-
  The host operations the two programs share, stretch by stretch.

  Outside the message computation both programs apply the same host operations: the two index rows of the
  edge table with their wrap-around and the two gathers of node rows; after a layer's messages the
  scatter-add into the target nodes, the residual add and the normalisation over the nodes, then the next
  layer's gathers; and after the second layer the pooling over graphs and the two-layer read-out.  Each
  statement below says: if the buffers a stretch reads hold the same contents in the two programs, so do
  the buffers it leaves for the next stretch.  The kernel program also reshapes each bias vector to a row
  for its launches; that row read at column `q` is the bias at `q`.
-/
import proofs.«163275_j5145370821233_2_alg».proof.Proof.Gen.KernelIdeal.Launch
import proofs.«163275_j5145370821233_2_alg».proof.Proof.RefOps
import proofs.«163275_j5145370821233_2_alg».proof.Proof.LibLayout
import Idealize.ShloMosaic.Lib.StableHlo.Run
import Idealize.ShloMosaic.Lib.ValueLayout
import Idealize.ShloMosaic.PureOps.Ideal

set_option maxRecDepth 16384

noncomputable section

namespace Cert.Stages

open Idealize.ShloMosaic Idealize.ShloMosaic.TcCoe Idealize.ShloMosaic.StableHlo Idealize.ShloMosaic.ValueIdx

variable (V : Valuation Cert.KernelIdeal.τ Cert.KernelIdeal.sig (Elt Ideal))
variable (V' : Valuation Cert.ReferenceIdeal.τ Cert.ReferenceIdeal.sig (Elt Ideal))

/-! ## Before the first launch: index rows, wrap-around, gathers -/

/-- The gathered target-node features. -/
theorem pre_xd (hx : V' (Proc.devRef .tc Cert.ReferenceIdeal.main_arg0) = V (Proc.devRef .tc Cert.KernelIdeal.main_arg0))
    (hei : V' (Proc.devRef .tc Cert.ReferenceIdeal.main_arg1) = V (Proc.devRef .tc Cert.KernelIdeal.main_arg1)) :
    after (Cert.ReferenceIdeal.RefRun.opsPre (F := Ideal)) V' (Proc.devRef .tc Cert.ReferenceIdeal.main_v10)
      = after (Cert.KernelIdeal.Gen.hostOps0 (F := Ideal)) V (Proc.devRef .tc Cert.KernelIdeal.main_v10) := by
  after_results_simp
  rw [hx, hei]
  rfl

/-- The gathered source-node features. -/
theorem pre_xs (hx : V' (Proc.devRef .tc Cert.ReferenceIdeal.main_arg0) = V (Proc.devRef .tc Cert.KernelIdeal.main_arg0))
    (hei : V' (Proc.devRef .tc Cert.ReferenceIdeal.main_arg1) = V (Proc.devRef .tc Cert.KernelIdeal.main_arg1)) :
    after (Cert.ReferenceIdeal.RefRun.opsPre (F := Ideal)) V' (Proc.devRef .tc Cert.ReferenceIdeal.main_v17)
      = after (Cert.KernelIdeal.Gen.hostOps0 (F := Ideal)) V (Proc.devRef .tc Cert.KernelIdeal.main_v17) := by
  after_results_simp
  rw [hx, hei]
  rfl

/-- The source index row. -/
theorem pre_src (hei : V' (Proc.devRef .tc Cert.ReferenceIdeal.main_arg1) = V (Proc.devRef .tc Cert.KernelIdeal.main_arg1)) :
    after (Cert.ReferenceIdeal.RefRun.opsPre (F := Ideal)) V' (Proc.devRef .tc Cert.ReferenceIdeal.main_v1)
      = after (Cert.KernelIdeal.Gen.hostOps0 (F := Ideal)) V (Proc.devRef .tc Cert.KernelIdeal.main_v1) := by
  after_results_simp
  rw [hei]
  rfl

/-- The target index row. -/
theorem pre_dst (hei : V' (Proc.devRef .tc Cert.ReferenceIdeal.main_arg1) = V (Proc.devRef .tc Cert.KernelIdeal.main_arg1)) :
    after (Cert.ReferenceIdeal.RefRun.opsPre (F := Ideal)) V' (Proc.devRef .tc Cert.ReferenceIdeal.main_v3)
      = after (Cert.KernelIdeal.Gen.hostOps0 (F := Ideal)) V (Proc.devRef .tc Cert.KernelIdeal.main_v3) := by
  after_results_simp
  rw [hei]
  rfl

/-! ## Between the launches: aggregation, residual, normalisation, the second layer's gathers -/

set_option maxHeartbeats 8000000 in
/-- The normalised node features after the first layer. -/
theorem mid_cur (hx : V' (Proc.devRef .tc Cert.ReferenceIdeal.main_arg0) = V (Proc.devRef .tc Cert.KernelIdeal.main_arg0))
    (hdst : V' (Proc.devRef .tc Cert.ReferenceIdeal.main_v3) = V (Proc.devRef .tc Cert.KernelIdeal.main_v3))
    (hmsg : V' (Proc.devRef .tc Cert.ReferenceIdeal.main_v34) = V (Proc.devRef .tc Cert.KernelIdeal.main_v20))
    (hg : V' (Proc.devRef .tc Cert.ReferenceIdeal.main_arg8) = V (Proc.devRef .tc Cert.KernelIdeal.main_arg8))
    (hb : V' (Proc.devRef .tc Cert.ReferenceIdeal.main_arg9) = V (Proc.devRef .tc Cert.KernelIdeal.main_arg9)) :
    after (Cert.ReferenceIdeal.RefRun.opsMid (F := Ideal)) V' (Proc.devRef .tc Cert.ReferenceIdeal.main_v63)
      = after (Cert.KernelIdeal.Gen.hostOps1 (F := Ideal)) V (Proc.devRef .tc Cert.KernelIdeal.main_v49) := by
  after_results_simp
  rw [hx, hdst, hmsg, hg, hb]
  rfl

set_option maxHeartbeats 8000000 in
/-- The second layer's gathered target-node features. -/
theorem mid_xd (hx : V' (Proc.devRef .tc Cert.ReferenceIdeal.main_arg0) = V (Proc.devRef .tc Cert.KernelIdeal.main_arg0))
    (hdst : V' (Proc.devRef .tc Cert.ReferenceIdeal.main_v3) = V (Proc.devRef .tc Cert.KernelIdeal.main_v3))
    (hmsg : V' (Proc.devRef .tc Cert.ReferenceIdeal.main_v34) = V (Proc.devRef .tc Cert.KernelIdeal.main_v20))
    (hg : V' (Proc.devRef .tc Cert.ReferenceIdeal.main_arg8) = V (Proc.devRef .tc Cert.KernelIdeal.main_arg8))
    (hb : V' (Proc.devRef .tc Cert.ReferenceIdeal.main_arg9) = V (Proc.devRef .tc Cert.KernelIdeal.main_arg9)) :
    after (Cert.ReferenceIdeal.RefRun.opsMid (F := Ideal)) V' (Proc.devRef .tc Cert.ReferenceIdeal.main_v70)
      = after (Cert.KernelIdeal.Gen.hostOps1 (F := Ideal)) V (Proc.devRef .tc Cert.KernelIdeal.main_v56) := by
  after_results_simp
  rw [hx, hdst, hmsg, hg, hb]
  rfl

set_option maxHeartbeats 8000000 in
/-- The second layer's gathered source-node features. -/
theorem mid_xs (hx : V' (Proc.devRef .tc Cert.ReferenceIdeal.main_arg0) = V (Proc.devRef .tc Cert.KernelIdeal.main_arg0))
    (hdst : V' (Proc.devRef .tc Cert.ReferenceIdeal.main_v3) = V (Proc.devRef .tc Cert.KernelIdeal.main_v3))
    (hsrc : V' (Proc.devRef .tc Cert.ReferenceIdeal.main_v1) = V (Proc.devRef .tc Cert.KernelIdeal.main_v1))
    (hmsg : V' (Proc.devRef .tc Cert.ReferenceIdeal.main_v34) = V (Proc.devRef .tc Cert.KernelIdeal.main_v20))
    (hg : V' (Proc.devRef .tc Cert.ReferenceIdeal.main_arg8) = V (Proc.devRef .tc Cert.KernelIdeal.main_arg8))
    (hb : V' (Proc.devRef .tc Cert.ReferenceIdeal.main_arg9) = V (Proc.devRef .tc Cert.KernelIdeal.main_arg9)) :
    after (Cert.ReferenceIdeal.RefRun.opsMid (F := Ideal)) V' (Proc.devRef .tc Cert.ReferenceIdeal.main_v77)
      = after (Cert.KernelIdeal.Gen.hostOps1 (F := Ideal)) V (Proc.devRef .tc Cert.KernelIdeal.main_v63) := by
  after_results_simp
  rw [hx, hdst, hsrc, hmsg, hg, hb]
  rfl

/-! ## After the second launch: aggregation, residual, normalisation, pooling, read-out -/

set_option maxHeartbeats 8000000 in
/-- The program's result. -/
theorem tail_out (hcur : V' (Proc.devRef .tc Cert.ReferenceIdeal.main_v63) = V (Proc.devRef .tc Cert.KernelIdeal.main_v49))
    (hdst : V' (Proc.devRef .tc Cert.ReferenceIdeal.main_v3) = V (Proc.devRef .tc Cert.KernelIdeal.main_v3))
    (hmsg : V' (Proc.devRef .tc Cert.ReferenceIdeal.main_v94) = V (Proc.devRef .tc Cert.KernelIdeal.main_v66))
    (hbatch : V' (Proc.devRef .tc Cert.ReferenceIdeal.main_arg3) = V (Proc.devRef .tc Cert.KernelIdeal.main_arg3))
    (hg : V' (Proc.devRef .tc Cert.ReferenceIdeal.main_arg14) = V (Proc.devRef .tc Cert.KernelIdeal.main_arg14))
    (hb : V' (Proc.devRef .tc Cert.ReferenceIdeal.main_arg15) = V (Proc.devRef .tc Cert.KernelIdeal.main_arg15))
    (hw1 : V' (Proc.devRef .tc Cert.ReferenceIdeal.main_arg16) = V (Proc.devRef .tc Cert.KernelIdeal.main_arg16))
    (hb1 : V' (Proc.devRef .tc Cert.ReferenceIdeal.main_arg17) = V (Proc.devRef .tc Cert.KernelIdeal.main_arg17))
    (hw2 : V' (Proc.devRef .tc Cert.ReferenceIdeal.main_arg18) = V (Proc.devRef .tc Cert.KernelIdeal.main_arg18))
    (hb2 : V' (Proc.devRef .tc Cert.ReferenceIdeal.main_arg19) = V (Proc.devRef .tc Cert.KernelIdeal.main_arg19)) :
    after (Cert.ReferenceIdeal.RefRun.opsTail (F := Ideal)) V' (Proc.devRef .tc Cert.ReferenceIdeal.main_v144)
      = after (Cert.KernelIdeal.Gen.hostOps2_2 (F := Ideal)) (after (Cert.KernelIdeal.Gen.hostOps2_1 (F := Ideal)) (after (Cert.KernelIdeal.Gen.hostOps2 (F := Ideal)) V)) (Proc.devRef .tc Cert.KernelIdeal.main_v116) := by
  after_results_simp
  rw [hcur, hdst, hmsg, hbatch, hg, hb, hw1, hb1, hw2, hb2]
  rfl

/-! ## The bias rows of the launches -/

/-- The bias vector reshaped to a row, read at column `q`. -/
theorem pre_bf (q : Fin 64) :
    (after (Cert.KernelIdeal.Gen.hostOps0 (F := Ideal)) V (Proc.devRef .tc Cert.KernelIdeal.main_v18) : Cert.KernelIdeal.S1x64.Idx → EReal) (ix2 0 q)
      = (V (Proc.devRef .tc Cert.KernelIdeal.main_arg5) : Cert.KernelIdeal.S64.Idx → EReal) (ix1 q) := by
  after_results_simp
  exact shapeCast_a_1a_apply _ _ 0 q

/-- The bias vector reshaped to a row, read at column `q`. -/
theorem pre_bs (q : Fin 64) :
    (after (Cert.KernelIdeal.Gen.hostOps0 (F := Ideal)) V (Proc.devRef .tc Cert.KernelIdeal.main_v19) : Cert.KernelIdeal.S1x64.Idx → EReal) (ix2 0 q)
      = (V (Proc.devRef .tc Cert.KernelIdeal.main_arg7) : Cert.KernelIdeal.S64.Idx → EReal) (ix1 q) := by
  after_results_simp
  exact shapeCast_a_1a_apply _ _ 0 q

/-- The bias vector reshaped to a row, read at column `q`. -/
theorem mid_bf (q : Fin 64) :
    (after (Cert.KernelIdeal.Gen.hostOps1 (F := Ideal)) V (Proc.devRef .tc Cert.KernelIdeal.main_v64) : Cert.KernelIdeal.S1x64.Idx → EReal) (ix2 0 q)
      = (V (Proc.devRef .tc Cert.KernelIdeal.main_arg11) : Cert.KernelIdeal.S64.Idx → EReal) (ix1 q) := by
  after_results_simp
  exact shapeCast_a_1a_apply _ _ 0 q

/-- The bias vector reshaped to a row, read at column `q`. -/
theorem mid_bs (q : Fin 64) :
    (after (Cert.KernelIdeal.Gen.hostOps1 (F := Ideal)) V (Proc.devRef .tc Cert.KernelIdeal.main_v65) : Cert.KernelIdeal.S1x64.Idx → EReal) (ix2 0 q)
      = (V (Proc.devRef .tc Cert.KernelIdeal.main_arg13) : Cert.KernelIdeal.S64.Idx → EReal) (ix1 q) := by
  after_results_simp
  exact shapeCast_a_1a_apply _ _ 0 q

end Cert.Stages

end
-- ==== Proof.KKeep.lean ====
/-
  Which buffers the kernel program leaves alone, boundary by boundary.

  The program's run is a chain of buffer contents: at launch (`W0`), after the first stretch of host
  operations (`W1`), after the first launch (`W2`: its output array rewritten, everything else as it was),
  after the second stretch (`W3`), after the second launch (`W4`).  No host operation and no launch writes
  an argument array, so at every boundary an argument still holds its launch contents; and the two index
  rows and the normalised features computed by one stretch are still there when a later stretch reads them.
-/
import proofs.«163275_j5145370821233_2_alg».proof.Proof.Gen.KernelIdeal.Frame

set_option maxRecDepth 16384

noncomputable section

namespace Cert.KernelIdeal.KKeep

open Cert.KernelIdeal Cert.KernelIdeal.Gen Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg) (c : Dev nD)

/-! ## The argument arrays -/

theorem W1_arg0 : W1 m ρ c (Proc.devRef .tc main_arg0) = W0 m ρ c (Proc.devRef .tc main_arg0) := by
  show after hostOps0 (W0 m ρ c) (Proc.devRef .tc main_arg0) = _
  after_results_simp
theorem W2_arg0 : W2 m ρ c (Proc.devRef .tc main_arg0) = W0 m ρ c (Proc.devRef .tc main_arg0) :=
  (W2_of_ne m ρ c main_arg0 (by decide)).trans (W1_arg0 m ρ c)

theorem W1_arg2 : W1 m ρ c (Proc.devRef .tc main_arg2) = W0 m ρ c (Proc.devRef .tc main_arg2) := by
  show after hostOps0 (W0 m ρ c) (Proc.devRef .tc main_arg2) = _
  after_results_simp
theorem W2_arg2 : W2 m ρ c (Proc.devRef .tc main_arg2) = W0 m ρ c (Proc.devRef .tc main_arg2) :=
  (W2_arr m ρ c 2).trans ((((dat0 (V1 m ρ) c).arrAt_in 2 rfl _).trans (A_eq0 (V1 m ρ) c 2)).trans (W1_arg2 m ρ c))
theorem W3_arg2 : W3 m ρ c (Proc.devRef .tc main_arg2) = W0 m ρ c (Proc.devRef .tc main_arg2) := by
  refine Eq.trans ?_ (W2_arg2 m ρ c)
  show after hostOps1 (W2 m ρ c) (Proc.devRef .tc main_arg2) = _
  after_results_simp

theorem W1_arg3 : W1 m ρ c (Proc.devRef .tc main_arg3) = W0 m ρ c (Proc.devRef .tc main_arg3) := by
  show after hostOps0 (W0 m ρ c) (Proc.devRef .tc main_arg3) = _
  after_results_simp
theorem W2_arg3 : W2 m ρ c (Proc.devRef .tc main_arg3) = W0 m ρ c (Proc.devRef .tc main_arg3) :=
  (W2_of_ne m ρ c main_arg3 (by decide)).trans (W1_arg3 m ρ c)
theorem W3_arg3 : W3 m ρ c (Proc.devRef .tc main_arg3) = W0 m ρ c (Proc.devRef .tc main_arg3) := by
  refine Eq.trans ?_ (W2_arg3 m ρ c)
  show after hostOps1 (W2 m ρ c) (Proc.devRef .tc main_arg3) = _
  after_results_simp
theorem W4_arg3 : W4 m ρ c (Proc.devRef .tc main_arg3) = W0 m ρ c (Proc.devRef .tc main_arg3) :=
  (W4_of_ne m ρ c main_arg3 (by decide)).trans (W3_arg3 m ρ c)

theorem W1_arg4 : W1 m ρ c (Proc.devRef .tc main_arg4) = W0 m ρ c (Proc.devRef .tc main_arg4) := by
  show after hostOps0 (W0 m ρ c) (Proc.devRef .tc main_arg4) = _
  after_results_simp

theorem W1_arg6 : W1 m ρ c (Proc.devRef .tc main_arg6) = W0 m ρ c (Proc.devRef .tc main_arg6) := by
  show after hostOps0 (W0 m ρ c) (Proc.devRef .tc main_arg6) = _
  after_results_simp

theorem W1_arg8 : W1 m ρ c (Proc.devRef .tc main_arg8) = W0 m ρ c (Proc.devRef .tc main_arg8) := by
  show after hostOps0 (W0 m ρ c) (Proc.devRef .tc main_arg8) = _
  after_results_simp
theorem W2_arg8 : W2 m ρ c (Proc.devRef .tc main_arg8) = W0 m ρ c (Proc.devRef .tc main_arg8) :=
  (W2_of_ne m ρ c main_arg8 (by decide)).trans (W1_arg8 m ρ c)

theorem W1_arg9 : W1 m ρ c (Proc.devRef .tc main_arg9) = W0 m ρ c (Proc.devRef .tc main_arg9) := by
  show after hostOps0 (W0 m ρ c) (Proc.devRef .tc main_arg9) = _
  after_results_simp
theorem W2_arg9 : W2 m ρ c (Proc.devRef .tc main_arg9) = W0 m ρ c (Proc.devRef .tc main_arg9) :=
  (W2_of_ne m ρ c main_arg9 (by decide)).trans (W1_arg9 m ρ c)

theorem W1_arg10 : W1 m ρ c (Proc.devRef .tc main_arg10) = W0 m ρ c (Proc.devRef .tc main_arg10) := by
  show after hostOps0 (W0 m ρ c) (Proc.devRef .tc main_arg10) = _
  after_results_simp
theorem W2_arg10 : W2 m ρ c (Proc.devRef .tc main_arg10) = W0 m ρ c (Proc.devRef .tc main_arg10) :=
  (W2_of_ne m ρ c main_arg10 (by decide)).trans (W1_arg10 m ρ c)
theorem W3_arg10 : W3 m ρ c (Proc.devRef .tc main_arg10) = W0 m ρ c (Proc.devRef .tc main_arg10) := by
  refine Eq.trans ?_ (W2_arg10 m ρ c)
  show after hostOps1 (W2 m ρ c) (Proc.devRef .tc main_arg10) = _
  after_results_simp

theorem W1_arg11 : W1 m ρ c (Proc.devRef .tc main_arg11) = W0 m ρ c (Proc.devRef .tc main_arg11) := by
  show after hostOps0 (W0 m ρ c) (Proc.devRef .tc main_arg11) = _
  after_results_simp
theorem W2_arg11 : W2 m ρ c (Proc.devRef .tc main_arg11) = W0 m ρ c (Proc.devRef .tc main_arg11) :=
  (W2_of_ne m ρ c main_arg11 (by decide)).trans (W1_arg11 m ρ c)

theorem W1_arg12 : W1 m ρ c (Proc.devRef .tc main_arg12) = W0 m ρ c (Proc.devRef .tc main_arg12) := by
  show after hostOps0 (W0 m ρ c) (Proc.devRef .tc main_arg12) = _
  after_results_simp
theorem W2_arg12 : W2 m ρ c (Proc.devRef .tc main_arg12) = W0 m ρ c (Proc.devRef .tc main_arg12) :=
  (W2_of_ne m ρ c main_arg12 (by decide)).trans (W1_arg12 m ρ c)
theorem W3_arg12 : W3 m ρ c (Proc.devRef .tc main_arg12) = W0 m ρ c (Proc.devRef .tc main_arg12) := by
  refine Eq.trans ?_ (W2_arg12 m ρ c)
  show after hostOps1 (W2 m ρ c) (Proc.devRef .tc main_arg12) = _
  after_results_simp

theorem W1_arg13 : W1 m ρ c (Proc.devRef .tc main_arg13) = W0 m ρ c (Proc.devRef .tc main_arg13) := by
  show after hostOps0 (W0 m ρ c) (Proc.devRef .tc main_arg13) = _
  after_results_simp
theorem W2_arg13 : W2 m ρ c (Proc.devRef .tc main_arg13) = W0 m ρ c (Proc.devRef .tc main_arg13) :=
  (W2_of_ne m ρ c main_arg13 (by decide)).trans (W1_arg13 m ρ c)

theorem W1_arg14 : W1 m ρ c (Proc.devRef .tc main_arg14) = W0 m ρ c (Proc.devRef .tc main_arg14) := by
  show after hostOps0 (W0 m ρ c) (Proc.devRef .tc main_arg14) = _
  after_results_simp
theorem W2_arg14 : W2 m ρ c (Proc.devRef .tc main_arg14) = W0 m ρ c (Proc.devRef .tc main_arg14) :=
  (W2_of_ne m ρ c main_arg14 (by decide)).trans (W1_arg14 m ρ c)
theorem W3_arg14 : W3 m ρ c (Proc.devRef .tc main_arg14) = W0 m ρ c (Proc.devRef .tc main_arg14) := by
  refine Eq.trans ?_ (W2_arg14 m ρ c)
  show after hostOps1 (W2 m ρ c) (Proc.devRef .tc main_arg14) = _
  after_results_simp
theorem W4_arg14 : W4 m ρ c (Proc.devRef .tc main_arg14) = W0 m ρ c (Proc.devRef .tc main_arg14) :=
  (W4_of_ne m ρ c main_arg14 (by decide)).trans (W3_arg14 m ρ c)

theorem W1_arg15 : W1 m ρ c (Proc.devRef .tc main_arg15) = W0 m ρ c (Proc.devRef .tc main_arg15) := by
  show after hostOps0 (W0 m ρ c) (Proc.devRef .tc main_arg15) = _
  after_results_simp
theorem W2_arg15 : W2 m ρ c (Proc.devRef .tc main_arg15) = W0 m ρ c (Proc.devRef .tc main_arg15) :=
  (W2_of_ne m ρ c main_arg15 (by decide)).trans (W1_arg15 m ρ c)
theorem W3_arg15 : W3 m ρ c (Proc.devRef .tc main_arg15) = W0 m ρ c (Proc.devRef .tc main_arg15) := by
  refine Eq.trans ?_ (W2_arg15 m ρ c)
  show after hostOps1 (W2 m ρ c) (Proc.devRef .tc main_arg15) = _
  after_results_simp
theorem W4_arg15 : W4 m ρ c (Proc.devRef .tc main_arg15) = W0 m ρ c (Proc.devRef .tc main_arg15) :=
  (W4_of_ne m ρ c main_arg15 (by decide)).trans (W3_arg15 m ρ c)

theorem W1_arg16 : W1 m ρ c (Proc.devRef .tc main_arg16) = W0 m ρ c (Proc.devRef .tc main_arg16) := by
  show after hostOps0 (W0 m ρ c) (Proc.devRef .tc main_arg16) = _
  after_results_simp
theorem W2_arg16 : W2 m ρ c (Proc.devRef .tc main_arg16) = W0 m ρ c (Proc.devRef .tc main_arg16) :=
  (W2_of_ne m ρ c main_arg16 (by decide)).trans (W1_arg16 m ρ c)
theorem W3_arg16 : W3 m ρ c (Proc.devRef .tc main_arg16) = W0 m ρ c (Proc.devRef .tc main_arg16) := by
  refine Eq.trans ?_ (W2_arg16 m ρ c)
  show after hostOps1 (W2 m ρ c) (Proc.devRef .tc main_arg16) = _
  after_results_simp
theorem W4_arg16 : W4 m ρ c (Proc.devRef .tc main_arg16) = W0 m ρ c (Proc.devRef .tc main_arg16) :=
  (W4_of_ne m ρ c main_arg16 (by decide)).trans (W3_arg16 m ρ c)

theorem W1_arg17 : W1 m ρ c (Proc.devRef .tc main_arg17) = W0 m ρ c (Proc.devRef .tc main_arg17) := by
  show after hostOps0 (W0 m ρ c) (Proc.devRef .tc main_arg17) = _
  after_results_simp
theorem W2_arg17 : W2 m ρ c (Proc.devRef .tc main_arg17) = W0 m ρ c (Proc.devRef .tc main_arg17) :=
  (W2_of_ne m ρ c main_arg17 (by decide)).trans (W1_arg17 m ρ c)
theorem W3_arg17 : W3 m ρ c (Proc.devRef .tc main_arg17) = W0 m ρ c (Proc.devRef .tc main_arg17) := by
  refine Eq.trans ?_ (W2_arg17 m ρ c)
  show after hostOps1 (W2 m ρ c) (Proc.devRef .tc main_arg17) = _
  after_results_simp
theorem W4_arg17 : W4 m ρ c (Proc.devRef .tc main_arg17) = W0 m ρ c (Proc.devRef .tc main_arg17) :=
  (W4_of_ne m ρ c main_arg17 (by decide)).trans (W3_arg17 m ρ c)

theorem W1_arg18 : W1 m ρ c (Proc.devRef .tc main_arg18) = W0 m ρ c (Proc.devRef .tc main_arg18) := by
  show after hostOps0 (W0 m ρ c) (Proc.devRef .tc main_arg18) = _
  after_results_simp
theorem W2_arg18 : W2 m ρ c (Proc.devRef .tc main_arg18) = W0 m ρ c (Proc.devRef .tc main_arg18) :=
  (W2_of_ne m ρ c main_arg18 (by decide)).trans (W1_arg18 m ρ c)
theorem W3_arg18 : W3 m ρ c (Proc.devRef .tc main_arg18) = W0 m ρ c (Proc.devRef .tc main_arg18) := by
  refine Eq.trans ?_ (W2_arg18 m ρ c)
  show after hostOps1 (W2 m ρ c) (Proc.devRef .tc main_arg18) = _
  after_results_simp
theorem W4_arg18 : W4 m ρ c (Proc.devRef .tc main_arg18) = W0 m ρ c (Proc.devRef .tc main_arg18) :=
  (W4_of_ne m ρ c main_arg18 (by decide)).trans (W3_arg18 m ρ c)

theorem W1_arg19 : W1 m ρ c (Proc.devRef .tc main_arg19) = W0 m ρ c (Proc.devRef .tc main_arg19) := by
  show after hostOps0 (W0 m ρ c) (Proc.devRef .tc main_arg19) = _
  after_results_simp
theorem W2_arg19 : W2 m ρ c (Proc.devRef .tc main_arg19) = W0 m ρ c (Proc.devRef .tc main_arg19) :=
  (W2_of_ne m ρ c main_arg19 (by decide)).trans (W1_arg19 m ρ c)
theorem W3_arg19 : W3 m ρ c (Proc.devRef .tc main_arg19) = W0 m ρ c (Proc.devRef .tc main_arg19) := by
  refine Eq.trans ?_ (W2_arg19 m ρ c)
  show after hostOps1 (W2 m ρ c) (Proc.devRef .tc main_arg19) = _
  after_results_simp
theorem W4_arg19 : W4 m ρ c (Proc.devRef .tc main_arg19) = W0 m ρ c (Proc.devRef .tc main_arg19) :=
  (W4_of_ne m ρ c main_arg19 (by decide)).trans (W3_arg19 m ρ c)

/-! ## The index rows and the first layer's features, read again by later stretches -/

theorem W2_v3 : W2 m ρ c (Proc.devRef .tc main_v3) = W1 m ρ c (Proc.devRef .tc main_v3) := W2_of_ne m ρ c main_v3 (by decide)
theorem W2_v1 : W2 m ρ c (Proc.devRef .tc main_v1) = W1 m ρ c (Proc.devRef .tc main_v1) := W2_of_ne m ρ c main_v1 (by decide)
theorem W3_v3 : W3 m ρ c (Proc.devRef .tc main_v3) = W1 m ρ c (Proc.devRef .tc main_v3) := by
  refine Eq.trans ?_ (W2_v3 m ρ c)
  show after hostOps1 (W2 m ρ c) (Proc.devRef .tc main_v3) = _
  after_results_simp
theorem W4_v3 : W4 m ρ c (Proc.devRef .tc main_v3) = W1 m ρ c (Proc.devRef .tc main_v3) :=
  (W4_of_ne m ρ c main_v3 (by decide)).trans (W3_v3 m ρ c)
theorem W4_v49 : W4 m ρ c (Proc.devRef .tc main_v49) = W3 m ρ c (Proc.devRef .tc main_v49) := W4_of_ne m ρ c main_v49 (by decide)

end Cert.KernelIdeal.KKeep

end
-- ==== Proof.RKeep.lean ====
/-
  Which buffers the reference program's stretches leave alone.

  The reference is one straight line of host operations, cut into five stretches.  A stretch writes only
  its own results: an argument array, an index row or the normalised features computed earlier still hold
  what they held when a later stretch reads them.
-/
import proofs.«163275_j5145370821233_2_alg».proof.Proof.RefOps
import Idealize.ShloMosaic.Lib.StableHlo.Run

set_option maxRecDepth 16384

noncomputable section

namespace Cert.ReferenceIdeal.RKeep

open Cert.ReferenceIdeal Cert.ReferenceIdeal.RefRun Idealize.ShloMosaic Idealize.ShloMosaic.TcCoe Idealize.ShloMosaic.StableHlo

variable {F : FTy → Type} [FloatOps F]
variable (V : Valuation τ sig (Elt F))

/-! ## opsPre -/
theorem pre_arg0 : after (opsPre (F := F)) V (Proc.devRef .tc main_arg0) = V (Proc.devRef .tc main_arg0) := by after_results_simp
theorem pre_arg2 : after (opsPre (F := F)) V (Proc.devRef .tc main_arg2) = V (Proc.devRef .tc main_arg2) := by after_results_simp
theorem pre_arg3 : after (opsPre (F := F)) V (Proc.devRef .tc main_arg3) = V (Proc.devRef .tc main_arg3) := by after_results_simp
theorem pre_arg4 : after (opsPre (F := F)) V (Proc.devRef .tc main_arg4) = V (Proc.devRef .tc main_arg4) := by after_results_simp
theorem pre_arg5 : after (opsPre (F := F)) V (Proc.devRef .tc main_arg5) = V (Proc.devRef .tc main_arg5) := by after_results_simp
theorem pre_arg6 : after (opsPre (F := F)) V (Proc.devRef .tc main_arg6) = V (Proc.devRef .tc main_arg6) := by after_results_simp
theorem pre_arg7 : after (opsPre (F := F)) V (Proc.devRef .tc main_arg7) = V (Proc.devRef .tc main_arg7) := by after_results_simp
theorem pre_arg8 : after (opsPre (F := F)) V (Proc.devRef .tc main_arg8) = V (Proc.devRef .tc main_arg8) := by after_results_simp
theorem pre_arg9 : after (opsPre (F := F)) V (Proc.devRef .tc main_arg9) = V (Proc.devRef .tc main_arg9) := by after_results_simp
theorem pre_arg10 : after (opsPre (F := F)) V (Proc.devRef .tc main_arg10) = V (Proc.devRef .tc main_arg10) := by after_results_simp
theorem pre_arg11 : after (opsPre (F := F)) V (Proc.devRef .tc main_arg11) = V (Proc.devRef .tc main_arg11) := by after_results_simp
theorem pre_arg12 : after (opsPre (F := F)) V (Proc.devRef .tc main_arg12) = V (Proc.devRef .tc main_arg12) := by after_results_simp
theorem pre_arg13 : after (opsPre (F := F)) V (Proc.devRef .tc main_arg13) = V (Proc.devRef .tc main_arg13) := by after_results_simp
theorem pre_arg14 : after (opsPre (F := F)) V (Proc.devRef .tc main_arg14) = V (Proc.devRef .tc main_arg14) := by after_results_simp
theorem pre_arg15 : after (opsPre (F := F)) V (Proc.devRef .tc main_arg15) = V (Proc.devRef .tc main_arg15) := by after_results_simp
theorem pre_arg16 : after (opsPre (F := F)) V (Proc.devRef .tc main_arg16) = V (Proc.devRef .tc main_arg16) := by after_results_simp
theorem pre_arg17 : after (opsPre (F := F)) V (Proc.devRef .tc main_arg17) = V (Proc.devRef .tc main_arg17) := by after_results_simp
theorem pre_arg18 : after (opsPre (F := F)) V (Proc.devRef .tc main_arg18) = V (Proc.devRef .tc main_arg18) := by after_results_simp
theorem pre_arg19 : after (opsPre (F := F)) V (Proc.devRef .tc main_arg19) = V (Proc.devRef .tc main_arg19) := by after_results_simp

/-! ## opsMsg0 -/
theorem msg0_arg0 : after (opsMsg0 (F := F)) V (Proc.devRef .tc main_arg0) = V (Proc.devRef .tc main_arg0) := by after_results_simp
theorem msg0_arg2 : after (opsMsg0 (F := F)) V (Proc.devRef .tc main_arg2) = V (Proc.devRef .tc main_arg2) := by after_results_simp
theorem msg0_arg3 : after (opsMsg0 (F := F)) V (Proc.devRef .tc main_arg3) = V (Proc.devRef .tc main_arg3) := by after_results_simp
theorem msg0_arg8 : after (opsMsg0 (F := F)) V (Proc.devRef .tc main_arg8) = V (Proc.devRef .tc main_arg8) := by after_results_simp
theorem msg0_arg9 : after (opsMsg0 (F := F)) V (Proc.devRef .tc main_arg9) = V (Proc.devRef .tc main_arg9) := by after_results_simp
theorem msg0_arg10 : after (opsMsg0 (F := F)) V (Proc.devRef .tc main_arg10) = V (Proc.devRef .tc main_arg10) := by after_results_simp
theorem msg0_arg11 : after (opsMsg0 (F := F)) V (Proc.devRef .tc main_arg11) = V (Proc.devRef .tc main_arg11) := by after_results_simp
theorem msg0_arg12 : after (opsMsg0 (F := F)) V (Proc.devRef .tc main_arg12) = V (Proc.devRef .tc main_arg12) := by after_results_simp
theorem msg0_arg13 : after (opsMsg0 (F := F)) V (Proc.devRef .tc main_arg13) = V (Proc.devRef .tc main_arg13) := by after_results_simp
theorem msg0_arg14 : after (opsMsg0 (F := F)) V (Proc.devRef .tc main_arg14) = V (Proc.devRef .tc main_arg14) := by after_results_simp
theorem msg0_arg15 : after (opsMsg0 (F := F)) V (Proc.devRef .tc main_arg15) = V (Proc.devRef .tc main_arg15) := by after_results_simp
theorem msg0_arg16 : after (opsMsg0 (F := F)) V (Proc.devRef .tc main_arg16) = V (Proc.devRef .tc main_arg16) := by after_results_simp
theorem msg0_arg17 : after (opsMsg0 (F := F)) V (Proc.devRef .tc main_arg17) = V (Proc.devRef .tc main_arg17) := by after_results_simp
theorem msg0_arg18 : after (opsMsg0 (F := F)) V (Proc.devRef .tc main_arg18) = V (Proc.devRef .tc main_arg18) := by after_results_simp
theorem msg0_arg19 : after (opsMsg0 (F := F)) V (Proc.devRef .tc main_arg19) = V (Proc.devRef .tc main_arg19) := by after_results_simp
theorem msg0_v3 : after (opsMsg0 (F := F)) V (Proc.devRef .tc main_v3) = V (Proc.devRef .tc main_v3) := by after_results_simp
theorem msg0_v1 : after (opsMsg0 (F := F)) V (Proc.devRef .tc main_v1) = V (Proc.devRef .tc main_v1) := by after_results_simp

/-! ## opsMid -/
theorem mid_arg2 : after (opsMid (F := F)) V (Proc.devRef .tc main_arg2) = V (Proc.devRef .tc main_arg2) := by after_results_simp
theorem mid_arg3 : after (opsMid (F := F)) V (Proc.devRef .tc main_arg3) = V (Proc.devRef .tc main_arg3) := by after_results_simp
theorem mid_arg10 : after (opsMid (F := F)) V (Proc.devRef .tc main_arg10) = V (Proc.devRef .tc main_arg10) := by after_results_simp
theorem mid_arg11 : after (opsMid (F := F)) V (Proc.devRef .tc main_arg11) = V (Proc.devRef .tc main_arg11) := by after_results_simp
theorem mid_arg12 : after (opsMid (F := F)) V (Proc.devRef .tc main_arg12) = V (Proc.devRef .tc main_arg12) := by after_results_simp
theorem mid_arg13 : after (opsMid (F := F)) V (Proc.devRef .tc main_arg13) = V (Proc.devRef .tc main_arg13) := by after_results_simp
theorem mid_arg14 : after (opsMid (F := F)) V (Proc.devRef .tc main_arg14) = V (Proc.devRef .tc main_arg14) := by after_results_simp
theorem mid_arg15 : after (opsMid (F := F)) V (Proc.devRef .tc main_arg15) = V (Proc.devRef .tc main_arg15) := by after_results_simp
theorem mid_arg16 : after (opsMid (F := F)) V (Proc.devRef .tc main_arg16) = V (Proc.devRef .tc main_arg16) := by after_results_simp
theorem mid_arg17 : after (opsMid (F := F)) V (Proc.devRef .tc main_arg17) = V (Proc.devRef .tc main_arg17) := by after_results_simp
theorem mid_arg18 : after (opsMid (F := F)) V (Proc.devRef .tc main_arg18) = V (Proc.devRef .tc main_arg18) := by after_results_simp
theorem mid_arg19 : after (opsMid (F := F)) V (Proc.devRef .tc main_arg19) = V (Proc.devRef .tc main_arg19) := by after_results_simp
theorem mid_v3 : after (opsMid (F := F)) V (Proc.devRef .tc main_v3) = V (Proc.devRef .tc main_v3) := by after_results_simp

/-! ## opsMsg1 -/
theorem msg1_arg3 : after (opsMsg1 (F := F)) V (Proc.devRef .tc main_arg3) = V (Proc.devRef .tc main_arg3) := by after_results_simp
theorem msg1_arg14 : after (opsMsg1 (F := F)) V (Proc.devRef .tc main_arg14) = V (Proc.devRef .tc main_arg14) := by after_results_simp
theorem msg1_arg15 : after (opsMsg1 (F := F)) V (Proc.devRef .tc main_arg15) = V (Proc.devRef .tc main_arg15) := by after_results_simp
theorem msg1_arg16 : after (opsMsg1 (F := F)) V (Proc.devRef .tc main_arg16) = V (Proc.devRef .tc main_arg16) := by after_results_simp
theorem msg1_arg17 : after (opsMsg1 (F := F)) V (Proc.devRef .tc main_arg17) = V (Proc.devRef .tc main_arg17) := by after_results_simp
theorem msg1_arg18 : after (opsMsg1 (F := F)) V (Proc.devRef .tc main_arg18) = V (Proc.devRef .tc main_arg18) := by after_results_simp
theorem msg1_arg19 : after (opsMsg1 (F := F)) V (Proc.devRef .tc main_arg19) = V (Proc.devRef .tc main_arg19) := by after_results_simp
theorem msg1_v3 : after (opsMsg1 (F := F)) V (Proc.devRef .tc main_v3) = V (Proc.devRef .tc main_v3) := by after_results_simp
theorem msg1_v63 : after (opsMsg1 (F := F)) V (Proc.devRef .tc main_v63) = V (Proc.devRef .tc main_v63) := by after_results_simp

end Cert.ReferenceIdeal.RKeep

end
-- ==== Proof.Spec.lean ====
/-
  One edge's message, one output feature, on the extended reals.

  An edge carries the features `a` of its target node and `b` of its source node (64 each) and its own
  16 attributes `e`.  A gate's pre-activation at an output feature is the contraction of the
  concatenated 144 inputs against that feature's column `W` of the 144-row weight matrix, plus the
  feature's bias `β`; written here as the three partial contractions over the three row bands of the
  matrix (rows 0–63, 64–127, 128–143), added left to right, then the bias.  The message is the logistic of the
  filter gate's pre-activation times the softplus of the core gate's, the softplus in the numerically
  stable form `max s 0 + log (1 + e^(-|s|))` with `|s| = max s (-s)`.
-/
import Idealize.ShloMosaic.PureOps.Ideal

noncomputable section

open scoped BigOperators

namespace Cert.Spec

open Idealize.ShloMosaic

/-- A gate's pre-activation: the three partial contractions over the row bands of the weight column, then the bias. -/
def gate (a b : Fin 64 → EReal) (e : Fin 16 → EReal) (W : Fin 144 → EReal) (β : EReal) : EReal :=
  ((∑ k : Fin 64, a k * W ⟨k.val, by omega⟩) + (∑ k : Fin 64, b k * W ⟨64 + k.val, by omega⟩)
    + ∑ k : Fin 16, e k * W ⟨128 + k.val, by omega⟩) + β

/-- The stable softplus: `max s 0 + log (1 + e^(-|s|))`. -/
def softplus (s : EReal) : EReal := max s 0 + Ideal.log1p (Ideal.exp (-(max s (-s))))

/-- One edge's message at one output feature. -/
def msg (a b : Fin 64 → EReal) (e : Fin 16 → EReal) (Wf : Fin 144 → EReal) (βf : EReal) (Ws : Fin 144 → EReal) (βs : EReal) :
    EReal :=
  Ideal.logistic (gate a b e Wf βf) * softplus (gate a b e Ws βs)

end Cert.Spec

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.KBody0.lean ====
/-
  What the first region's body leaves in its output block, entry by entry.

  The body loads the whole blocks of the edges' target-node features, source-node features and attributes
  and of the two gates' weight matrices and bias rows, and stores one block.  Each gate's pre-activation is
  the sum of three matrix products into zero accumulators — the three input bands against the three row
  bands of the weight matrix — plus the bias row broadcast over the edges; narrowing the operands to a
  shorter float format changes nothing on the extended reals.  The stored value is the logistic of the
  filter gate's pre-activation times the stable softplus of the core gate's, in which the guard
  `d ≠ d` for `d = s - 0` never holds on the extended reals.  Read at edge `p` and feature `c` this
  is the specification's message of the edge's three input rows, the two weight columns `c` and the two
  biases at `c`.
-/
import proofs.«163275_j5145370821233_2_alg».proof.Proof.Gen.KernelIdeal.Frame
import proofs.«163275_j5145370821233_2_alg».proof.Proof.Spec
import proofs.«163275_j5145370821233_2_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KBody

open Cert.KernelIdeal Cert.KernelIdeal.Gen Idealize.ShloMosaic Idealize.ShloMosaic.ValueIdx

/-- The zero offsets of a whole-block rectangle, as the constant function. -/
theorem hz : (![0, 0] : Fin 2 → Nat) = fun _ => 0 := funext fun a => by fin_cases a <;> rfl

/-! ## The operands: a change of float format is the identity on the extended reals -/

/-- The target node's features, cast to the same shape and narrowed: unchanged. -/
theorem pay2_apply (v0 : Vec Ideal S4000x64 .f32) (i : S4000x64.Idx) : k0_pay2 (F := Ideal) v0 i = v0 i := by
  unfold k0_pay2
  simp only [truncf_apply, shapeCast_self]

/-- The source node's features, likewise. -/
theorem pay3_apply (v3 : Vec Ideal S4000x64 .f32) (i : S4000x64.Idx) : k0_pay3 (F := Ideal) v3 i = v3 i := by
  unfold k0_pay3
  simp only [truncf_apply, shapeCast_self]

/-- The edge's attributes, narrowed: unchanged. -/
theorem pay4_apply (v6 : Vec Ideal S4000x16 .f32) (i : S4000x16.Idx) : k0_pay4 (F := Ideal) v6 i = v6 i := by
  unfold k0_pay4
  simp only [truncf_apply]

/-! ## A gate's pre-activation -/

/-- The sum of the three partial products and the broadcast bias row, at edge `p` and feature `c`, for a weight
    matrix `w` narrowed and cut into its three row bands: the gate's pre-activation. -/
theorem gate_apply (v0 v3 : Vec Ideal S4000x64 .f32) (v6 : Vec Ideal S4000x16 .f32) (w : Vec Ideal S144x64 .f32)
    (β : Vec Ideal S1x64 .f32) (p : Fin 4000) (c : Fin 64) :
    (matmul dot_S4000x64_S64x64_S4000x64_1_0_0_1_n_n none (k0_pay2 (F := Ideal) v0)
        (extractStridedSlice S64x64 ![0, 0] (truncf .bf16 w bitsLt_bf16_f32) slices_S144x64_o0_0_S64x64)
        (constant S4000x64 .f32 0x00000000#32) (ix2 p c)
      + matmul dot_S4000x64_S64x64_S4000x64_1_0_0_1_n_n none (k0_pay3 (F := Ideal) v3)
        (extractStridedSlice S64x64 ![64, 0] (truncf .bf16 w bitsLt_bf16_f32) slices_S144x64_o64_0_S64x64)
        (constant S4000x64 .f32 0x00000000#32) (ix2 p c)
      + matmul dot_S4000x16_S16x64_S4000x64_1_0_0_1_n_n none (k0_pay4 (F := Ideal) v6)
        (extractStridedSlice S16x64 ![128, 0] (truncf .bf16 w bitsLt_bf16_f32) slices_S144x64_o128_0_S16x64)
        (constant S4000x64 .f32 0x00000000#32) (ix2 p c)
      + broadcastTo S4000x64 (shapeCast S1x64 β shapeCasts_S1x64_S1x64) broadcasts_S1x64_S4000x64 (ix2 p c) : EReal)
      = Cert.Spec.gate (fun k => v0 (ix2 p k)) (fun k => v3 (ix2 p k)) (fun k => v6 (ix2 p k))
          (fun k => w (ix2 k c)) (β (ix2 0 c)) := by
  unfold Cert.Spec.gate
  refine congrArg₂ (· + ·) (congrArg₂ (· + ·) (congrArg₂ (· + ·) ?_ ?_) ?_) ?_
  · refine (Cert.LibDense.matmul_zero_apply dot_S4000x64_S64x64_S4000x64_1_0_0_1_n_n rfl rfl (fun _ _ => rfl)
      (fun _ _ => rfl) (fun _ _ => rfl) (fun _ _ => rfl) none _ _ p c).trans ?_
    refine Finset.sum_congr rfl fun q _ => ?_
    exact congrArg₂ (· * ·) (pay2_apply v0 _)
      (slice2_axis0_apply 0 (truncf (F := Ideal) (φ := .f32) .bf16 w bitsLt_bf16_f32) slices_S144x64_o0_0_S64x64 q c ⟨q.val, by omega⟩ (Nat.zero_add _).symm)
  · refine (Cert.LibDense.matmul_zero_apply dot_S4000x64_S64x64_S4000x64_1_0_0_1_n_n rfl rfl (fun _ _ => rfl)
      (fun _ _ => rfl) (fun _ _ => rfl) (fun _ _ => rfl) none _ _ p c).trans ?_
    refine Finset.sum_congr rfl fun q _ => ?_
    exact congrArg₂ (· * ·) (pay3_apply v3 _)
      (slice2_axis0_apply 64 (truncf (F := Ideal) (φ := .f32) .bf16 w bitsLt_bf16_f32) slices_S144x64_o64_0_S64x64 q c ⟨64 + q.val, by omega⟩ rfl)
  · refine (Cert.LibDense.matmul_zero_apply dot_S4000x16_S16x64_S4000x64_1_0_0_1_n_n rfl rfl (fun _ _ => rfl)
      (fun _ _ => rfl) (fun _ _ => rfl) (fun _ _ => rfl) none _ _ p c).trans ?_
    refine Finset.sum_congr rfl fun q _ => ?_
    exact congrArg₂ (· * ·) (pay4_apply v6 _)
      (slice2_axis0_apply 128 (truncf (F := Ideal) (φ := .f32) .bf16 w bitsLt_bf16_f32) slices_S144x64_o128_0_S16x64 q c ⟨128 + q.val, by omega⟩ rfl)
  · exact (broadcastTo_1b_ab_apply (shapeCast S1x64 β shapeCasts_S1x64_S1x64) broadcasts_S1x64_S4000x64 p c).trans
      (congrFun (shapeCast_self β shapeCasts_S1x64_S1x64) (ix2 0 c))

/-- The core gate's pre-activation at edge `p`, feature `c`. -/
theorem pay5_apply (v0 v3 : Vec Ideal S4000x64 .f32) (v6 : Vec Ideal S4000x16 .f32) (v10 : Vec Ideal S144x64 .f32)
    (v32 : Vec Ideal S1x64 .f32) (p : Fin 4000) (c : Fin 64) :
    k0_pay5 (F := Ideal) v0 v3 v6 v10 v32 (ix2 p c)
      = Cert.Spec.gate (fun k => v0 (ix2 p k)) (fun k => v3 (ix2 p k)) (fun k => v6 (ix2 p k))
          (fun k => v10 (ix2 k c)) (v32 (ix2 0 c)) := by
  unfold k0_pay5
  simp only [addf_apply]
  exact gate_apply v0 v3 v6 v10 v32 p c

/-- The filter gate's pre-activation through the logistic, at edge `p`, feature `c`. -/
theorem pay6_apply (v0 v3 : Vec Ideal S4000x64 .f32) (v6 : Vec Ideal S4000x16 .f32) (v8 : Vec Ideal S144x64 .f32)
    (v23 : Vec Ideal S1x64 .f32) (p : Fin 4000) (c : Fin 64) :
    k0_pay6 (F := Ideal) v0 v3 v6 v8 v23 (ix2 p c)
      = Ideal.logistic (Cert.Spec.gate (fun k => v0 (ix2 p k)) (fun k => v3 (ix2 p k)) (fun k => v6 (ix2 p k))
          (fun k => v8 (ix2 k c)) (v23 (ix2 0 c))) := by
  unfold k0_pay6
  show Ideal.logistic _ = _
  simp only [addf_apply]
  exact congrArg Ideal.logistic (gate_apply v0 v3 v6 v8 v23 p c)

/-! ## The message -/

/-- An extended real is never different from itself: the comparison "ordered and not equal" of a value with
    itself is the zero bit. -/
theorem cmp_one_self (x : EReal) : Ideal.cmp .one x x = 0#1 := by
  simp [Ideal.cmp]

/-- The filter gate's value times the stable softplus of the core gate's pre-activation `s`: the difference
    `d = s - 0` is `s`, `d ≠ d` never holds, so the selection keeps `max s 0 + log (1 + e^(0 - |d|))`. -/
theorem pay1_apply (v35 v36 : FVec Ideal S4000x64 .f32) (i : S4000x64.Idx) :
    k0_pay1 (F := Ideal) v35 v36 (Scalar.ofBits .f32 0x00000000#32) (k0_pay7 (F := Ideal)) i
      = v36 i * Cert.Spec.softplus (v35 i) := by
  have hZ : (Scalar.ofBits (F := Ideal) .f32 0x00000000#32 : EReal) = 0 := Ideal.ofBits_zero_f32
  unfold k0_pay1 k0_pay7 Cert.Spec.softplus
  show v36 i * Scalar.select (Ideal.cmp .one (v35 i - Scalar.ofBits (F := Ideal) .f32 0x00000000#32)
        (v35 i - Scalar.ofBits (F := Ideal) .f32 0x00000000#32))
      (v35 i + Scalar.ofBits (F := Ideal) .f32 0x00000000#32)
      (max (v35 i) (Scalar.ofBits (F := Ideal) .f32 0x00000000#32)
        + Ideal.log1p (Ideal.exp (Scalar.ofBits (F := Ideal) .f32 0x00000000#32
            - max (v35 i - Scalar.ofBits (F := Ideal) .f32 0x00000000#32)
                (-(v35 i - Scalar.ofBits (F := Ideal) .f32 0x00000000#32))))) = _
  rw [cmp_one_self, select_zero, hZ, sub_eq_add_neg (v35 i), neg_zero, add_zero, sub_eq_add_neg 0, zero_add]

/-! ## The block the body leaves -/

/-- What the body leaves in the output block, at edge `p` and feature `c`: the edge's message. -/
theorem out0_7_apply (x0 x1 : Vec Ideal S4000x64 .f32) (x2 : Vec Ideal S4000x16 .f32) (x3 : Vec Ideal S144x64 .f32)
    (x4 : Vec Ideal S1x64 .f32) (x5 : Vec Ideal S144x64 .f32) (x6 : Vec Ideal S1x64 .f32) (p : Fin 4000) (c : Fin 64) :
    Cert.KernelIdeal.Gen.out0_7 (F := Ideal) x0 x1 x2 x3 x4 x5 x6 (ix2 p c)
      = Cert.Spec.msg (fun k => x0 (ix2 p k)) (fun k => x1 (ix2 p k)) (fun k => x2 (ix2 p k))
          (fun k => x3 (ix2 k c)) (x4 (ix2 0 c)) (fun k => x5 (ix2 k c)) (x6 (ix2 0 c)) := by
  unfold out0_7 Cert.Spec.msg
  rw [View.canon_unit_zero hz]
  simp only [View.ld_unit_zero (S := S4000x64) hz, View.ld_unit_zero (S := S4000x16) hz,
    View.ld_unit_zero (S := S144x64) hz, View.ld_unit_zero (S := S1x64) hz]
  rw [pay1_apply, pay6_apply, pay5_apply]

end Cert.KernelIdeal.KBody

end
-- ==== Proof.MsgArr.lean ====
/-
  The message array of one layer: for every edge (row) and output feature (column), the message
  `Cert.Spec.msg` of the edge's target-node features, source-node features and attributes against the
  feature's columns of the two gates' weight matrices and its two biases.
-/
import proofs.«163275_j5145370821233_2_alg».proof.Proof.Spec
import Idealize.ShloMosaic.Lib.ValueIdx

noncomputable section

namespace Cert.Spec

open Idealize.ShloMosaic Idealize.ShloMosaic.ValueIdx

/-- Entry `(r, c)` is the message of row `r` of `xd`, `xs`, `e` against column `c` of `Wf`, `Ws` and entry `c` of the biases. -/
def msgArr (xd xs : (⟨2, ![800000, 64]⟩ : Shape).Idx → EReal) (e : (⟨2, ![800000, 16]⟩ : Shape).Idx → EReal)
    (Wf : (⟨2, ![144, 64]⟩ : Shape).Idx → EReal) (βf : Fin 64 → EReal)
    (Ws : (⟨2, ![144, 64]⟩ : Shape).Idx → EReal) (βs : Fin 64 → EReal) : (⟨2, ![800000, 64]⟩ : Shape).Idx → EReal :=
  fun i => msg (fun k => xd (ix2 (i 0) k)) (fun k => xs (ix2 (i 0) k)) (fun k => e (ix2 (i 0) k))
    (fun k => Wf (ix2 k (i 1))) (βf (i 1)) (fun k => Ws (ix2 k (i 1))) (βs (i 1))

theorem msgArr_apply (xd xs : (⟨2, ![800000, 64]⟩ : Shape).Idx → EReal) (e : (⟨2, ![800000, 16]⟩ : Shape).Idx → EReal)
    (Wf : (⟨2, ![144, 64]⟩ : Shape).Idx → EReal) (βf : Fin 64 → EReal)
    (Ws : (⟨2, ![144, 64]⟩ : Shape).Idx → EReal) (βs : Fin 64 → EReal) (r : Fin 800000) (c : Fin 64) :
    msgArr xd xs e Wf βf Ws βs (ix2 r c)
      = msg (fun k => xd (ix2 r k)) (fun k => xs (ix2 r k)) (fun k => e (ix2 r k))
          (fun k => Wf (ix2 k c)) (βf c) (fun k => Ws (ix2 k c)) (βs c) := rfl

end Cert.Spec

end
-- ==== Proof.KRegion0.lean ====
/-
  The array a launch of the message kernel leaves.

  The launch tiles the 800000 edges into 200 blocks of 4000 rows; at block `t` the body reads rows
  `4000·t … 4000·t + 3999` of the two gathered feature arrays and of the edge attributes, and the two
  weight matrices and the two bias rows whole, and writes the same rows of the output.  Entry by entry what
  it writes is the message of that edge and output feature, so the blocks are the restrictions of one
  whole-array function, the message array, and since the 200 blocks cover every row the output array ends
  holding exactly that function.
-/
import proofs.«163275_j5145370821233_2_alg».proof.Proof.KBody0
import proofs.«163275_j5145370821233_2_alg».proof.Proof.Gen.KernelIdeal.Frame
import proofs.«163275_j5145370821233_2_alg».proof.Proof.MsgArr
import Idealize.ShloMosaic.Lib.Pipeline.Value
import Idealize.ShloMosaic.Lib.ValueIdx

set_option maxRecDepth 16384

noncomputable section

namespace Cert.KernelIdeal.KRegion

open Cert.KernelIdeal.KBody

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The layer's messages from the seven arrays the launch reads (the two biases as the rows they were reshaped to). -/
def M0 (c : Dev nD) : S800000x64.Idx → EReal :=
  Cert.Spec.msgArr (V c main_v10) (V c main_v17) (V c main_arg2) (V c main_arg4) (fun q => V c main_v18 (ix2 0 q))
    (V c main_arg6) (fun q => V c main_v19 (ix2 0 q))

/-- One grid point's block of messages is the message array read through the block: block `b` holds rows
    `4000·b … 4000·b + 3999`, all 64 columns; the row-blocked operands are read at the same rows, the weights and
    biases whole. -/
theorem point_eq0 (xd xs : S800000x64.Idx → EReal) (e : S800000x16.Idx → EReal) (Wf Ws : S144x64.Idx → EReal)
    (bf bs : S1x64.Idx → EReal)
    (x0 x1 : Vec Ideal S4000x64 .f32) (x2 : Vec Ideal S4000x16 .f32) (x3 : Vec Ideal S144x64 .f32) (x4 : Vec Ideal S1x64 .f32)
    (x5 : Vec Ideal S144x64 .f32) (x6 : Vec Ideal S1x64 .f32) (b : ℕ)
    (h0 : ∀ (p : Fin 4000) (k : Fin 64) (r : Fin 800000), r.val = b * 4000 + p.val → x0 (ix2 p k) = xd (ix2 r k))
    (h1 : ∀ (p : Fin 4000) (k : Fin 64) (r : Fin 800000), r.val = b * 4000 + p.val → x1 (ix2 p k) = xs (ix2 r k))
    (h2 : ∀ (p : Fin 4000) (k : Fin 16) (r : Fin 800000), r.val = b * 4000 + p.val → x2 (ix2 p k) = e (ix2 r k))
    (h3 : x3 = Wf) (h4 : x4 = bf) (h5 : x5 = Ws) (h6 : x6 = bs)
    (y : S4000x64.Idx) (i : S800000x64.Idx) (hi0 : (i 0).val = b * 4000 + (y 0).val) (hi1 : (i 1).val = (y 1).val) :
    out0_7 (F := Ideal) x0 x1 x2 x3 x4 x5 x6 y
      = Cert.Spec.msgArr xd xs e Wf (fun q => bf (ix2 0 q)) Ws (fun q => bs (ix2 0 q)) i := by
  obtain ⟨p, q, rfl⟩ : ∃ (p : Fin 4000) (q : Fin 64), y = ix2 p q := ⟨y 0, y 1, eq_ix2 y⟩
  obtain ⟨r, c, rfl⟩ : ∃ (r : Fin 800000) (c : Fin 64), i = ix2 r c := ⟨i 0, i 1, eq_ix2 i⟩
  have hr : r.val = b * 4000 + p.val := hi0
  have hc : c = q := Fin.ext hi1
  subst hc h3 h4 h5 h6
  rw [out0_7_apply, Cert.Spec.msgArr_apply]
  have e0 : (fun k => x0 (ix2 p k)) = fun k => xd (ix2 r k) := funext fun k => h0 p k r hr
  have e1 : (fun k => x1 (ix2 p k)) = fun k => xs (ix2 r k) := funext fun k => h1 p k r hr
  have e2 : (fun k => x2 (ix2 p k)) = fun k => e (ix2 r k) := funext fun k => h2 p k r hr
  rw [e0, e1, e2]

/-- The printed index maps, decided over the grid: the three row-blocked operands move with the output's block along
    the rows, the weights and biases stay at block (0, 0), and the output's block row is the point's number. -/
theorem idx_facts0 : ∀ t : Fin cfg0.N,
      win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- What point `t` writes back is block `t` of the message array. -/
theorem flushed0 (c : Dev nD) (t : Fin cfg0.N) :
    (dat0 V c).flushed 7 t = ((cfg0.win 7).blk t).view.read (Elt Ideal) (M0 V c) := by
  show (cfg0.win 7).cut (grid0.coords t) ((dat0 V c).after 7 t) = _
  rw [after0_7]
  obtain ⟨a0, a1, b0, b1, c0, c1, d0, d1, f0, f1, g0, g1, k0, k1, o0, o1⟩ := idx_facts0 t
  funext y
  show out0_7 (F := Ideal) (iblk0 V c 0 t) (iblk0 V c 1 t) (iblk0 V c 2 t) (iblk0 V c 3 t) (iblk0 V c 4 t) (iblk0 V c 5 t) (iblk0 V c 6 t) y
    = M0 V c (((cfg0.win 7).blk t).view.emb y)
  unfold M0
  refine point_eq0 (V c main_v10) (V c main_v17) (V c main_arg2) (V c main_arg4) (V c main_arg6) (V c main_v18) (V c main_v19)
    _ _ _ _ _ _ _ t.val ?_ ?_ ?_ ?_ ?_ ?_ ?_ y _ ?_ ?_
  · intro p k r hr
    show V c main_v10 (((cfg0.win 0).blk t).view.emb (ix2 p k)) = V c main_v10 (ix2 r k)
    refine congrArg _ (funext fun a => Fin.ext ?_)
    match a with
    | ⟨0, _⟩ => show win0_0.index t (0 : Fin 2) * 4000 + 1 * p.val = r.val; omega
    | ⟨1, _⟩ => show win0_0.index t (1 : Fin 2) * 64 + 1 * k.val = k.val; omega
  · intro p k r hr
    show V c main_v17 (((cfg0.win 1).blk t).view.emb (ix2 p k)) = V c main_v17 (ix2 r k)
    refine congrArg _ (funext fun a => Fin.ext ?_)
    match a with
    | ⟨0, _⟩ => show win0_1.index t (0 : Fin 2) * 4000 + 1 * p.val = r.val; omega
    | ⟨1, _⟩ => show win0_1.index t (1 : Fin 2) * 64 + 1 * k.val = k.val; omega
  · intro p k r hr
    show V c main_arg2 (((cfg0.win 2).blk t).view.emb (ix2 p k)) = V c main_arg2 (ix2 r k)
    refine congrArg _ (funext fun a => Fin.ext ?_)
    match a with
    | ⟨0, _⟩ => show win0_2.index t (0 : Fin 2) * 4000 + 1 * p.val = r.val; omega
    | ⟨1, _⟩ => show win0_2.index t (1 : Fin 2) * 16 + 1 * k.val = k.val; omega
  · funext j
    show V c main_arg4 (((cfg0.win 3).blk t).view.emb j) = V c main_arg4 j
    refine congrArg _ (funext fun a => Fin.ext ?_)
    match a with
    | ⟨0, _⟩ => show win0_3.index t (0 : Fin 2) * 144 + 1 * (j 0).val = (j 0).val; omega
    | ⟨1, _⟩ => show win0_3.index t (1 : Fin 2) * 64 + 1 * (j 1).val = (j 1).val; omega
  · funext j
    show V c main_v18 (((cfg0.win 4).blk t).view.emb j) = V c main_v18 j
    refine congrArg _ (funext fun a => Fin.ext ?_)
    match a with
    | ⟨0, _⟩ => show win0_4.index t (0 : Fin 2) * 1 + 1 * (j 0).val = (j 0).val; omega
    | ⟨1, _⟩ => show win0_4.index t (1 : Fin 2) * 64 + 1 * (j 1).val = (j 1).val; omega
  · funext j
    show V c main_arg6 (((cfg0.win 5).blk t).view.emb j) = V c main_arg6 j
    refine congrArg _ (funext fun a => Fin.ext ?_)
    match a with
    | ⟨0, _⟩ => show win0_5.index t (0 : Fin 2) * 144 + 1 * (j 0).val = (j 0).val; omega
    | ⟨1, _⟩ => show win0_5.index t (1 : Fin 2) * 64 + 1 * (j 1).val = (j 1).val; omega
  · funext j
    show V c main_v19 (((cfg0.win 6).blk t).view.emb j) = V c main_v19 j
    refine congrArg _ (funext fun a => Fin.ext ?_)
    match a with
    | ⟨0, _⟩ => show win0_6.index t (0 : Fin 2) * 1 + 1 * (j 0).val = (j 0).val; omega
    | ⟨1, _⟩ => show win0_6.index t (1 : Fin 2) * 64 + 1 * (j 1).val = (j 1).val; omega
  · show win0_7.index t (0 : Fin 2) * 4000 + 1 * (y 0).val = t.val * 4000 + (y 0).val; omega
  · show win0_7.index t (1 : Fin 2) * 64 + 1 * (y 1).val = (y 1).val; omega

/-- An index of the message array is in point `t`'s block iff each coordinate is in the block's range on its axis. -/
theorem mem_blk0 (t : Fin cfg0.N) (i : S800000x64.Idx) :
    i ∈ ((cfg0.win 7).blk t).view.set ↔ ∀ a : Fin 2, win0_7.index t a * S4000x64.size a ≤ (i a).val ∧ (i a).val < win0_7.index t a * S4000x64.size a + S4000x64.size a := by
  show i ∈ ((View.whole main_v20).slice (win0_7.rect t)).set ↔ _
  rw [View.set_slice_whole, Rect.mem_set_unit]
  exact Iff.rfl

/-- Every row lies in the block of the point numbered by the row's quotient by 4000: the 200 blocks tile the array. -/
theorem cover0 (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  have hN : grid0.N = 200 := N_0
  have ht : (i 0).val / 4000 < grid0.N := by rw [hN]; omega
  obtain ⟨-, -, -, -, -, -, -, -, -, -, -, -, -, -, o0, o1⟩ := idx_facts0 ⟨(i 0).val / 4000, ht⟩
  refine ⟨⟨(i 0).val / 4000, ht⟩, flush0_7 _, ?_⟩
  rw [mem_blk0]
  intro a
  match a with
  | ⟨0, _⟩ =>
    show win0_7.index ⟨(i 0).val / 4000, ht⟩ (0 : Fin 2) * 4000 ≤ (i 0).val ∧ (i 0).val < win0_7.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win0_7.index ⟨(i 0).val / 4000, ht⟩ (1 : Fin 2) * 64 ≤ (i 1).val ∧ (i 1).val < win0_7.index ⟨(i 0).val / 4000, ht⟩ (1 : Fin 2) * 64 + 64
    rw [o1]; omega

/-- After the launch the output array holds the message array. -/
theorem value0 (c : Dev nD) : (dat0 V c).arrAt 7 cfg0.N = M0 V c :=
  (dat0 V c).arrAt_eq_of_cover 7 (M0 V c) (fun t _ => flushed0 V c t) (fun i => cover0 i)

end Cert.KernelIdeal.KRegion

end
-- ==== Proof.KBody1.lean ====
/-
  What the second region's body leaves in its output block, entry by entry.

  The second region runs the same body as the first over its own blocks: two gates' pre-activations, each
  the sum of three matrix products into zero accumulators plus a broadcast bias row, the logistic of the
  filter gate's times the stable softplus of the core gate's.  Read at edge `p` and feature `c` it is
  the specification's message of the edge's three input rows, the two weight columns `c` and the two
  biases at `c`.  The zero-offset fact and the comparison of a value with itself are the first region's.
-/
import proofs.«163275_j5145370821233_2_alg».proof.Proof.Gen.KernelIdeal.Frame
import proofs.«163275_j5145370821233_2_alg».proof.Proof.Spec
import proofs.«163275_j5145370821233_2_alg».proof.Proof.LibDense
import proofs.«163275_j5145370821233_2_alg».proof.Proof.KBody0
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KBody

open Cert.KernelIdeal Cert.KernelIdeal.Gen Idealize.ShloMosaic Idealize.ShloMosaic.ValueIdx

/-! ## The operands: a change of float format is the identity on the extended reals -/

/-- The target node's features, cast to the same shape and narrowed: unchanged. -/
theorem pay2_apply₁ (v0 : Vec Ideal S4000x64 .f32) (i : S4000x64.Idx) : k1_pay2 (F := Ideal) v0 i = v0 i := by
  unfold k1_pay2
  simp only [truncf_apply, shapeCast_self]

/-- The source node's features, likewise. -/
theorem pay3_apply₁ (v3 : Vec Ideal S4000x64 .f32) (i : S4000x64.Idx) : k1_pay3 (F := Ideal) v3 i = v3 i := by
  unfold k1_pay3
  simp only [truncf_apply, shapeCast_self]

/-- The edge's attributes, narrowed: unchanged. -/
theorem pay4_apply₁ (v6 : Vec Ideal S4000x16 .f32) (i : S4000x16.Idx) : k1_pay4 (F := Ideal) v6 i = v6 i := by
  unfold k1_pay4
  simp only [truncf_apply]

/-! ## A gate's pre-activation -/

/-- The sum of the three partial products and the broadcast bias row, at edge `p` and feature `c`, for a weight
    matrix `w` narrowed and cut into its three row bands: the gate's pre-activation. -/
theorem gate_apply₁ (v0 v3 : Vec Ideal S4000x64 .f32) (v6 : Vec Ideal S4000x16 .f32) (w : Vec Ideal S144x64 .f32)
    (β : Vec Ideal S1x64 .f32) (p : Fin 4000) (c : Fin 64) :
    (matmul dot_S4000x64_S64x64_S4000x64_1_0_0_1_n_n none (k1_pay2 (F := Ideal) v0)
        (extractStridedSlice S64x64 ![0, 0] (truncf .bf16 w bitsLt_bf16_f32) slices_S144x64_o0_0_S64x64)
        (constant S4000x64 .f32 0x00000000#32) (ix2 p c)
      + matmul dot_S4000x64_S64x64_S4000x64_1_0_0_1_n_n none (k1_pay3 (F := Ideal) v3)
        (extractStridedSlice S64x64 ![64, 0] (truncf .bf16 w bitsLt_bf16_f32) slices_S144x64_o64_0_S64x64)
        (constant S4000x64 .f32 0x00000000#32) (ix2 p c)
      + matmul dot_S4000x16_S16x64_S4000x64_1_0_0_1_n_n none (k1_pay4 (F := Ideal) v6)
        (extractStridedSlice S16x64 ![128, 0] (truncf .bf16 w bitsLt_bf16_f32) slices_S144x64_o128_0_S16x64)
        (constant S4000x64 .f32 0x00000000#32) (ix2 p c)
      + broadcastTo S4000x64 (shapeCast S1x64 β shapeCasts_S1x64_S1x64) broadcasts_S1x64_S4000x64 (ix2 p c) : EReal)
      = Cert.Spec.gate (fun k => v0 (ix2 p k)) (fun k => v3 (ix2 p k)) (fun k => v6 (ix2 p k))
          (fun k => w (ix2 k c)) (β (ix2 0 c)) := by
  unfold Cert.Spec.gate
  refine congrArg₂ (· + ·) (congrArg₂ (· + ·) (congrArg₂ (· + ·) ?_ ?_) ?_) ?_
  · refine (Cert.LibDense.matmul_zero_apply dot_S4000x64_S64x64_S4000x64_1_0_0_1_n_n rfl rfl (fun _ _ => rfl)
      (fun _ _ => rfl) (fun _ _ => rfl) (fun _ _ => rfl) none _ _ p c).trans ?_
    refine Finset.sum_congr rfl fun q _ => ?_
    exact congrArg₂ (· * ·) (pay2_apply₁ v0 _)
      (slice2_axis0_apply 0 (truncf (F := Ideal) (φ := .f32) .bf16 w bitsLt_bf16_f32) slices_S144x64_o0_0_S64x64 q c ⟨q.val, by omega⟩ (Nat.zero_add _).symm)
  · refine (Cert.LibDense.matmul_zero_apply dot_S4000x64_S64x64_S4000x64_1_0_0_1_n_n rfl rfl (fun _ _ => rfl)
      (fun _ _ => rfl) (fun _ _ => rfl) (fun _ _ => rfl) none _ _ p c).trans ?_
    refine Finset.sum_congr rfl fun q _ => ?_
    exact congrArg₂ (· * ·) (pay3_apply₁ v3 _)
      (slice2_axis0_apply 64 (truncf (F := Ideal) (φ := .f32) .bf16 w bitsLt_bf16_f32) slices_S144x64_o64_0_S64x64 q c ⟨64 + q.val, by omega⟩ rfl)
  · refine (Cert.LibDense.matmul_zero_apply dot_S4000x16_S16x64_S4000x64_1_0_0_1_n_n rfl rfl (fun _ _ => rfl)
      (fun _ _ => rfl) (fun _ _ => rfl) (fun _ _ => rfl) none _ _ p c).trans ?_
    refine Finset.sum_congr rfl fun q _ => ?_
    exact congrArg₂ (· * ·) (pay4_apply₁ v6 _)
      (slice2_axis0_apply 128 (truncf (F := Ideal) (φ := .f32) .bf16 w bitsLt_bf16_f32) slices_S144x64_o128_0_S16x64 q c ⟨128 + q.val, by omega⟩ rfl)
  · exact (broadcastTo_1b_ab_apply (shapeCast S1x64 β shapeCasts_S1x64_S1x64) broadcasts_S1x64_S4000x64 p c).trans
      (congrFun (shapeCast_self β shapeCasts_S1x64_S1x64) (ix2 0 c))

/-- The core gate's pre-activation at edge `p`, feature `c`. -/
theorem pay5_apply₁ (v0 v3 : Vec Ideal S4000x64 .f32) (v6 : Vec Ideal S4000x16 .f32) (v10 : Vec Ideal S144x64 .f32)
    (v32 : Vec Ideal S1x64 .f32) (p : Fin 4000) (c : Fin 64) :
    k1_pay5 (F := Ideal) v0 v3 v6 v10 v32 (ix2 p c)
      = Cert.Spec.gate (fun k => v0 (ix2 p k)) (fun k => v3 (ix2 p k)) (fun k => v6 (ix2 p k))
          (fun k => v10 (ix2 k c)) (v32 (ix2 0 c)) := by
  unfold k1_pay5
  simp only [addf_apply]
  exact gate_apply₁ v0 v3 v6 v10 v32 p c

/-- The filter gate's pre-activation through the logistic, at edge `p`, feature `c`. -/
theorem pay6_apply₁ (v0 v3 : Vec Ideal S4000x64 .f32) (v6 : Vec Ideal S4000x16 .f32) (v8 : Vec Ideal S144x64 .f32)
    (v23 : Vec Ideal S1x64 .f32) (p : Fin 4000) (c : Fin 64) :
    k1_pay6 (F := Ideal) v0 v3 v6 v8 v23 (ix2 p c)
      = Ideal.logistic (Cert.Spec.gate (fun k => v0 (ix2 p k)) (fun k => v3 (ix2 p k)) (fun k => v6 (ix2 p k))
          (fun k => v8 (ix2 k c)) (v23 (ix2 0 c))) := by
  unfold k1_pay6
  show Ideal.logistic _ = _
  simp only [addf_apply]
  exact congrArg Ideal.logistic (gate_apply₁ v0 v3 v6 v8 v23 p c)

/-! ## The message -/

/-- The filter gate's value times the stable softplus of the core gate's pre-activation `s`: the difference
    `d = s - 0` is `s`, `d ≠ d` never holds, so the selection keeps `max s 0 + log (1 + e^(0 - |d|))`. -/
theorem pay1_apply₁ (v35 v36 : FVec Ideal S4000x64 .f32) (i : S4000x64.Idx) :
    k1_pay1 (F := Ideal) v35 v36 (Scalar.ofBits .f32 0x00000000#32) (k1_pay7 (F := Ideal)) i
      = v36 i * Cert.Spec.softplus (v35 i) := by
  have hZ : (Scalar.ofBits (F := Ideal) .f32 0x00000000#32 : EReal) = 0 := Ideal.ofBits_zero_f32
  unfold k1_pay1 k1_pay7 Cert.Spec.softplus
  show v36 i * Scalar.select (Ideal.cmp .one (v35 i - Scalar.ofBits (F := Ideal) .f32 0x00000000#32)
        (v35 i - Scalar.ofBits (F := Ideal) .f32 0x00000000#32))
      (v35 i + Scalar.ofBits (F := Ideal) .f32 0x00000000#32)
      (max (v35 i) (Scalar.ofBits (F := Ideal) .f32 0x00000000#32)
        + Ideal.log1p (Ideal.exp (Scalar.ofBits (F := Ideal) .f32 0x00000000#32
            - max (v35 i - Scalar.ofBits (F := Ideal) .f32 0x00000000#32)
                (-(v35 i - Scalar.ofBits (F := Ideal) .f32 0x00000000#32))))) = _
  rw [cmp_one_self, select_zero, hZ, sub_eq_add_neg (v35 i), neg_zero, add_zero, sub_eq_add_neg 0, zero_add]

/-! ## The block the body leaves -/

/-- What the body leaves in the output block, at edge `p` and feature `c`: the edge's message. -/
theorem out1_7_apply (x0 x1 : Vec Ideal S4000x64 .f32) (x2 : Vec Ideal S4000x16 .f32) (x3 : Vec Ideal S144x64 .f32)
    (x4 : Vec Ideal S1x64 .f32) (x5 : Vec Ideal S144x64 .f32) (x6 : Vec Ideal S1x64 .f32) (p : Fin 4000) (c : Fin 64) :
    Cert.KernelIdeal.Gen.out1_7 (F := Ideal) x0 x1 x2 x3 x4 x5 x6 (ix2 p c)
      = Cert.Spec.msg (fun k => x0 (ix2 p k)) (fun k => x1 (ix2 p k)) (fun k => x2 (ix2 p k))
          (fun k => x3 (ix2 k c)) (x4 (ix2 0 c)) (fun k => x5 (ix2 k c)) (x6 (ix2 0 c)) := by
  unfold out1_7 Cert.Spec.msg
  rw [View.canon_unit_zero hz]
  simp only [View.ld_unit_zero (S := S4000x64) hz, View.ld_unit_zero (S := S4000x16) hz,
    View.ld_unit_zero (S := S144x64) hz, View.ld_unit_zero (S := S1x64) hz]
  rw [pay1_apply₁, pay6_apply₁, pay5_apply₁]

end Cert.KernelIdeal.KBody

end
-- ==== Proof.KRegion1.lean ====
/-
  The array a launch of the message kernel leaves.

  The launch tiles the 800000 edges into 200 blocks of 4000 rows; at block `t` the body reads rows
  `4000·t … 4000·t + 3999` of the two gathered feature arrays and of the edge attributes, and the two
  weight matrices and the two bias rows whole, and writes the same rows of the output.  Entry by entry what
  it writes is the message of that edge and output feature, so the blocks are the restrictions of one
  whole-array function, the message array, and since the 200 blocks cover every row the output array ends
  holding exactly that function.
-/
import proofs.«163275_j5145370821233_2_alg».proof.Proof.KBody1
import proofs.«163275_j5145370821233_2_alg».proof.Proof.Gen.KernelIdeal.Frame
import proofs.«163275_j5145370821233_2_alg».proof.Proof.MsgArr
import Idealize.ShloMosaic.Lib.Pipeline.Value
import Idealize.ShloMosaic.Lib.ValueIdx

set_option maxRecDepth 16384

noncomputable section

namespace Cert.KernelIdeal.KRegion

open Cert.KernelIdeal.KBody

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The layer's messages from the seven arrays the launch reads (the two biases as the rows they were reshaped to). -/
def M1 (c : Dev nD) : S800000x64.Idx → EReal :=
  Cert.Spec.msgArr (V c main_v56) (V c main_v63) (V c main_arg2) (V c main_arg10) (fun q => V c main_v64 (ix2 0 q))
    (V c main_arg12) (fun q => V c main_v65 (ix2 0 q))

/-- One grid point's block of messages is the message array read through the block: block `b` holds rows
    `4000·b … 4000·b + 3999`, all 64 columns; the row-blocked operands are read at the same rows, the weights and
    biases whole. -/
theorem point_eq1 (xd xs : S800000x64.Idx → EReal) (e : S800000x16.Idx → EReal) (Wf Ws : S144x64.Idx → EReal)
    (bf bs : S1x64.Idx → EReal)
    (x0 x1 : Vec Ideal S4000x64 .f32) (x2 : Vec Ideal S4000x16 .f32) (x3 : Vec Ideal S144x64 .f32) (x4 : Vec Ideal S1x64 .f32)
    (x5 : Vec Ideal S144x64 .f32) (x6 : Vec Ideal S1x64 .f32) (b : ℕ)
    (h0 : ∀ (p : Fin 4000) (k : Fin 64) (r : Fin 800000), r.val = b * 4000 + p.val → x0 (ix2 p k) = xd (ix2 r k))
    (h1 : ∀ (p : Fin 4000) (k : Fin 64) (r : Fin 800000), r.val = b * 4000 + p.val → x1 (ix2 p k) = xs (ix2 r k))
    (h2 : ∀ (p : Fin 4000) (k : Fin 16) (r : Fin 800000), r.val = b * 4000 + p.val → x2 (ix2 p k) = e (ix2 r k))
    (h3 : x3 = Wf) (h4 : x4 = bf) (h5 : x5 = Ws) (h6 : x6 = bs)
    (y : S4000x64.Idx) (i : S800000x64.Idx) (hi0 : (i 0).val = b * 4000 + (y 0).val) (hi1 : (i 1).val = (y 1).val) :
    out1_7 (F := Ideal) x0 x1 x2 x3 x4 x5 x6 y
      = Cert.Spec.msgArr xd xs e Wf (fun q => bf (ix2 0 q)) Ws (fun q => bs (ix2 0 q)) i := by
  obtain ⟨p, q, rfl⟩ : ∃ (p : Fin 4000) (q : Fin 64), y = ix2 p q := ⟨y 0, y 1, eq_ix2 y⟩
  obtain ⟨r, c, rfl⟩ : ∃ (r : Fin 800000) (c : Fin 64), i = ix2 r c := ⟨i 0, i 1, eq_ix2 i⟩
  have hr : r.val = b * 4000 + p.val := hi0
  have hc : c = q := Fin.ext hi1
  subst hc h3 h4 h5 h6
  rw [out1_7_apply, Cert.Spec.msgArr_apply]
  have e0 : (fun k => x0 (ix2 p k)) = fun k => xd (ix2 r k) := funext fun k => h0 p k r hr
  have e1 : (fun k => x1 (ix2 p k)) = fun k => xs (ix2 r k) := funext fun k => h1 p k r hr
  have e2 : (fun k => x2 (ix2 p k)) = fun k => e (ix2 r k) := funext fun k => h2 p k r hr
  rw [e0, e1, e2]

/-- The printed index maps, decided over the grid: the three row-blocked operands move with the output's block along
    the rows, the weights and biases stay at block (0, 0), and the output's block row is the point's number. -/
theorem idx_facts1 : ∀ t : Fin cfg1.N,
      win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is block `t` of the message array. -/
theorem flushed1 (c : Dev nD) (t : Fin cfg1.N) :
    (dat1 V c).flushed 7 t = ((cfg1.win 7).blk t).view.read (Elt Ideal) (M1 V c) := by
  show (cfg1.win 7).cut (grid1.coords t) ((dat1 V c).after 7 t) = _
  rw [after1_7]
  obtain ⟨a0, a1, b0, b1, c0, c1, d0, d1, f0, f1, g0, g1, k0, k1, o0, o1⟩ := idx_facts1 t
  funext y
  show out1_7 (F := Ideal) (iblk1 V c 0 t) (iblk1 V c 1 t) (iblk1 V c 2 t) (iblk1 V c 3 t) (iblk1 V c 4 t) (iblk1 V c 5 t) (iblk1 V c 6 t) y
    = M1 V c (((cfg1.win 7).blk t).view.emb y)
  unfold M1
  refine point_eq1 (V c main_v56) (V c main_v63) (V c main_arg2) (V c main_arg10) (V c main_arg12) (V c main_v64) (V c main_v65)
    _ _ _ _ _ _ _ t.val ?_ ?_ ?_ ?_ ?_ ?_ ?_ y _ ?_ ?_
  · intro p k r hr
    show V c main_v56 (((cfg1.win 0).blk t).view.emb (ix2 p k)) = V c main_v56 (ix2 r k)
    refine congrArg _ (funext fun a => Fin.ext ?_)
    match a with
    | ⟨0, _⟩ => show win1_0.index t (0 : Fin 2) * 4000 + 1 * p.val = r.val; omega
    | ⟨1, _⟩ => show win1_0.index t (1 : Fin 2) * 64 + 1 * k.val = k.val; omega
  · intro p k r hr
    show V c main_v63 (((cfg1.win 1).blk t).view.emb (ix2 p k)) = V c main_v63 (ix2 r k)
    refine congrArg _ (funext fun a => Fin.ext ?_)
    match a with
    | ⟨0, _⟩ => show win1_1.index t (0 : Fin 2) * 4000 + 1 * p.val = r.val; omega
    | ⟨1, _⟩ => show win1_1.index t (1 : Fin 2) * 64 + 1 * k.val = k.val; omega
  · intro p k r hr
    show V c main_arg2 (((cfg1.win 2).blk t).view.emb (ix2 p k)) = V c main_arg2 (ix2 r k)
    refine congrArg _ (funext fun a => Fin.ext ?_)
    match a with
    | ⟨0, _⟩ => show win1_2.index t (0 : Fin 2) * 4000 + 1 * p.val = r.val; omega
    | ⟨1, _⟩ => show win1_2.index t (1 : Fin 2) * 16 + 1 * k.val = k.val; omega
  · funext j
    show V c main_arg10 (((cfg1.win 3).blk t).view.emb j) = V c main_arg10 j
    refine congrArg _ (funext fun a => Fin.ext ?_)
    match a with
    | ⟨0, _⟩ => show win1_3.index t (0 : Fin 2) * 144 + 1 * (j 0).val = (j 0).val; omega
    | ⟨1, _⟩ => show win1_3.index t (1 : Fin 2) * 64 + 1 * (j 1).val = (j 1).val; omega
  · funext j
    show V c main_v64 (((cfg1.win 4).blk t).view.emb j) = V c main_v64 j
    refine congrArg _ (funext fun a => Fin.ext ?_)
    match a with
    | ⟨0, _⟩ => show win1_4.index t (0 : Fin 2) * 1 + 1 * (j 0).val = (j 0).val; omega
    | ⟨1, _⟩ => show win1_4.index t (1 : Fin 2) * 64 + 1 * (j 1).val = (j 1).val; omega
  · funext j
    show V c main_arg12 (((cfg1.win 5).blk t).view.emb j) = V c main_arg12 j
    refine congrArg _ (funext fun a => Fin.ext ?_)
    match a with
    | ⟨0, _⟩ => show win1_5.index t (0 : Fin 2) * 144 + 1 * (j 0).val = (j 0).val; omega
    | ⟨1, _⟩ => show win1_5.index t (1 : Fin 2) * 64 + 1 * (j 1).val = (j 1).val; omega
  · funext j
    show V c main_v65 (((cfg1.win 6).blk t).view.emb j) = V c main_v65 j
    refine congrArg _ (funext fun a => Fin.ext ?_)
    match a with
    | ⟨0, _⟩ => show win1_6.index t (0 : Fin 2) * 1 + 1 * (j 0).val = (j 0).val; omega
    | ⟨1, _⟩ => show win1_6.index t (1 : Fin 2) * 64 + 1 * (j 1).val = (j 1).val; omega
  · show win1_7.index t (0 : Fin 2) * 4000 + 1 * (y 0).val = t.val * 4000 + (y 0).val; omega
  · show win1_7.index t (1 : Fin 2) * 64 + 1 * (y 1).val = (y 1).val; omega

/-- An index of the message array is in point `t`'s block iff each coordinate is in the block's range on its axis. -/
theorem mem_blk1 (t : Fin cfg1.N) (i : S800000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v66).slice (win1_7.rect t)).set ↔ _
  rw [View.set_slice_whole, Rect.mem_set_unit]
  exact Iff.rfl

/-- Every row lies in the block of the point numbered by the row's quotient by 4000: the 200 blocks tile the array. -/
theorem cover1 (i : S800000x64.Idx) :
    ∃ t : Fin cfg1.N, (cfg1.win 7).flush t = true ∧ i ∈ ((cfg1.win 7).blk t).view.set := by
  have hi0 : (i 0).val < 800000 := (i 0).isLt
  have hi1 : (i 1).val < 64 := (i 1).isLt
  have hN : grid1.N = 200 := N_1
  have ht : (i 0).val / 4000 < grid1.N := by rw [hN]; omega
  obtain ⟨-, -, -, -, -, -, -, -, -, -, -, -, -, -, o0, o1⟩ := idx_facts1 ⟨(i 0).val / 4000, ht⟩
  refine ⟨⟨(i 0).val / 4000, ht⟩, flush1_7 _, ?_⟩
  rw [mem_blk1]
  intro a
  match a with
  | ⟨0, _⟩ =>
    show win1_7.index ⟨(i 0).val / 4000, ht⟩ (0 : Fin 2) * 4000 ≤ (i 0).val ∧ (i 0).val < win1_7.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win1_7.index ⟨(i 0).val / 4000, ht⟩ (1 : Fin 2) * 64 ≤ (i 1).val ∧ (i 1).val < win1_7.index ⟨(i 0).val / 4000, ht⟩ (1 : Fin 2) * 64 + 64
    rw [o1]; omega

/-- After the launch the output array holds the message array. -/
theorem value1 (c : Dev nD) : (dat1 V c).arrAt 7 cfg1.N = M1 V c :=
  (dat1 V c).arrAt_eq_of_cover 7 (M1 V c) (fun t _ => flushed1 V c t) (fun i => cover1 i)

end Cert.KernelIdeal.KRegion

end
-- ==== Proof.SpecSplit.lean ====
/-
  The contraction over the 144 concatenated inputs, split over the three row bands.

  A sum over the 144 rows of a weight column is the sum over rows 0–63, plus the sum over rows
  64–127, plus the sum over rows 128–143: addition on the extended reals is a commutative monoid, so a
  finite sum splits over a partition of its index range with no finiteness hypothesis.  When the
  summand's first factor is, band by band, the target's features, the source's features and the edge's
  attributes, the sum plus the bias is the gate's pre-activation.
-/
import proofs.«163275_j5145370821233_2_alg».proof.Proof.Spec

noncomputable section

open scoped BigOperators

namespace Cert.Spec

/-- A sum over `Fin 144` is the sum of its three band sums (64, 64 and 16 terms), in any commutative monoid. -/
theorem sum_bands {M : Type*} [AddCommMonoid M] (f : Fin 144 → M) :
    ∑ q : Fin 144, f q
      = (∑ k : Fin 64, f ⟨k.val, by omega⟩) + (∑ k : Fin 64, f ⟨64 + k.val, by omega⟩)
        + ∑ k : Fin 16, f ⟨128 + k.val, by omega⟩ := by
  have h1 : ∑ q : Fin 144, f q = ∑ q : Fin (64 + 64 + 16), f q := rfl
  rw [h1, Fin.sum_univ_add, Fin.sum_univ_add]
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext rfl)

/-- The contraction of a 144-vector `z` against a weight column, plus the bias, is the gate's pre-activation
    when `z` is the target's features on rows 0–63, the source's on rows 64–127 and the edge's attributes on
    rows 128–143. -/
theorem sum_add_eq_gate (a b : Fin 64 → EReal) (e : Fin 16 → EReal) (W : Fin 144 → EReal) (β : EReal)
    (z : Fin 144 → EReal)
    (h0 : ∀ k : Fin 64, z ⟨k.val, by omega⟩ = a k)
    (h1 : ∀ k : Fin 64, z ⟨64 + k.val, by omega⟩ = b k)
    (h2 : ∀ k : Fin 16, z ⟨128 + k.val, by omega⟩ = e k) :
    (∑ q : Fin 144, z q * W q) + β = gate a b e W β := by
  unfold gate
  rw [sum_bands fun q => z q * W q]
  simp only [h0, h1, h2]

end Cert.Spec

end
-- ==== Proof.RefMsg.lean ====
/-
  The reference's message stage, read at an index.

  One layer's messages are formed from the gathered target features `xd`, the gathered source features
  `xs` and the edge attributes `e`: the three are concatenated along the columns into one row of 144
  entries per edge; each gate is that row contracted against its 144 × 64 weight matrix plus its bias
  (broadcast over the edges); the filter gate goes through 1 / (1 + exp (-·)) and the core gate
  through the stable softplus, written with a select on "x - 0 ≠ x - 0" that is never taken on the
  extended reals; the message is their product.  `refMsg` is that composition, operation by
  operation, and `refMsg_apply` reads it at edge `r`, feature `c` as the specification's `msg`.
-/
import proofs.«163275_j5145370821233_2_alg».proof.ReferenceIdeal
import proofs.«163275_j5145370821233_2_alg».proof.Proof.Gen.ReferenceIdeal
import proofs.«163275_j5145370821233_2_alg».proof.Proof.Spec
import proofs.«163275_j5145370821233_2_alg».proof.Proof.SpecSplit
import proofs.«163275_j5145370821233_2_alg».proof.Proof.LibDense
import proofs.«163275_j5145370821233_2_alg».proof.Proof.LibLayout
import Idealize.ShloMosaic.Lib.IdealHost
import Idealize.ShloMosaic.Lib.Pipeline.Value

noncomputable section

open scoped BigOperators

namespace Cert.ReferenceIdeal.RefMsg

open Cert.ReferenceIdeal Cert.ReferenceIdeal.Gen Idealize.ShloMosaic Idealize.ShloMosaic.ValueIdx

/-- One layer's messages as the reference's own operations, composed in the program's order: the
    concatenation, the filter gate's contraction and bias, 1 / (1 + exp (-·)) of it, the core gate's
    contraction and bias, the softplus of it (its operations in place), and the product. -/
def refMsg (xd xs : FVec Ideal S800000x64 .f32) (e : FVec Ideal S800000x16 .f32) (Wf : FVec Ideal S144x64 .f32) (bf : FVec Ideal S64 .f32)
    (Ws : FVec Ideal S144x64 .f32) (bs : FVec Ideal S64 .f32) : FVec Ideal S800000x64 .f32 :=
  have v18 : FVec Ideal S800000x144 .f32 := concatenate S800000x144 1 [⟨S800000x64, xd⟩, ⟨S800000x64, xs⟩, ⟨S800000x16, e⟩] concatenates_S800000x64_S800000x64_S800000x16_S800000x144_d1
  have v19 : FVec Ideal S800000x64 .f32 := Host.dotGeneral (F := Ideal) dot_S800000x144_S144x64_S800000x64_1_0_0_1_n_n none v18 Wf
  have v20 : FVec Ideal S1x64 .f32 := broadcastInDim S1x64 ![1] bcast_S64_S1x64_1 bf
  have v21 : FVec Ideal S800000x64 .f32 := broadcastInDim S800000x64 ![0, 1] bcast_S1x64_S800000x64_0_1 v20
  have v22 : FVec Ideal S800000x64 .f32 := addf v19 v21
  have v23 : FVec Ideal S800000x64 .f32 := Host.negf v22
  have v24 : FVec Ideal S800000x64 .f32 := Host.exp v23
  have cst : FVec Ideal S_ .f32 := constant (F := Ideal) S_ .f32 0x3F800000#32
  have v25 : FVec Ideal S800000x64 .f32 := broadcastInDim S800000x64 ![] bcast_S_S800000x64 cst
  have v26 : FVec Ideal S800000x64 .f32 := addf v25 v24
  have cst_3 : FVec Ideal S_ .f32 := constant (F := Ideal) S_ .f32 0x3F800000#32
  have v27 : FVec Ideal S800000x64 .f32 := broadcastInDim S800000x64 ![] bcast_S_S800000x64 cst_3
  have v28 : FVec Ideal S800000x64 .f32 := Host.divf v27 v26
  have v29 : FVec Ideal S800000x64 .f32 := Host.dotGeneral (F := Ideal) dot_S800000x144_S144x64_S800000x64_1_0_0_1_n_n none v18 Ws
  have v30 : FVec Ideal S1x64 .f32 := broadcastInDim S1x64 ![1] bcast_S64_S1x64_1 bs
  have v31 : FVec Ideal S800000x64 .f32 := broadcastInDim S800000x64 ![0, 1] bcast_S1x64_S800000x64_0_1 v30
  have v32 : FVec Ideal S800000x64 .f32 := addf v29 v31
  have c0 : FVec Ideal S_ .f32 := constant (F := Ideal) S_ .f32 0x00000000#32
  have s0 : FVec Ideal S800000x64 .f32 := broadcastInDim S800000x64 ![] bcast_S_S800000x64 c0
  have s1 : FVec Ideal S800000x64 .f32 := maximumf v32 s0
  have s2 : FVec Ideal S800000x64 .f32 := broadcastInDim S800000x64 ![] bcast_S_S800000x64 c0
  have s3 : FVec Ideal S800000x64 .f32 := subf v32 s2
  have s4 : IVec S800000x64 1 := cmpf .une s3 s3
  have s5 : FVec Ideal S800000x64 .f32 := broadcastInDim S800000x64 ![] bcast_S_S800000x64 c0
  have s6 : FVec Ideal S800000x64 .f32 := addf v32 s5
  have s7 : FVec Ideal S800000x64 .f32 := Host.absf s3
  have s8 : FVec Ideal S800000x64 .f32 := Host.negf s7
  have s9 : FVec Ideal S800000x64 .f32 := Host.exp s8
  have s10 : FVec Ideal S800000x64 .f32 := Host.log1p s9
  have s11 : FVec Ideal S800000x64 .f32 := addf s1 s10
  have v33 : FVec Ideal S800000x64 .f32 := select s4 s6 s11
  mulf v28 v33

/-! ## The concatenation at an index -/

/-- Column `k < 64` of the concatenated row is the target's feature `k`. -/
theorem cat_left (xd xs : FVec Ideal S800000x64 .f32) (e : FVec Ideal S800000x16 .f32) (r : Fin 800000) (k : Fin 64) :
    concatenate S800000x144 1 [⟨S800000x64, xd⟩, ⟨S800000x64, xs⟩, ⟨S800000x16, e⟩]
        concatenates_S800000x64_S800000x64_S800000x16_S800000x144_d1 (ix2 r (⟨k.val, by omega⟩ : Fin 144))
      = xd (ix2 r k) := by
  refine concatenate_apply_piece (1 : Fin S800000x144.rank) _ _ (ix2 r (⟨k.val, by omega⟩ : Fin 144)) 0 (by show (0 : ℕ) < 3; omega)
    S800000x64 xd rfl rfl 0 rfl (ix2 r k) (fun b hb => ?_) ?_
  · match b with
    | ⟨0, _⟩ => rfl
    | ⟨1, _⟩ => exact absurd rfl hb
  · show 0 + k.val = k.val
    omega

/-- Column `64 + k`, `k < 64`, of the concatenated row is the source's feature `k`. -/
theorem cat_mid (xd xs : FVec Ideal S800000x64 .f32) (e : FVec Ideal S800000x16 .f32) (r : Fin 800000) (k : Fin 64) :
    concatenate S800000x144 1 [⟨S800000x64, xd⟩, ⟨S800000x64, xs⟩, ⟨S800000x16, e⟩]
        concatenates_S800000x64_S800000x64_S800000x16_S800000x144_d1 (ix2 r (⟨64 + k.val, by omega⟩ : Fin 144))
      = xs (ix2 r k) := by
  refine concatenate_apply_piece (1 : Fin S800000x144.rank) _ _ (ix2 r (⟨64 + k.val, by omega⟩ : Fin 144)) 1 (by show (1 : ℕ) < 3; omega)
    S800000x64 xs rfl rfl 64 rfl (ix2 r k) (fun b hb => ?_) ?_
  · match b with
    | ⟨0, _⟩ => rfl
    | ⟨1, _⟩ => exact absurd rfl hb
  · rfl

/-- Column `128 + k`, `k < 16`, of the concatenated row is the edge's attribute `k`. -/
theorem cat_right (xd xs : FVec Ideal S800000x64 .f32) (e : FVec Ideal S800000x16 .f32) (r : Fin 800000) (k : Fin 16) :
    concatenate S800000x144 1 [⟨S800000x64, xd⟩, ⟨S800000x64, xs⟩, ⟨S800000x16, e⟩]
        concatenates_S800000x64_S800000x64_S800000x16_S800000x144_d1 (ix2 r (⟨128 + k.val, by omega⟩ : Fin 144))
      = e (ix2 r k) := by
  refine concatenate_apply_piece (1 : Fin S800000x144.rank) _ _ (ix2 r (⟨128 + k.val, by omega⟩ : Fin 144)) 2 (by show (2 : ℕ) < 3; omega)
    S800000x16 e rfl rfl 128 rfl (ix2 r k) (fun b hb => ?_) ?_
  · match b with
    | ⟨0, _⟩ => rfl
    | ⟨1, _⟩ => exact absurd rfl hb
  · rfl

/-! ## A gate's pre-activation at an index -/

/-- The contraction of a 144-column array against a weight matrix, plus the bias broadcast over the rows, at
    `(r, c)`: the sum over the 144 columns of row `r` times column `c` of the matrix, plus the bias at `c`. -/
theorem gate_apply (z : FVec Ideal S800000x144 .f32) (W : FVec Ideal S144x64 .f32) (b : FVec Ideal S64 .f32)
    (r : Fin 800000) (c : Fin 64) :
    addf (Host.dotGeneral (F := Ideal) dot_S800000x144_S144x64_S800000x64_1_0_0_1_n_n none z W)
        (broadcastInDim S800000x64 ![0, 1] bcast_S1x64_S800000x64_0_1 (broadcastInDim S1x64 ![1] bcast_S64_S1x64_1 b)) (ix2 r c)
      = (∑ q : Fin 144, z (ix2 r q) * W (ix2 q c)) + b (ix1 c) := by
  rw [addf_apply]
  refine congrArg₂ (· + ·) ?_ ?_
  · exact Cert.LibDense.dotGeneral_apply dot_S800000x144_S144x64_S800000x64_1_0_0_1_n_n rfl rfl (fun _ _ => rfl) (fun _ _ => rfl)
      (fun _ _ => rfl) (fun _ _ => rfl) none .single z W r c
  · rw [Cert.LibLayout.broadcastInDim_1b_ab_apply, Cert.LibLayout.broadcastInDim_a_1a_apply]

/-! ## The two activations at an index -/

/-- `1 / (1 + exp (-g))` with both ones the broadcast constant `1.0`, at an index: the logistic of the entry. -/
theorem logistic_apply (g : FVec Ideal S800000x64 .f32) (j : S800000x64.Idx) :
    Host.divf (broadcastInDim S800000x64 ![] bcast_S_S800000x64 (constant (F := Ideal) S_ .f32 0x3F800000#32))
        (addf (broadcastInDim S800000x64 ![] bcast_S_S800000x64 (constant (F := Ideal) S_ .f32 0x3F800000#32))
          (Host.exp (Host.negf g))) j
      = Ideal.logistic (g j) := by
  show Ideal.div (Ideal.ofBits .f32 0x3F800000#32) (Ideal.ofBits .f32 0x3F800000#32 + Ideal.exp (-(g j))) = _
  rw [Ideal.ofBits_one_f32]
  rfl

/-- The outlined softplus at an index.  With `d = g - 0`, the comparison "`d` differs from `d`" is false on the
    extended reals, so the select takes `max g 0 + log1p (exp (-|d|))`; and `d` is `g`. -/
theorem softplus_apply (g : FVec Ideal S800000x64 .f32) (j : S800000x64.Idx) :
    select
        (cmpf .une (subf g (broadcastInDim S800000x64 ![] bcast_S_S800000x64 (constant (F := Ideal) S_ .f32 0x00000000#32)))
          (subf g (broadcastInDim S800000x64 ![] bcast_S_S800000x64 (constant (F := Ideal) S_ .f32 0x00000000#32))))
        (addf g (broadcastInDim S800000x64 ![] bcast_S_S800000x64 (constant (F := Ideal) S_ .f32 0x00000000#32)))
        (addf (maximumf g (broadcastInDim S800000x64 ![] bcast_S_S800000x64 (constant (F := Ideal) S_ .f32 0x00000000#32)))
          (Host.log1p (Host.exp (Host.negf (Host.absf
            (subf g (broadcastInDim S800000x64 ![] bcast_S_S800000x64 (constant (F := Ideal) S_ .f32 0x00000000#32)))))))) j
      = Cert.Spec.softplus (g j) := by
  show Scalar.select (Ideal.cmp .une (g j - Ideal.ofBits .f32 0x00000000#32) (g j - Ideal.ofBits .f32 0x00000000#32))
      (g j + Ideal.ofBits .f32 0x00000000#32)
      (max (g j) (Ideal.ofBits .f32 0x00000000#32)
        + Ideal.log1p (Ideal.exp (-(max (g j - Ideal.ofBits .f32 0x00000000#32) (-(g j - Ideal.ofBits .f32 0x00000000#32)))))) = _
  have hne : Ideal.cmp .une (g j - Ideal.ofBits .f32 0x00000000#32) (g j - Ideal.ofBits .f32 0x00000000#32) = 0#1 := by
    simp [Ideal.cmp]
  rw [hne, select_zero, Ideal.ofBits_zero_f32, sub_zero]
  rfl

/-! ## The message at an index -/

/-- The reference's message at edge `r`, feature `c`, is the specification's. -/
theorem refMsg_apply (xd xs : FVec Ideal S800000x64 .f32) (e : FVec Ideal S800000x16 .f32) (Wf : FVec Ideal S144x64 .f32)
    (bf : FVec Ideal S64 .f32) (Ws : FVec Ideal S144x64 .f32) (bs : FVec Ideal S64 .f32) (r : Fin 800000) (c : Fin 64) :
    refMsg xd xs e Wf bf Ws bs (ix2 r c)
      = Cert.Spec.msg (fun k => xd (ix2 r k)) (fun k => xs (ix2 r k)) (fun k => e (ix2 r k))
          (fun k => Wf (ix2 k c)) (bf (ix1 c)) (fun k => Ws (ix2 k c)) (bs (ix1 c)) := by
  -- a gate's contraction over the concatenated row, band by band
  have hgate : ∀ (W : FVec Ideal S144x64 .f32) (b : FVec Ideal S64 .f32),
      (∑ q : Fin 144, concatenate S800000x144 1 [⟨S800000x64, xd⟩, ⟨S800000x64, xs⟩, ⟨S800000x16, e⟩]
          concatenates_S800000x64_S800000x64_S800000x16_S800000x144_d1 (ix2 r q) * W (ix2 q c)) + b (ix1 c)
        = Cert.Spec.gate (fun k => xd (ix2 r k)) (fun k => xs (ix2 r k)) (fun k => e (ix2 r k)) (fun k => W (ix2 k c)) (b (ix1 c)) :=
    fun W b => Cert.Spec.sum_add_eq_gate _ _ _ (fun k => W (ix2 k c)) (b (ix1 c))
      (fun q => concatenate S800000x144 1 [⟨S800000x64, xd⟩, ⟨S800000x64, xs⟩, ⟨S800000x16, e⟩]
          concatenates_S800000x64_S800000x64_S800000x16_S800000x144_d1 (ix2 r q))
      (fun k => cat_left xd xs e r k) (fun k => cat_mid xd xs e r k) (fun k => cat_right xd xs e r k)
  unfold refMsg Cert.Spec.msg
  dsimp only
  rw [mulf_apply, logistic_apply, softplus_apply, gate_apply, gate_apply, hgate, hgate]

end Cert.ReferenceIdeal.RefMsg

end
-- ==== Proof.RefMsgAfter.lean ====
/-
  The message stage's list of host operations computes `refMsg`.

  After the operations of one layer's message stage, run from any contents of the buffers, the message
  buffer holds the composition `refMsg` of the contents of the stage's seven operand buffers: the two
  gathered feature arrays, the edge attributes, and the two gates' weights and biases.  Each operation's
  result is its function of its operands' contents, and the operations are `refMsg`'s lines in order.
-/
import proofs.«163275_j5145370821233_2_alg».proof.Proof.RefOps
import proofs.«163275_j5145370821233_2_alg».proof.Proof.RefMsg
import Idealize.ShloMosaic.Lib.StableHlo.Run

noncomputable section

namespace Cert.ReferenceIdeal.RefMsg

open Cert.ReferenceIdeal Cert.ReferenceIdeal.Gen Idealize.ShloMosaic Idealize.ShloMosaic.TcCoe Idealize.SL.Sem Idealize.ShloMosaic.StableHlo

/-- The first layer's messages: after its operations the buffer of %34 holds `refMsg` of the contents of %10, %17,
    the edge attributes and the first layer's gate parameters. -/
theorem after_msg0 (V : Valuation τ sig (Elt Ideal)) :
    StableHlo.after (RefRun.opsMsg0 (F := Ideal)) V (Proc.devRef .tc main_v34)
      = refMsg (V (Proc.devRef .tc main_v10)) (V (Proc.devRef .tc main_v17)) (V (Proc.devRef .tc main_arg2))
          (V (Proc.devRef .tc main_arg4)) (V (Proc.devRef .tc main_arg5)) (V (Proc.devRef .tc main_arg6)) (V (Proc.devRef .tc main_arg7)) := by
  after_results_simp
  rfl

/-- The second layer's messages: after its operations the buffer of %94 holds `refMsg` of the contents of %70, %77,
    the edge attributes and the second layer's gate parameters. -/
theorem after_msg1 (V : Valuation τ sig (Elt Ideal)) :
    StableHlo.after (RefRun.opsMsg1 (F := Ideal)) V (Proc.devRef .tc main_v94)
      = refMsg (V (Proc.devRef .tc main_v70)) (V (Proc.devRef .tc main_v77)) (V (Proc.devRef .tc main_arg2))
          (V (Proc.devRef .tc main_arg10)) (V (Proc.devRef .tc main_arg11)) (V (Proc.devRef .tc main_arg12)) (V (Proc.devRef .tc main_arg13)) := by
  after_results_simp
  rfl

end Cert.ReferenceIdeal.RefMsg

end
-- ==== Proof.Bridge.lean ====
/-
  The two programs compute the same result.

  Read at the exact extended reals, from memories that agree on the twenty arguments.  The reference is a
  straight line of host operations; the kernel program is the same line with each layer's message
  computation replaced by a launch of the message kernel.  Boundary by boundary the buffers the next stretch
  reads hold the same contents in the two programs: the gathers before the first layer; the first layer's
  messages (the reference's concatenate–contract–logistic–softplus chain and the launch's output array are
  both the message array of the same operands); the aggregation, normalisation and second gathers; the second
  layer's messages; and the pooling and read-out, whose last buffer is the result.
-/
import proofs.«163275_j5145370821233_2_alg».proof.Proof.Stages
import proofs.«163275_j5145370821233_2_alg».proof.Proof.KKeep
import proofs.«163275_j5145370821233_2_alg».proof.Proof.RKeep
import proofs.«163275_j5145370821233_2_alg».proof.Proof.KRegion0
import proofs.«163275_j5145370821233_2_alg».proof.Proof.KRegion1
import proofs.«163275_j5145370821233_2_alg».proof.Proof.RefMsgAfter
import proofs.«163275_j5145370821233_2_alg».proof.Proof.MsgArr

set_option maxRecDepth 16384

noncomputable section

namespace Cert.Bridge

open Idealize.ShloMosaic Idealize.ShloMosaic.TcCoe Idealize.ShloMosaic.StableHlo Idealize.ShloMosaic.ValueIdx
open Idealize.SL Idealize.SL.Sem
open Cert.KernelIdeal.Gen Cert.KernelIdeal.KKeep

/-- The reference's message chain is the message array of its operands, entry by entry. -/
theorem refMsg_eq (xd xs : FVec Ideal Cert.ReferenceIdeal.S800000x64 .f32) (e : FVec Ideal Cert.ReferenceIdeal.S800000x16 .f32)
    (Wf : FVec Ideal Cert.ReferenceIdeal.S144x64 .f32) (bf : FVec Ideal Cert.ReferenceIdeal.S64 .f32) (Ws : FVec Ideal Cert.ReferenceIdeal.S144x64 .f32) (bs : FVec Ideal Cert.ReferenceIdeal.S64 .f32) :
    Cert.ReferenceIdeal.RefMsg.refMsg xd xs e Wf bf Ws bs
      = Cert.Spec.msgArr xd xs e Wf (fun c => bf (ix1 c)) Ws (fun c => bs (ix1 c)) := by
  funext i
  obtain ⟨r, c, rfl⟩ : ∃ (r : Fin 800000) (c : Fin 64), i = ix2 r c := ⟨i 0, i 1, eq_ix2 i⟩
  rw [Cert.ReferenceIdeal.RefMsg.refMsg_apply, Cert.Spec.msgArr_apply]

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- Layer one: if the two programs enter the message computation with the same gathered features, edge
    attributes, weights and biases, the reference's message buffer and the launch's output array hold the same
    array: both are the message array of these operands. -/
theorem region0 (R : Valuation Cert.ReferenceIdeal.τ Cert.ReferenceIdeal.sig (Elt Ideal))
    (hxd : R (Proc.devRef .tc Cert.ReferenceIdeal.main_v10) = W1 m ρ c (Proc.devRef .tc Cert.KernelIdeal.main_v10))
    (hxs : R (Proc.devRef .tc Cert.ReferenceIdeal.main_v17) = W1 m ρ c (Proc.devRef .tc Cert.KernelIdeal.main_v17))
    (he : R (Proc.devRef .tc Cert.ReferenceIdeal.main_arg2) = W1 m ρ c (Proc.devRef .tc Cert.KernelIdeal.main_arg2))
    (hWf : R (Proc.devRef .tc Cert.ReferenceIdeal.main_arg4) = W1 m ρ c (Proc.devRef .tc Cert.KernelIdeal.main_arg4))
    (hWs : R (Proc.devRef .tc Cert.ReferenceIdeal.main_arg6) = W1 m ρ c (Proc.devRef .tc Cert.KernelIdeal.main_arg6))
    (hbf : R (Proc.devRef .tc Cert.ReferenceIdeal.main_arg5) = W0 m ρ c (Proc.devRef .tc Cert.KernelIdeal.main_arg5))
    (hbs : R (Proc.devRef .tc Cert.ReferenceIdeal.main_arg7) = W0 m ρ c (Proc.devRef .tc Cert.KernelIdeal.main_arg7)) :
    after (Cert.ReferenceIdeal.RefRun.opsMsg0 (F := Ideal)) R (Proc.devRef .tc Cert.ReferenceIdeal.main_v34) = W2 m ρ c (Proc.devRef .tc Cert.KernelIdeal.main_v20) := by
  rw [Cert.ReferenceIdeal.RefMsg.after_msg0, refMsg_eq, hxd, hxs, he, hWf, hWs, hbf, hbs]
  refine Eq.trans ?_ ((W2_arr m ρ c 7).trans (Cert.KernelIdeal.KRegion.value0 (V1 m ρ) c)).symm
  unfold Cert.KernelIdeal.KRegion.M0
  have b1 : (fun q : Fin 64 => (V1 m ρ c Cert.KernelIdeal.main_v18 : Cert.KernelIdeal.S1x64.Idx → EReal) (ix2 0 q))
      = fun q => (W0 m ρ c (Proc.devRef .tc Cert.KernelIdeal.main_arg5) : Cert.KernelIdeal.S64.Idx → EReal) (ix1 q) :=
    funext fun q => Cert.Stages.pre_bf (W0 m ρ c) q
  have b2 : (fun q : Fin 64 => (V1 m ρ c Cert.KernelIdeal.main_v19 : Cert.KernelIdeal.S1x64.Idx → EReal) (ix2 0 q))
      = fun q => (W0 m ρ c (Proc.devRef .tc Cert.KernelIdeal.main_arg7) : Cert.KernelIdeal.S64.Idx → EReal) (ix1 q) :=
    funext fun q => Cert.Stages.pre_bs (W0 m ρ c) q
  rw [b1, b2]

/-- Layer two: if the two programs enter the message computation with the same gathered features, edge
    attributes, weights and biases, the reference's message buffer and the launch's output array hold the same
    array: both are the message array of these operands. -/
theorem region1 (R : Valuation Cert.ReferenceIdeal.τ Cert.ReferenceIdeal.sig (Elt Ideal))
    (hxd : R (Proc.devRef .tc Cert.ReferenceIdeal.main_v70) = W3 m ρ c (Proc.devRef .tc Cert.KernelIdeal.main_v56))
    (hxs : R (Proc.devRef .tc Cert.ReferenceIdeal.main_v77) = W3 m ρ c (Proc.devRef .tc Cert.KernelIdeal.main_v63))
    (he : R (Proc.devRef .tc Cert.ReferenceIdeal.main_arg2) = W3 m ρ c (Proc.devRef .tc Cert.KernelIdeal.main_arg2))
    (hWf : R (Proc.devRef .tc Cert.ReferenceIdeal.main_arg10) = W3 m ρ c (Proc.devRef .tc Cert.KernelIdeal.main_arg10))
    (hWs : R (Proc.devRef .tc Cert.ReferenceIdeal.main_arg12) = W3 m ρ c (Proc.devRef .tc Cert.KernelIdeal.main_arg12))
    (hbf : R (Proc.devRef .tc Cert.ReferenceIdeal.main_arg11) = W2 m ρ c (Proc.devRef .tc Cert.KernelIdeal.main_arg11))
    (hbs : R (Proc.devRef .tc Cert.ReferenceIdeal.main_arg13) = W2 m ρ c (Proc.devRef .tc Cert.KernelIdeal.main_arg13)) :
    after (Cert.ReferenceIdeal.RefRun.opsMsg1 (F := Ideal)) R (Proc.devRef .tc Cert.ReferenceIdeal.main_v94) = W4 m ρ c (Proc.devRef .tc Cert.KernelIdeal.main_v66) := by
  rw [Cert.ReferenceIdeal.RefMsg.after_msg1, refMsg_eq, hxd, hxs, he, hWf, hWs, hbf, hbs]
  refine Eq.trans ?_ ((W4_arr m ρ c 7).trans (Cert.KernelIdeal.KRegion.value1 (V3 m ρ) c)).symm
  unfold Cert.KernelIdeal.KRegion.M1
  have b1 : (fun q : Fin 64 => (V3 m ρ c Cert.KernelIdeal.main_v64 : Cert.KernelIdeal.S1x64.Idx → EReal) (ix2 0 q))
      = fun q => (W2 m ρ c (Proc.devRef .tc Cert.KernelIdeal.main_arg11) : Cert.KernelIdeal.S64.Idx → EReal) (ix1 q) :=
    funext fun q => Cert.Stages.mid_bf (W2 m ρ c) q
  have b2 : (fun q : Fin 64 => (V3 m ρ c Cert.KernelIdeal.main_v65 : Cert.KernelIdeal.S1x64.Idx → EReal) (ix2 0 q))
      = fun q => (W2 m ρ c (Proc.devRef .tc Cert.KernelIdeal.main_arg13) : Cert.KernelIdeal.S64.Idx → EReal) (ix1 q) :=
    funext fun q => Cert.Stages.mid_bs (W2 m ρ c) q
  rw [b1, b2]

/-- From memories that agree on the twenty arguments, the reference's result buffer after its five stretches and the
    kernel program's result buffer at its last boundary hold the same array. -/
theorem value_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    after (Cert.ReferenceIdeal.RefRun.opsTail (F := Ideal)) (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_v144)
      = W7 m ρ c (Proc.devRef .tc Cert.KernelIdeal.main_v116) := by
  -- the arguments at launch
  have a0 : (launchContents m' c) (Proc.devRef .tc Cert.ReferenceIdeal.main_arg0) = W0 m ρ c (Proc.devRef .tc Cert.KernelIdeal.main_arg0) := h0
  have a1 : (launchContents m' c) (Proc.devRef .tc Cert.ReferenceIdeal.main_arg1) = W0 m ρ c (Proc.devRef .tc Cert.KernelIdeal.main_arg1) := h1
  have a2 : (launchContents m' c) (Proc.devRef .tc Cert.ReferenceIdeal.main_arg2) = W0 m ρ c (Proc.devRef .tc Cert.KernelIdeal.main_arg2) := h2
  have a3 : (launchContents m' c) (Proc.devRef .tc Cert.ReferenceIdeal.main_arg3) = W0 m ρ c (Proc.devRef .tc Cert.KernelIdeal.main_arg3) := h3
  have a4 : (launchContents m' c) (Proc.devRef .tc Cert.ReferenceIdeal.main_arg4) = W0 m ρ c (Proc.devRef .tc Cert.KernelIdeal.main_arg4) := h4
  have a5 : (launchContents m' c) (Proc.devRef .tc Cert.ReferenceIdeal.main_arg5) = W0 m ρ c (Proc.devRef .tc Cert.KernelIdeal.main_arg5) := h5
  have a6 : (launchContents m' c) (Proc.devRef .tc Cert.ReferenceIdeal.main_arg6) = W0 m ρ c (Proc.devRef .tc Cert.KernelIdeal.main_arg6) := h6
  have a7 : (launchContents m' c) (Proc.devRef .tc Cert.ReferenceIdeal.main_arg7) = W0 m ρ c (Proc.devRef .tc Cert.KernelIdeal.main_arg7) := h7
  have a8 : (launchContents m' c) (Proc.devRef .tc Cert.ReferenceIdeal.main_arg8) = W0 m ρ c (Proc.devRef .tc Cert.KernelIdeal.main_arg8) := h8
  have a9 : (launchContents m' c) (Proc.devRef .tc Cert.ReferenceIdeal.main_arg9) = W0 m ρ c (Proc.devRef .tc Cert.KernelIdeal.main_arg9) := h9
  have a10 : (launchContents m' c) (Proc.devRef .tc Cert.ReferenceIdeal.main_arg10) = W0 m ρ c (Proc.devRef .tc Cert.KernelIdeal.main_arg10) := h10
  have a11 : (launchContents m' c) (Proc.devRef .tc Cert.ReferenceIdeal.main_arg11) = W0 m ρ c (Proc.devRef .tc Cert.KernelIdeal.main_arg11) := h11
  have a12 : (launchContents m' c) (Proc.devRef .tc Cert.ReferenceIdeal.main_arg12) = W0 m ρ c (Proc.devRef .tc Cert.KernelIdeal.main_arg12) := h12
  have a13 : (launchContents m' c) (Proc.devRef .tc Cert.ReferenceIdeal.main_arg13) = W0 m ρ c (Proc.devRef .tc Cert.KernelIdeal.main_arg13) := h13
  have a14 : (launchContents m' c) (Proc.devRef .tc Cert.ReferenceIdeal.main_arg14) = W0 m ρ c (Proc.devRef .tc Cert.KernelIdeal.main_arg14) := h14
  have a15 : (launchContents m' c) (Proc.devRef .tc Cert.ReferenceIdeal.main_arg15) = W0 m ρ c (Proc.devRef .tc Cert.KernelIdeal.main_arg15) := h15
  have a16 : (launchContents m' c) (Proc.devRef .tc Cert.ReferenceIdeal.main_arg16) = W0 m ρ c (Proc.devRef .tc Cert.KernelIdeal.main_arg16) := h16
  have a17 : (launchContents m' c) (Proc.devRef .tc Cert.ReferenceIdeal.main_arg17) = W0 m ρ c (Proc.devRef .tc Cert.KernelIdeal.main_arg17) := h17
  have a18 : (launchContents m' c) (Proc.devRef .tc Cert.ReferenceIdeal.main_arg18) = W0 m ρ c (Proc.devRef .tc Cert.KernelIdeal.main_arg18) := h18
  have a19 : (launchContents m' c) (Proc.devRef .tc Cert.ReferenceIdeal.main_arg19) = W0 m ρ c (Proc.devRef .tc Cert.KernelIdeal.main_arg19) := h19
  -- before the first launch
  have xd1 : (after (Cert.ReferenceIdeal.RefRun.opsPre (F := Ideal)) (launchContents m' c)) (Proc.devRef .tc Cert.ReferenceIdeal.main_v10) = W1 m ρ c (Proc.devRef .tc Cert.KernelIdeal.main_v10) := Cert.Stages.pre_xd (W0 m ρ c) (launchContents m' c) a0 a1
  have xs1 : (after (Cert.ReferenceIdeal.RefRun.opsPre (F := Ideal)) (launchContents m' c)) (Proc.devRef .tc Cert.ReferenceIdeal.main_v17) = W1 m ρ c (Proc.devRef .tc Cert.KernelIdeal.main_v17) := Cert.Stages.pre_xs (W0 m ρ c) (launchContents m' c) a0 a1
  have src1 : (after (Cert.ReferenceIdeal.RefRun.opsPre (F := Ideal)) (launchContents m' c)) (Proc.devRef .tc Cert.ReferenceIdeal.main_v1) = W1 m ρ c (Proc.devRef .tc Cert.KernelIdeal.main_v1) := Cert.Stages.pre_src (W0 m ρ c) (launchContents m' c) a1
  have dst1 : (after (Cert.ReferenceIdeal.RefRun.opsPre (F := Ideal)) (launchContents m' c)) (Proc.devRef .tc Cert.ReferenceIdeal.main_v3) = W1 m ρ c (Proc.devRef .tc Cert.KernelIdeal.main_v3) := Cert.Stages.pre_dst (W0 m ρ c) (launchContents m' c) a1
  -- the first layer's messages
  have msg2 : (after (Cert.ReferenceIdeal.RefRun.opsMsg0 (F := Ideal)) (after (Cert.ReferenceIdeal.RefRun.opsPre (F := Ideal)) (launchContents m' c))) (Proc.devRef .tc Cert.ReferenceIdeal.main_v34) = W2 m ρ c (Proc.devRef .tc Cert.KernelIdeal.main_v20) :=
    region0 m ρ c (after (Cert.ReferenceIdeal.RefRun.opsPre (F := Ideal)) (launchContents m' c)) xd1 xs1
      ((Cert.ReferenceIdeal.RKeep.pre_arg2 (launchContents m' c)).trans (a2.trans (W1_arg2 m ρ c).symm))
      ((Cert.ReferenceIdeal.RKeep.pre_arg4 (launchContents m' c)).trans (a4.trans (W1_arg4 m ρ c).symm))
      ((Cert.ReferenceIdeal.RKeep.pre_arg6 (launchContents m' c)).trans (a6.trans (W1_arg6 m ρ c).symm))
      ((Cert.ReferenceIdeal.RKeep.pre_arg5 (launchContents m' c)).trans a5)
      ((Cert.ReferenceIdeal.RKeep.pre_arg7 (launchContents m' c)).trans a7)
  -- between the launches
  have x2 : (after (Cert.ReferenceIdeal.RefRun.opsMsg0 (F := Ideal)) (after (Cert.ReferenceIdeal.RefRun.opsPre (F := Ideal)) (launchContents m' c))) (Proc.devRef .tc Cert.ReferenceIdeal.main_arg0) = W2 m ρ c (Proc.devRef .tc Cert.KernelIdeal.main_arg0) := ((Cert.ReferenceIdeal.RKeep.msg0_arg0 (after (Cert.ReferenceIdeal.RefRun.opsPre (F := Ideal)) (launchContents m' c))).trans (Cert.ReferenceIdeal.RKeep.pre_arg0 (launchContents m' c))).trans (a0.trans (W2_arg0 m ρ c).symm)
  have g2 : (after (Cert.ReferenceIdeal.RefRun.opsMsg0 (F := Ideal)) (after (Cert.ReferenceIdeal.RefRun.opsPre (F := Ideal)) (launchContents m' c))) (Proc.devRef .tc Cert.ReferenceIdeal.main_arg8) = W2 m ρ c (Proc.devRef .tc Cert.KernelIdeal.main_arg8) := ((Cert.ReferenceIdeal.RKeep.msg0_arg8 (after (Cert.ReferenceIdeal.RefRun.opsPre (F := Ideal)) (launchContents m' c))).trans (Cert.ReferenceIdeal.RKeep.pre_arg8 (launchContents m' c))).trans (a8.trans (W2_arg8 m ρ c).symm)
  have b2 : (after (Cert.ReferenceIdeal.RefRun.opsMsg0 (F := Ideal)) (after (Cert.ReferenceIdeal.RefRun.opsPre (F := Ideal)) (launchContents m' c))) (Proc.devRef .tc Cert.ReferenceIdeal.main_arg9) = W2 m ρ c (Proc.devRef .tc Cert.KernelIdeal.main_arg9) := ((Cert.ReferenceIdeal.RKeep.msg0_arg9 (after (Cert.ReferenceIdeal.RefRun.opsPre (F := Ideal)) (launchContents m' c))).trans (Cert.ReferenceIdeal.RKeep.pre_arg9 (launchContents m' c))).trans (a9.trans (W2_arg9 m ρ c).symm)
  have dst2 : (after (Cert.ReferenceIdeal.RefRun.opsMsg0 (F := Ideal)) (after (Cert.ReferenceIdeal.RefRun.opsPre (F := Ideal)) (launchContents m' c))) (Proc.devRef .tc Cert.ReferenceIdeal.main_v3) = W2 m ρ c (Proc.devRef .tc Cert.KernelIdeal.main_v3) := (Cert.ReferenceIdeal.RKeep.msg0_v3 (after (Cert.ReferenceIdeal.RefRun.opsPre (F := Ideal)) (launchContents m' c))).trans (dst1.trans (W2_v3 m ρ c).symm)
  have src2 : (after (Cert.ReferenceIdeal.RefRun.opsMsg0 (F := Ideal)) (after (Cert.ReferenceIdeal.RefRun.opsPre (F := Ideal)) (launchContents m' c))) (Proc.devRef .tc Cert.ReferenceIdeal.main_v1) = W2 m ρ c (Proc.devRef .tc Cert.KernelIdeal.main_v1) := (Cert.ReferenceIdeal.RKeep.msg0_v1 (after (Cert.ReferenceIdeal.RefRun.opsPre (F := Ideal)) (launchContents m' c))).trans (src1.trans (W2_v1 m ρ c).symm)
  have cur3 : (after (Cert.ReferenceIdeal.RefRun.opsMid (F := Ideal)) (after (Cert.ReferenceIdeal.RefRun.opsMsg0 (F := Ideal)) (after (Cert.ReferenceIdeal.RefRun.opsPre (F := Ideal)) (launchContents m' c)))) (Proc.devRef .tc Cert.ReferenceIdeal.main_v63) = W3 m ρ c (Proc.devRef .tc Cert.KernelIdeal.main_v49) := Cert.Stages.mid_cur (W2 m ρ c) (after (Cert.ReferenceIdeal.RefRun.opsMsg0 (F := Ideal)) (after (Cert.ReferenceIdeal.RefRun.opsPre (F := Ideal)) (launchContents m' c))) x2 dst2 msg2 g2 b2
  have xd3 : (after (Cert.ReferenceIdeal.RefRun.opsMid (F := Ideal)) (after (Cert.ReferenceIdeal.RefRun.opsMsg0 (F := Ideal)) (after (Cert.ReferenceIdeal.RefRun.opsPre (F := Ideal)) (launchContents m' c)))) (Proc.devRef .tc Cert.ReferenceIdeal.main_v70) = W3 m ρ c (Proc.devRef .tc Cert.KernelIdeal.main_v56) := Cert.Stages.mid_xd (W2 m ρ c) (after (Cert.ReferenceIdeal.RefRun.opsMsg0 (F := Ideal)) (after (Cert.ReferenceIdeal.RefRun.opsPre (F := Ideal)) (launchContents m' c))) x2 dst2 msg2 g2 b2
  have xs3 : (after (Cert.ReferenceIdeal.RefRun.opsMid (F := Ideal)) (after (Cert.ReferenceIdeal.RefRun.opsMsg0 (F := Ideal)) (after (Cert.ReferenceIdeal.RefRun.opsPre (F := Ideal)) (launchContents m' c)))) (Proc.devRef .tc Cert.ReferenceIdeal.main_v77) = W3 m ρ c (Proc.devRef .tc Cert.KernelIdeal.main_v63) := Cert.Stages.mid_xs (W2 m ρ c) (after (Cert.ReferenceIdeal.RefRun.opsMsg0 (F := Ideal)) (after (Cert.ReferenceIdeal.RefRun.opsPre (F := Ideal)) (launchContents m' c))) x2 dst2 src2 msg2 g2 b2
  -- the second layer's messages
  have msg4 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_v94) = W4 m ρ c (Proc.devRef .tc Cert.KernelIdeal.main_v66) :=
    region1 m ρ c (after (Cert.ReferenceIdeal.RefRun.opsMid (F := Ideal)) (after (Cert.ReferenceIdeal.RefRun.opsMsg0 (F := Ideal)) (after (Cert.ReferenceIdeal.RefRun.opsPre (F := Ideal)) (launchContents m' c)))) xd3 xs3
      ((((Cert.ReferenceIdeal.RKeep.mid_arg2 (after (Cert.ReferenceIdeal.RefRun.opsMsg0 (F := Ideal)) (after (Cert.ReferenceIdeal.RefRun.opsPre (F := Ideal)) (launchContents m' c)))).trans (Cert.ReferenceIdeal.RKeep.msg0_arg2 (after (Cert.ReferenceIdeal.RefRun.opsPre (F := Ideal)) (launchContents m' c)))).trans (Cert.ReferenceIdeal.RKeep.pre_arg2 (launchContents m' c))).trans (a2.trans (W3_arg2 m ρ c).symm))
      ((((Cert.ReferenceIdeal.RKeep.mid_arg10 (after (Cert.ReferenceIdeal.RefRun.opsMsg0 (F := Ideal)) (after (Cert.ReferenceIdeal.RefRun.opsPre (F := Ideal)) (launchContents m' c)))).trans (Cert.ReferenceIdeal.RKeep.msg0_arg10 (after (Cert.ReferenceIdeal.RefRun.opsPre (F := Ideal)) (launchContents m' c)))).trans (Cert.ReferenceIdeal.RKeep.pre_arg10 (launchContents m' c))).trans (a10.trans (W3_arg10 m ρ c).symm))
      ((((Cert.ReferenceIdeal.RKeep.mid_arg12 (after (Cert.ReferenceIdeal.RefRun.opsMsg0 (F := Ideal)) (after (Cert.ReferenceIdeal.RefRun.opsPre (F := Ideal)) (launchContents m' c)))).trans (Cert.ReferenceIdeal.RKeep.msg0_arg12 (after (Cert.ReferenceIdeal.RefRun.opsPre (F := Ideal)) (launchContents m' c)))).trans (Cert.ReferenceIdeal.RKeep.pre_arg12 (launchContents m' c))).trans (a12.trans (W3_arg12 m ρ c).symm))
      ((((Cert.ReferenceIdeal.RKeep.mid_arg11 (after (Cert.ReferenceIdeal.RefRun.opsMsg0 (F := Ideal)) (after (Cert.ReferenceIdeal.RefRun.opsPre (F := Ideal)) (launchContents m' c)))).trans (Cert.ReferenceIdeal.RKeep.msg0_arg11 (after (Cert.ReferenceIdeal.RefRun.opsPre (F := Ideal)) (launchContents m' c)))).trans (Cert.ReferenceIdeal.RKeep.pre_arg11 (launchContents m' c))).trans (a11.trans (W2_arg11 m ρ c).symm))
      ((((Cert.ReferenceIdeal.RKeep.mid_arg13 (after (Cert.ReferenceIdeal.RefRun.opsMsg0 (F := Ideal)) (after (Cert.ReferenceIdeal.RefRun.opsPre (F := Ideal)) (launchContents m' c)))).trans (Cert.ReferenceIdeal.RKeep.msg0_arg13 (after (Cert.ReferenceIdeal.RefRun.opsPre (F := Ideal)) (launchContents m' c)))).trans (Cert.ReferenceIdeal.RKeep.pre_arg13 (launchContents m' c))).trans (a13.trans (W2_arg13 m ρ c).symm))
  -- after the second launch
  have cur4 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_v63) = W4 m ρ c (Proc.devRef .tc Cert.KernelIdeal.main_v49) := (Cert.ReferenceIdeal.RKeep.msg1_v63 (after (Cert.ReferenceIdeal.RefRun.opsMid (F := Ideal)) (after (Cert.ReferenceIdeal.RefRun.opsMsg0 (F := Ideal)) (after (Cert.ReferenceIdeal.RefRun.opsPre (F := Ideal)) (launchContents m' c))))).trans (cur3.trans (W4_v49 m ρ c).symm)
  have dst4 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_v3) = W4 m ρ c (Proc.devRef .tc Cert.KernelIdeal.main_v3) :=
    (Cert.ReferenceIdeal.RKeep.msg1_v3 (after (Cert.ReferenceIdeal.RefRun.opsMid (F := Ideal)) (after (Cert.ReferenceIdeal.RefRun.opsMsg0 (F := Ideal)) (after (Cert.ReferenceIdeal.RefRun.opsPre (F := Ideal)) (launchContents m' c))))).trans ((Cert.ReferenceIdeal.RKeep.mid_v3 (after (Cert.ReferenceIdeal.RefRun.opsMsg0 (F := Ideal)) (after (Cert.ReferenceIdeal.RefRun.opsPre (F := Ideal)) (launchContents m' c)))).trans ((Cert.ReferenceIdeal.RKeep.msg0_v3 (after (Cert.ReferenceIdeal.RefRun.opsPre (F := Ideal)) (launchContents m' c))).trans (dst1.trans (W4_v3 m ρ c).symm)))
  have t3 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_arg3) = W4 m ρ c (Proc.devRef .tc Cert.KernelIdeal.main_arg3) := ((((Cert.ReferenceIdeal.RKeep.msg1_arg3 (after (Cert.ReferenceIdeal.RefRun.opsMid (F := Ideal)) (after (Cert.ReferenceIdeal.RefRun.opsMsg0 (F := Ideal)) (after (Cert.ReferenceIdeal.RefRun.opsPre (F := Ideal)) (launchContents m' c))))).trans (Cert.ReferenceIdeal.RKeep.mid_arg3 (after (Cert.ReferenceIdeal.RefRun.opsMsg0 (F := Ideal)) (after (Cert.ReferenceIdeal.RefRun.opsPre (F := Ideal)) (launchContents m' c))))).trans (Cert.ReferenceIdeal.RKeep.msg0_arg3 (after (Cert.ReferenceIdeal.RefRun.opsPre (F := Ideal)) (launchContents m' c)))).trans (Cert.ReferenceIdeal.RKeep.pre_arg3 (launchContents m' c))).trans (a3.trans (W4_arg3 m ρ c).symm)
  have t14 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_arg14) = W4 m ρ c (Proc.devRef .tc Cert.KernelIdeal.main_arg14) := ((((Cert.ReferenceIdeal.RKeep.msg1_arg14 (after (Cert.ReferenceIdeal.RefRun.opsMid (F := Ideal)) (after (Cert.ReferenceIdeal.RefRun.opsMsg0 (F := Ideal)) (after (Cert.ReferenceIdeal.RefRun.opsPre (F := Ideal)) (launchContents m' c))))).trans (Cert.ReferenceIdeal.RKeep.mid_arg14 (after (Cert.ReferenceIdeal.RefRun.opsMsg0 (F := Ideal)) (after (Cert.ReferenceIdeal.RefRun.opsPre (F := Ideal)) (launchContents m' c))))).trans (Cert.ReferenceIdeal.RKeep.msg0_arg14 (after (Cert.ReferenceIdeal.RefRun.opsPre (F := Ideal)) (launchContents m' c)))).trans (Cert.ReferenceIdeal.RKeep.pre_arg14 (launchContents m' c))).trans (a14.trans (W4_arg14 m ρ c).symm)
  have t15 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_arg15) = W4 m ρ c (Proc.devRef .tc Cert.KernelIdeal.main_arg15) := ((((Cert.ReferenceIdeal.RKeep.msg1_arg15 (after (Cert.ReferenceIdeal.RefRun.opsMid (F := Ideal)) (after (Cert.ReferenceIdeal.RefRun.opsMsg0 (F := Ideal)) (after (Cert.ReferenceIdeal.RefRun.opsPre (F := Ideal)) (launchContents m' c))))).trans (Cert.ReferenceIdeal.RKeep.mid_arg15 (after (Cert.ReferenceIdeal.RefRun.opsMsg0 (F := Ideal)) (after (Cert.ReferenceIdeal.RefRun.opsPre (F := Ideal)) (launchContents m' c))))).trans (Cert.ReferenceIdeal.RKeep.msg0_arg15 (after (Cert.ReferenceIdeal.RefRun.opsPre (F := Ideal)) (launchContents m' c)))).trans (Cert.ReferenceIdeal.RKeep.pre_arg15 (launchContents m' c))).trans (a15.trans (W4_arg15 m ρ c).symm)
  have t16 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_arg16) = W4 m ρ c (Proc.devRef .tc Cert.KernelIdeal.main_arg16) := ((((Cert.ReferenceIdeal.RKeep.msg1_arg16 (after (Cert.ReferenceIdeal.RefRun.opsMid (F := Ideal)) (after (Cert.ReferenceIdeal.RefRun.opsMsg0 (F := Ideal)) (after (Cert.ReferenceIdeal.RefRun.opsPre (F := Ideal)) (launchContents m' c))))).trans (Cert.ReferenceIdeal.RKeep.mid_arg16 (after (Cert.ReferenceIdeal.RefRun.opsMsg0 (F := Ideal)) (after (Cert.ReferenceIdeal.RefRun.opsPre (F := Ideal)) (launchContents m' c))))).trans (Cert.ReferenceIdeal.RKeep.msg0_arg16 (after (Cert.ReferenceIdeal.RefRun.opsPre (F := Ideal)) (launchContents m' c)))).trans (Cert.ReferenceIdeal.RKeep.pre_arg16 (launchContents m' c))).trans (a16.trans (W4_arg16 m ρ c).symm)
  have t17 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_arg17) = W4 m ρ c (Proc.devRef .tc Cert.KernelIdeal.main_arg17) := ((((Cert.ReferenceIdeal.RKeep.msg1_arg17 (after (Cert.ReferenceIdeal.RefRun.opsMid (F := Ideal)) (after (Cert.ReferenceIdeal.RefRun.opsMsg0 (F := Ideal)) (after (Cert.ReferenceIdeal.RefRun.opsPre (F := Ideal)) (launchContents m' c))))).trans (Cert.ReferenceIdeal.RKeep.mid_arg17 (after (Cert.ReferenceIdeal.RefRun.opsMsg0 (F := Ideal)) (after (Cert.ReferenceIdeal.RefRun.opsPre (F := Ideal)) (launchContents m' c))))).trans (Cert.ReferenceIdeal.RKeep.msg0_arg17 (after (Cert.ReferenceIdeal.RefRun.opsPre (F := Ideal)) (launchContents m' c)))).trans (Cert.ReferenceIdeal.RKeep.pre_arg17 (launchContents m' c))).trans (a17.trans (W4_arg17 m ρ c).symm)
  have t18 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_arg18) = W4 m ρ c (Proc.devRef .tc Cert.KernelIdeal.main_arg18) := ((((Cert.ReferenceIdeal.RKeep.msg1_arg18 (after (Cert.ReferenceIdeal.RefRun.opsMid (F := Ideal)) (after (Cert.ReferenceIdeal.RefRun.opsMsg0 (F := Ideal)) (after (Cert.ReferenceIdeal.RefRun.opsPre (F := Ideal)) (launchContents m' c))))).trans (Cert.ReferenceIdeal.RKeep.mid_arg18 (after (Cert.ReferenceIdeal.RefRun.opsMsg0 (F := Ideal)) (after (Cert.ReferenceIdeal.RefRun.opsPre (F := Ideal)) (launchContents m' c))))).trans (Cert.ReferenceIdeal.RKeep.msg0_arg18 (after (Cert.ReferenceIdeal.RefRun.opsPre (F := Ideal)) (launchContents m' c)))).trans (Cert.ReferenceIdeal.RKeep.pre_arg18 (launchContents m' c))).trans (a18.trans (W4_arg18 m ρ c).symm)
  have t19 : (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) (Proc.devRef .tc Cert.ReferenceIdeal.main_arg19) = W4 m ρ c (Proc.devRef .tc Cert.KernelIdeal.main_arg19) := ((((Cert.ReferenceIdeal.RKeep.msg1_arg19 (after (Cert.ReferenceIdeal.RefRun.opsMid (F := Ideal)) (after (Cert.ReferenceIdeal.RefRun.opsMsg0 (F := Ideal)) (after (Cert.ReferenceIdeal.RefRun.opsPre (F := Ideal)) (launchContents m' c))))).trans (Cert.ReferenceIdeal.RKeep.mid_arg19 (after (Cert.ReferenceIdeal.RefRun.opsMsg0 (F := Ideal)) (after (Cert.ReferenceIdeal.RefRun.opsPre (F := Ideal)) (launchContents m' c))))).trans (Cert.ReferenceIdeal.RKeep.msg0_arg19 (after (Cert.ReferenceIdeal.RefRun.opsPre (F := Ideal)) (launchContents m' c)))).trans (Cert.ReferenceIdeal.RKeep.pre_arg19 (launchContents m' c))).trans (a19.trans (W4_arg19 m ρ c).symm)
  exact Cert.Stages.tail_out (W4 m ρ c) (after (Cert.ReferenceIdeal.RefRun.opsMsg1 (F := Ideal)) (after (Cert.ReferenceIdeal.RefRun.opsMid (F := Ideal)) (after (Cert.ReferenceIdeal.RefRun.opsMsg0 (F := Ideal)) (after (Cert.ReferenceIdeal.RefRun.opsPre (F := Ideal)) (launchContents m' c))))) cur4 dst4 msg4 t3 t14 t15 t16 t17 t18 t19

end Cert.Bridge

end
-- ==== Proof.lean ====
/-
  The certificate: the message kernel's program against the reference, a two-layer crystal-graph convolution
  with batch normalisation, mean pooling over graphs and a two-layer read-out.

  The kernel program launches a message kernel once per layer.  For every edge and output feature the kernel
  computes logistic(gate_f) · softplus(gate_s), each gate the contraction of the edge's target-node features,
  source-node features and attributes against the three row bands of a 144-row weight matrix, plus a bias; the
  operands are rounded to a narrower format on the way into the matrix unit, which on the exact extended reals
  is the identity.  The reference concatenates the three operand blocks into 144 columns and contracts once, and
  spells the logistic as 1/(1 + e^(-x)).  A sum over 144 terms is the sum of its three bands (addition of
  extended reals is commutative and associative, no finiteness is used), so the two message arrays agree entry
  by entry; every other operation — gathers, scatter-adds, the normalisation, the pooling, the read-out — is the
  same host operation in both programs, applied to equal operands.

  The three frames: the kernel program's two (word-level and idealized) are the generated frame certificates;
  the reference's is its run, a straight line of host operations none of which writes an argument.  The
  idealization rewrote nothing, so there is nothing to preserve.
-/
import proofs.«163275_j5145370821233_2_alg».proof.Defs
import proofs.«163275_j5145370821233_2_alg».proof.Proof.Gen.Kernel
import proofs.«163275_j5145370821233_2_alg».proof.Proof.Gen.Kernel.Skeleton
import proofs.«163275_j5145370821233_2_alg».proof.Proof.Gen.Kernel.Launch
import proofs.«163275_j5145370821233_2_alg».proof.Proof.Gen.Kernel.Points
import proofs.«163275_j5145370821233_2_alg».proof.Proof.Gen.Kernel.Frame
import proofs.«163275_j5145370821233_2_alg».proof.Proof.Gen.KernelIdeal
import proofs.«163275_j5145370821233_2_alg».proof.Proof.Gen.KernelIdeal.Skeleton
import proofs.«163275_j5145370821233_2_alg».proof.Proof.Gen.KernelIdeal.Launch
import proofs.«163275_j5145370821233_2_alg».proof.Proof.Gen.KernelIdeal.Points
import proofs.«163275_j5145370821233_2_alg».proof.Proof.Gen.KernelIdeal.Frame
import proofs.«163275_j5145370821233_2_alg».proof.Proof.Gen.ReferenceIdeal
import proofs.«163275_j5145370821233_2_alg».proof.Proof.Gen.Pre_finite_inputs
import proofs.«163275_j5145370821233_2_alg».proof.Proof.KRun
import proofs.«163275_j5145370821233_2_alg».proof.Proof.RefRun
import proofs.«163275_j5145370821233_2_alg».proof.Proof.RefFrame
import proofs.«163275_j5145370821233_2_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments alone. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs — a straight line of host operations — and none of them writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => ⟨(h c Cert.ReferenceIdeal.main_arg0).trans (Cert.ReferenceIdeal.RefFrame.arg0 m c),
      (h c Cert.ReferenceIdeal.main_arg1).trans (Cert.ReferenceIdeal.RefFrame.arg1 m c),
      (h c Cert.ReferenceIdeal.main_arg2).trans (Cert.ReferenceIdeal.RefFrame.arg2 m c),
      (h c Cert.ReferenceIdeal.main_arg3).trans (Cert.ReferenceIdeal.RefFrame.arg3 m c),
      (h c Cert.ReferenceIdeal.main_arg4).trans (Cert.ReferenceIdeal.RefFrame.arg4 m c),
      (h c Cert.ReferenceIdeal.main_arg5).trans (Cert.ReferenceIdeal.RefFrame.arg5 m c),
      (h c Cert.ReferenceIdeal.main_arg6).trans (Cert.ReferenceIdeal.RefFrame.arg6 m c),
      (h c Cert.ReferenceIdeal.main_arg7).trans (Cert.ReferenceIdeal.RefFrame.arg7 m c),
      (h c Cert.ReferenceIdeal.main_arg8).trans (Cert.ReferenceIdeal.RefFrame.arg8 m c),
      (h c Cert.ReferenceIdeal.main_arg9).trans (Cert.ReferenceIdeal.RefFrame.arg9 m c),
      (h c Cert.ReferenceIdeal.main_arg10).trans (Cert.ReferenceIdeal.RefFrame.arg10 m c),
      (h c Cert.ReferenceIdeal.main_arg11).trans (Cert.ReferenceIdeal.RefFrame.arg11 m c),
      (h c Cert.ReferenceIdeal.main_arg12).trans (Cert.ReferenceIdeal.RefFrame.arg12 m c),
      (h c Cert.ReferenceIdeal.main_arg13).trans (Cert.ReferenceIdeal.RefFrame.arg13 m c),
      (h c Cert.ReferenceIdeal.main_arg14).trans (Cert.ReferenceIdeal.RefFrame.arg14 m c),
      (h c Cert.ReferenceIdeal.main_arg15).trans (Cert.ReferenceIdeal.RefFrame.arg15 m c),
      (h c Cert.ReferenceIdeal.main_arg16).trans (Cert.ReferenceIdeal.RefFrame.arg16 m c),
      (h c Cert.ReferenceIdeal.main_arg17).trans (Cert.ReferenceIdeal.RefFrame.arg17 m c),
      (h c Cert.ReferenceIdeal.main_arg18).trans (Cert.ReferenceIdeal.RefFrame.arg18 m c),
      (h c Cert.ReferenceIdeal.main_arg19).trans (Cert.ReferenceIdeal.RefFrame.arg19 m c)⟩)
    (Cert.ReferenceIdeal.RefRun.run (F := Ideal) m ρ)

/-- From memories that agree on the arguments both idealized programs run, end with the same result array, and leave
    their arguments alone. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W7 m ρ c (Proc.devRef .tc Cert.KernelIdeal.main_v116), Cert.KernelIdeal.KRun.run (F := Ideal) m ρ, ?_⟩
  refine (θ_run Cert.ReferenceIdeal.defs _ _).mono (fun _ h c => ?_) (Cert.ReferenceIdeal.RefRun.run (F := Ideal) m' ρ')
  obtain ⟨g0, g1, g2, g3, g4, g5, g6, g7, g8, g9, g10, g11, g12, g13, g14, g15, g16, g17, g18, g19⟩ := hagree c
  exact ⟨(h c Cert.ReferenceIdeal.main_v144).trans (Cert.Bridge.value_eq m ρ c m' g0 g1 g2 g3 g4 g5 g6 g7 g8 g9 g10 g11 g12 g13 g14 g15 g16 g17 g18 g19),
      (h c Cert.ReferenceIdeal.main_arg0).trans (Cert.ReferenceIdeal.RefFrame.arg0 m' c),
      (h c Cert.ReferenceIdeal.main_arg1).trans (Cert.ReferenceIdeal.RefFrame.arg1 m' c),
      (h c Cert.ReferenceIdeal.main_arg2).trans (Cert.ReferenceIdeal.RefFrame.arg2 m' c),
      (h c Cert.ReferenceIdeal.main_arg3).trans (Cert.ReferenceIdeal.RefFrame.arg3 m' c),
      (h c Cert.ReferenceIdeal.main_arg4).trans (Cert.ReferenceIdeal.RefFrame.arg4 m' c),
      (h c Cert.ReferenceIdeal.main_arg5).trans (Cert.ReferenceIdeal.RefFrame.arg5 m' c),
      (h c Cert.ReferenceIdeal.main_arg6).trans (Cert.ReferenceIdeal.RefFrame.arg6 m' c),
      (h c Cert.ReferenceIdeal.main_arg7).trans (Cert.ReferenceIdeal.RefFrame.arg7 m' c),
      (h c Cert.ReferenceIdeal.main_arg8).trans (Cert.ReferenceIdeal.RefFrame.arg8 m' c),
      (h c Cert.ReferenceIdeal.main_arg9).trans (Cert.ReferenceIdeal.RefFrame.arg9 m' c),
      (h c Cert.ReferenceIdeal.main_arg10).trans (Cert.ReferenceIdeal.RefFrame.arg10 m' c),
      (h c Cert.ReferenceIdeal.main_arg11).trans (Cert.ReferenceIdeal.RefFrame.arg11 m' c),
      (h c Cert.ReferenceIdeal.main_arg12).trans (Cert.ReferenceIdeal.RefFrame.arg12 m' c),
      (h c Cert.ReferenceIdeal.main_arg13).trans (Cert.ReferenceIdeal.RefFrame.arg13 m' c),
      (h c Cert.ReferenceIdeal.main_arg14).trans (Cert.ReferenceIdeal.RefFrame.arg14 m' c),
      (h c Cert.ReferenceIdeal.main_arg15).trans (Cert.ReferenceIdeal.RefFrame.arg15 m' c),
      (h c Cert.ReferenceIdeal.main_arg16).trans (Cert.ReferenceIdeal.RefFrame.arg16 m' c),
      (h c Cert.ReferenceIdeal.main_arg17).trans (Cert.ReferenceIdeal.RefFrame.arg17 m' c),
      (h c Cert.ReferenceIdeal.main_arg18).trans (Cert.ReferenceIdeal.RefFrame.arg18 m' c),
      (h c Cert.ReferenceIdeal.main_arg19).trans (Cert.ReferenceIdeal.RefFrame.arg19 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
